-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1 .f32) (main_arg12 : FVec F S1 .f32) (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S64 .f32) (main_arg8 : FVec F S64 .f32) (main_arg9 : FVec F S64 .f32) (main_arg10 : FVec F S64x1 .f32) (main_arg11 : FVec F S1 .f32) (main_arg12 : FVec F S1 .f32) (main_arg13 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_arg12 main_arg13 main_v48 main_v49 main_v50

def fn_part1 {F : FTy → Type} [FloatOps F] (main_arg4 : FVec F S64 .f32) (main_arg5 : FVec F S64 .f32) (main_arg6 : FVec F S128x64 .f32) (main_arg7 : FVec F S64 .f32) (main_arg8 : FVec F S64 .f32) (main_arg9 : FVec F S64 .f32) (main_arg10 : FVec F S64x1 .f32) (main_arg11 : FVec F S1 .f32) (main_arg12 : FVec F S1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1000000x128 .f32) (main_arg1 : FVec F S1000000x128 .f32) (main_arg2 : FVec F S128x64 .f32) (main_arg3 : FVec F S64 .f32) (main_arg4 : FVec F S64 .f32) (main_arg5 : FVec F S64 .f32) (main_arg6 : FVec F S128x64 .f32) (main_arg7 : FVec F S64 .f32) (main_arg8 : FVec F S64 .f32) (main_arg9 : FVec F S64 .f32) (main_arg10 : FVec F S64x1 .f32) (main_arg11 : FVec F S1 .f32) (main_arg12 : FVec F S1 .f32) (main_arg13 : FVec F S1 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S1000000x128 : Shape := ⟨2, ![1000000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S2x1x64 : Shape := ⟨3, ![2, 1, 64]⟩
abbrev S4000x128 : Shape := ⟨2, ![4000, 128]⟩
abbrev S1x1x64 : Shape := ⟨3, ![1, 1, 64]⟩
abbrev S4000x64 : Shape := ⟨2, ![4000, 64]⟩
abbrev S_ : Shape := ⟨0, ![]⟩
abbrev S2x1x1 : Shape := ⟨3, ![2, 1, 1]⟩
abbrev S1000000x1 : Shape := ⟨2, ![1000000, 1]⟩
abbrev S1x1x1 : Shape := ⟨3, ![1, 1, 1]⟩
abbrev S4000x1 : Shape := ⟨2, ![4000, 1]⟩
abbrev S4000 : Shape := ⟨1, ![4000]⟩

abbrev nBuf : Space → Nat
  | .hbm => 98
  | .vmem => 44
  | .smem => 0
  | _ => 0

abbrev bufTy : (tb : Table) → Fin (tcTables nBuf tb) → BufTy
  | .hbm, ⟨0, _⟩ => ⟨S1000000x128, .f32⟩
  | .hbm, ⟨1, _⟩ => ⟨S1000000x128, .f32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x1, .f32⟩
  | .hbm, ⟨21, _⟩ => ⟨S1x1, .f32⟩
  | .hbm, ⟨22, _⟩ => ⟨S1x1, .f32⟩
  | .hbm, ⟨23, _⟩ => ⟨S1x64, .f32⟩
  | .hbm, ⟨24, _⟩ => ⟨S2x1x64, .f32⟩
  | .hbm, ⟨25, _⟩ => ⟨S2x1x64, .f32⟩
  | .hbm, ⟨26, _⟩ => ⟨S2x1x64, .f32⟩
  | .hbm, ⟨27, _⟩ => ⟨S2x1x64, .f32⟩
  | .hbm, ⟨28, _⟩ => ⟨S_, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S_, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S_, .f32⟩
  | .hbm, ⟨37, _⟩ => ⟨S1x64, .f32⟩
  | .hbm, ⟨38, _⟩ => ⟨S1x64, .f32⟩
  | .hbm, ⟨39, _⟩ => ⟨S_, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S_, .f32⟩
  | .hbm, ⟨45, _⟩ => ⟨S1x64, .f32⟩
  | .hbm, ⟨46, _⟩ => ⟨S1x64, .f32⟩
  | .hbm, ⟨47, _⟩ => ⟨S_, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S_, .f32⟩
  | .hbm, ⟨55, _⟩ => ⟨S1x64, .f32⟩
  | .hbm, ⟨56, _⟩ => ⟨S1x64, .f32⟩
  | .hbm, ⟨57, _⟩ => ⟨S_, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S1x64, .f32⟩
  | .hbm, ⟨62, _⟩ => ⟨S_, .f32⟩
  | .hbm, ⟨63, _⟩ => ⟨S1x64, .f32⟩
  | .hbm, ⟨64, _⟩ => ⟨S1x64, .f32⟩
  | .hbm, ⟨65, _⟩ => ⟨S_, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S2x1x1, .f32⟩
  | .hbm, ⟨73, _⟩ => ⟨S2x1x1, .f32⟩
  | .hbm, ⟨74, _⟩ => ⟨S1000000x1, .f32⟩
  | .hbm, ⟨75, _⟩ => ⟨S_, .f32⟩
  | .hbm, ⟨76, _⟩ => ⟨S1x1, .f32⟩
  | .hbm, ⟨77, _⟩ => ⟨S_, .f32⟩
  | .hbm, ⟨78, _⟩ => ⟨S1x1, .f32⟩
  | .hbm, ⟨79, _⟩ => ⟨S_, .f32⟩
  | .hbm, ⟨80, _⟩ => ⟨S1x1, .f32⟩
  | .hbm, ⟨81, _⟩ => ⟨S1x1, .f32⟩
  | .hbm, ⟨82, _⟩ => ⟨S_, .f32⟩
  | .hbm, ⟨83, _⟩ => ⟨S1x1, .f32⟩
  | .hbm, ⟨84, _⟩ => ⟨S1x1, .f32⟩
  | .hbm, ⟨85, _⟩ => ⟨S1x1, .f32⟩
  | .hbm, ⟨86, _⟩ => ⟨S1x1, .f32⟩
  | .hbm, ⟨87, _⟩ => ⟨S_, .f32⟩
  | .hbm, ⟨88, _⟩ => ⟨S1x1, .f32⟩
  | .hbm, ⟨89, _⟩ => ⟨S1x1, .f32⟩
  | .hbm, ⟨90, _⟩ => ⟨S_, .f32⟩
  | .hbm, ⟨91, _⟩ => ⟨S1x1, .f32⟩
  | .hbm, ⟨92, _⟩ => ⟨S1x1, .f32⟩
  | .hbm, ⟨93, _⟩ => ⟨S1x1, .f32⟩
  | .hbm, ⟨94, _⟩ => ⟨S1x1, .f32⟩
  | .hbm, ⟨95, _⟩ => ⟨S1x1, .f32⟩
  | .hbm, ⟨96, _⟩ => ⟨S1x1, .f32⟩
  | .hbm, ⟨97, _⟩ => ⟨S1000000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x64, .f32⟩
  | .local _ .vmem, ⟨5, _⟩ => ⟨S1x64, .f32⟩
  | .local _ .vmem, ⟨6, _⟩ => ⟨S128x64, .f32⟩
  | .local _ .vmem, ⟨7, _⟩ => ⟨S1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x64, .f32⟩
  | .local _ .vmem, ⟨21, _⟩ => ⟨S1x64, .f32⟩
  | .local _ .vmem, ⟨22, _⟩ => ⟨S128x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x1, .f32⟩
  | .local _ .vmem, ⟨30, _⟩ => ⟨S1x1x1, .f32⟩
  | .local _ .vmem, ⟨31, _⟩ => ⟨S1x1x1, .f32⟩
  | .local _ .vmem, ⟨32, _⟩ => ⟨S1x1x1, .f32⟩
  | .local _ .vmem, ⟨33, _⟩ => ⟨S1x1x1, .f32⟩
  | .local _ .vmem, ⟨34, _⟩ => ⟨S4000x1, .f32⟩
  | .local _ .vmem, ⟨35, _⟩ => ⟨S4000x1, .f32⟩
  | .local _ .vmem, ⟨36, _⟩ => ⟨S4000x128, .f32⟩
  | .local _ .vmem, ⟨37, _⟩ => ⟨S4000x128, .f32⟩
  | .local _ .vmem, ⟨38, _⟩ => ⟨S4000x1, .f32⟩
  | .local _ .vmem, ⟨39, _⟩ => ⟨S4000x1, .f32⟩
  | .local _ .vmem, ⟨40, _⟩ => ⟨S1x1, .f32⟩
  | .local _ .vmem, ⟨41, _⟩ => ⟨S1x1, .f32⟩
  | .local _ .vmem, ⟨42, _⟩ => ⟨S4000x128, .f32⟩
  | .local _ .vmem, ⟨43, _⟩ => ⟨S4000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v10_3 : Ref sig .tc := ⟨.hbm, 27, rfl⟩
abbrev main_cst : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_cst_8 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_cst_10 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43_0 : Ref sig .tc := ⟨.hbm, 72, rfl⟩
abbrev main_v43_1 : Ref sig .tc := ⟨.hbm, 73, rfl⟩
abbrev main_v43_2 : Ref sig .tc := ⟨.hbm, 74, rfl⟩
abbrev main_cst_11 : Ref sig .tc := ⟨.hbm, 75, rfl⟩
abbrev main_v44 : Ref sig .tc := ⟨.hbm, 76, rfl⟩
abbrev main_cst_12 : Ref sig .tc := ⟨.hbm, 77, rfl⟩
abbrev main_v45 : Ref sig .tc := ⟨.hbm, 78, rfl⟩
abbrev main_cst_13 : Ref sig .tc := ⟨.hbm, 79, rfl⟩
abbrev main_v46 : Ref sig .tc := ⟨.hbm, 80, rfl⟩
abbrev main_v47 : Ref sig .tc := ⟨.hbm, 81, rfl⟩
abbrev main_cst_14 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_15 : Ref sig .tc := ⟨.hbm, 87, rfl⟩
abbrev main_v52 : Ref sig .tc := ⟨.hbm, 88, rfl⟩
abbrev main_v53 : Ref sig .tc := ⟨.hbm, 89, rfl⟩
abbrev main_cst_16 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg12_1 : Ref sig .tc := ⟨.vmem, 31, rfl⟩
abbrev cc1_stg13_0 : Ref sig .tc := ⟨.vmem, 32, rfl⟩
abbrev cc1_stg13_1 : Ref sig .tc := ⟨.vmem, 33, rfl⟩
abbrev cc1_stg14_0 : Ref sig .tc := ⟨.vmem, 34, rfl⟩
abbrev cc1_stg14_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg4_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem12_1 : DmaSem sig := 31
abbrev cc1_sem13_0 : DmaSem sig := 32
abbrev cc1_sem13_1 : DmaSem sig := 33
abbrev cc1_sem14_0 : DmaSem sig := 34
abbrev cc1_sem14_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem3_0 : DmaSem sig := 41
abbrev cc2_sem4_0 : DmaSem sig := 42
abbrev cc2_sem4_1 : DmaSem sig := 43

abbrev nD : Nat := 1
abbrev τ : Topo := Topo.v7x

variable {F : FTy → Type} [FloatOps F]

abbrev grid0 : Pipeline.Grid := ⟨2, ![2, 125], ![false, false]⟩

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![2, 125], ![false, false]⟩

def cc1_transform_0 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S1x1x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S1x1x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S4000x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S64_S1x64 : S64.ShapeCasts S1x64
  shapeCasts_S1_S1x1 : S1.ShapeCasts S1x1
  transposes_S64x1_S1x64_1_0 : S64x1.Transposes [1, 0] S1x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  inb_S4000x128_S4000x128_0_0 : ∀ a, (![0, 0] : Fin 2 → Nat) a + S4000x128.size a ≤ S4000x128.size a
  h_S4000x128 : 0 < S4000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S64 : S4000x64.Reduces [0] S64
  reducesTo_S2x1x64_S1x64_d0 : S2x1x64.ReducesTo [0] S1x64
  h_S_ : 0 < S_.numel
  bcast_S_S1x64 : S_.BroadcastsInDim S1x64 (![] : Fin 0 → Fin S1x64.rank)
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reduces_S4000x64_S4000 : S4000x64.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  reduces_S4000x1_S1 : S4000x1.Reduces [0] S1
  reducesTo_S2x1x1_S1x1_d0 : S2x1x1.ReducesTo [0] S1x1
  bcast_S_S1x1 : S_.BroadcastsInDim S1x1 (![] : Fin 0 → Fin S1x1.rank)
  shapeCasts_S4000x1_S4000x1 : S4000x1.ShapeCasts S4000x1
  broadcasts_S4000x1_S4000x128 : S4000x1.Broadcasts S4000x128
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S1000000x128.size a
  hwx0_1 : ∀ i : grid0.Coords, EltTy.bits .f32 = 32 ∨ (Rect.block (s := S1000000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S2x1x64.size a
  hwx0_6 : ∀ i : grid0.Coords, EltTy.bits .f32 = 32 ∨ (Rect.block (s := S2x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S2x1x64.size a
  hwx0_7 : ∀ i : grid0.Coords, EltTy.bits .f32 = 32 ∨ (Rect.block (s := S2x1x64) S1x1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x64.size a ≤ S2x1x64.size a
  hwx0_8 : ∀ i : grid0.Coords, EltTy.bits .f32 = 32 ∨ (Rect.block (s := S2x1x64) S1x1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x64.size a ≤ S2x1x64.size a
  hwx0_9 : ∀ i : grid0.Coords, EltTy.bits .f32 = 32 ∨ (Rect.block (s := S2x1x64) S1x1x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S1000000x128.size a
  hwx1_0 : ∀ i : grid1.Coords, EltTy.bits .f32 = 32 ∨ (Rect.block (s := S1000000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S1000000x128.size a
  hwx1_1 : ∀ i : grid1.Coords, EltTy.bits .f32 = 32 ∨ (Rect.block (s := S1000000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x1x1.size a ≤ S2x1x1.size a
  hwx1_12 : ∀ i : grid1.Coords, EltTy.bits .f32 = 32 ∨ (Rect.block (s := S2x1x1) S1x1x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x1x1.size a ≤ S2x1x1.size a
  hwx1_13 : ∀ i : grid1.Coords, EltTy.bits .f32 = 32 ∨ (Rect.block (s := S2x1x1) S1x1x1.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S4000x1.size a ≤ S1000000x1.size a
  hwx1_14 : ∀ i : grid1.Coords, EltTy.bits .f32 = 32 ∨ (Rect.block (s := S1000000x1) S4000x1.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S1000000x128.size a
  hwx2_0 : ∀ i : grid2.Coords, EltTy.bits .f32 = 32 ∨ (Rect.block (s := S1000000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S1000000x1.size a
  hwx2_1 : ∀ i : grid2.Coords, EltTy.bits .f32 = 32 ∨ (Rect.block (s := S1000000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S1000000x128.size a
  hwx2_4 : ∀ i : grid2.Coords, EltTy.bits .f32 = 32 ∨ (Rect.block (s := S1000000x128) S4000x128.size (cc2_transform_4 i) (hinb2_4 i)).WholeWords (EltTy.packing .f32)

variable [Facts₀]

def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S1x1x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S1x1x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_2) S1x1x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_3) S1x1x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v40) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v9) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v6) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v43_0) S1x1x1.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v43_1) S1x1x1.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v43_2) S4000x1.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_arg1) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43_2) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1000000x128 : Shape := ⟨2, ![1000000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1000000x64 : Shape := ⟨2, ![1000000, 64]⟩
abbrev S1x64 : Shape := ⟨2, ![1, 64]⟩
abbrev S_ : Shape := ⟨0, ![]⟩
abbrev S1000000x1 : Shape := ⟨2, ![1000000, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000x128, .f32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1000000x64, .f32⟩
  | .hbm, ⟨15, _⟩ => ⟨S1x64, .f32⟩
  | .hbm, ⟨16, _⟩ => ⟨S1000000x64, .f32⟩
  | .hbm, ⟨17, _⟩ => ⟨S1000000x64, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S1000000x64, .f32⟩
  | .hbm, ⟨25, _⟩ => ⟨S1000000x64, .f32⟩
  | .hbm, ⟨26, _⟩ => ⟨S1000000x64, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S1x64, .f32⟩
  | .hbm, ⟨33, _⟩ => ⟨S1000000x64, .f32⟩
  | .hbm, ⟨34, _⟩ => ⟨S1000000x64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S1x64, .f32⟩
  | .hbm, ⟨41, _⟩ => ⟨S1000000x64, .f32⟩
  | .hbm, ⟨42, _⟩ => ⟨S1000000x64, .f32⟩
  | .hbm, ⟨43, _⟩ => ⟨S1x64, .f32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S1x64, .f32⟩
  | .hbm, ⟨48, _⟩ => ⟨S1000000x64, .f32⟩
  | .hbm, ⟨49, _⟩ => ⟨S1000000x64, .f32⟩
  | .hbm, ⟨50, _⟩ => ⟨S_, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S1x64, .f32⟩
  | .hbm, ⟨56, _⟩ => ⟨S1000000x64, .f32⟩
  | .hbm, ⟨57, _⟩ => ⟨S1000000x64, .f32⟩
  | .hbm, ⟨58, _⟩ => ⟨S1000000x64, .f32⟩
  | .hbm, ⟨59, _⟩ => ⟨S_, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S1x64, .f32⟩
  | .hbm, ⟨65, _⟩ => ⟨S1000000x64, .f32⟩
  | .hbm, ⟨66, _⟩ => ⟨S1000000x64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S1x64, .f32⟩
  | .hbm, ⟨73, _⟩ => ⟨S1000000x64, .f32⟩
  | .hbm, ⟨74, _⟩ => ⟨S1000000x64, .f32⟩
  | .hbm, ⟨75, _⟩ => ⟨S1x64, .f32⟩
  | .hbm, ⟨76, _⟩ => ⟨S1000000x64, .f32⟩
  | .hbm, ⟨77, _⟩ => ⟨S1000000x64, .f32⟩
  | .hbm, ⟨78, _⟩ => ⟨S1000000x64, .f32⟩
  | .hbm, ⟨79, _⟩ => ⟨S_, .f32⟩
  | .hbm, ⟨80, _⟩ => ⟨S1000000x64, .f32⟩
  | .hbm, ⟨81, _⟩ => ⟨S1000000x64, .f32⟩
  | .hbm, ⟨82, _⟩ => ⟨S1000000x1, .f32⟩
  | .hbm, ⟨83, _⟩ => ⟨S1x1, .f32⟩
  | .hbm, ⟨84, _⟩ => ⟨S1000000x1, .f32⟩
  | .hbm, ⟨85, _⟩ => ⟨S1000000x1, .f32⟩
  | .hbm, ⟨86, _⟩ => ⟨S_, .f32⟩
  | .hbm, ⟨87, _⟩ => ⟨S1, .f32⟩
  | .hbm, ⟨88, _⟩ => ⟨S_, .f32⟩
  | .hbm, ⟨89, _⟩ => ⟨S1, .f32⟩
  | .hbm, ⟨90, _⟩ => ⟨S1, .f32⟩
  | .hbm, ⟨91, _⟩ => ⟨S1x1, .f32⟩
  | .hbm, ⟨92, _⟩ => ⟨S1000000x1, .f32⟩
  | .hbm, ⟨93, _⟩ => ⟨S1000000x1, .f32⟩
  | .hbm, ⟨94, _⟩ => ⟨S1000000x1, .f32⟩
  | .hbm, ⟨95, _⟩ => ⟨S_, .f32⟩
  | .hbm, ⟨96, _⟩ => ⟨S1, .f32⟩
  | .hbm, ⟨97, _⟩ => ⟨S_, .f32⟩
  | .hbm, ⟨98, _⟩ => ⟨S1, .f32⟩
  | .hbm, ⟨99, _⟩ => ⟨S1, .f32⟩
  | .hbm, ⟨100, _⟩ => ⟨S1x1, .f32⟩
  | .hbm, ⟨101, _⟩ => ⟨S1000000x1, .f32⟩
  | .hbm, ⟨102, _⟩ => ⟨S1000000x1, .f32⟩
  | .hbm, ⟨103, _⟩ => ⟨S_, .f32⟩
  | .hbm, ⟨104, _⟩ => ⟨S1, .f32⟩
  | .hbm, ⟨105, _⟩ => ⟨S1, .f32⟩
  | .hbm, ⟨106, _⟩ => ⟨S1, .f32⟩
  | .hbm, ⟨107, _⟩ => ⟨S1, .f32⟩
  | .hbm, ⟨108, _⟩ => ⟨S1x1, .f32⟩
  | .hbm, ⟨109, _⟩ => ⟨S1000000x1, .f32⟩
  | .hbm, ⟨110, _⟩ => ⟨S1000000x1, .f32⟩
  | .hbm, ⟨111, _⟩ => ⟨S1x1, .f32⟩
  | .hbm, ⟨112, _⟩ => ⟨S1000000x1, .f32⟩
  | .hbm, ⟨113, _⟩ => ⟨S1000000x1, .f32⟩
  | .hbm, ⟨114, _⟩ => ⟨S1000000x1, .f32⟩
  | .hbm, ⟨115, _⟩ => ⟨S1000000x1, .f32⟩
  | .hbm, ⟨116, _⟩ => ⟨S_, .f32⟩
  | .hbm, ⟨117, _⟩ => ⟨S1000000x1, .f32⟩
  | .hbm, ⟨118, _⟩ => ⟨S1000000x1, .f32⟩
  | .hbm, ⟨119, _⟩ => ⟨S_, .f32⟩
  | .hbm, ⟨120, _⟩ => ⟨S1000000x1, .f32⟩
  | .hbm, ⟨121, _⟩ => ⟨S1000000x1, .f32⟩
  | .hbm, ⟨122, _⟩ => ⟨S1000000x128, .f32⟩
  | .hbm, ⟨123, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call0_cst : Ref sig .tc := ⟨.hbm, 79, rfl⟩
abbrev main_call0_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_9 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_11 : Ref sig .tc := ⟨.hbm, 95, rfl⟩
abbrev main_v67 : Ref sig .tc := ⟨.hbm, 96, rfl⟩
abbrev main_cst_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_13 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  reducesTo_S1000000x64_S64_d0 : S1000000x64.ReducesTo [0] S64
  h_S_ : 0 < S_.numel
  bcast_S_S64 : S_.BroadcastsInDim S64 (![] : Fin 0 → Fin S64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1_d0 : S1000000x1.ReducesTo [0] S1
  bcast_S_S1 : S_.BroadcastsInDim S1 (![] : Fin 0 → Fin S1.rank)
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []

variable [Facts₀]

def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.Spec.lean ====
/-
  The arithmetic of the gated network on the extended reals, entry by entry, written once so that both programs can be
  compared with it.

  A dense layer sends row n of its input x to  (Σₖ x[n,k] · W[k,j]) + b[j].  The million rows are cut into two halves of
  125 blocks of 4000 consecutive rows; row r of block p of half c is row (125·c + p)·4000 + r.  A per-half sum adds a
  function of the row over the 125 · 4000 rows of one half, and the two per-half sums together are the sum over all rows.
  The gate's pre-activation at a row is  Σⱼ max(u[n,j] + v[n,j], 0) · w[j] + b  where u and v are the two dense layers
  after a per-channel scale and shift.
-/
import Idealize.ShloMosaic.PureOps.Ideal
import Idealize.ShloMosaic.Lib.ValueIdx
import Mathlib.Algebra.BigOperators.Fin
import Mathlib.Logic.Equiv.Fin.Basic

noncomputable section

namespace Cert.Spec

open Idealize.ShloMosaic Idealize.ShloMosaic.ValueIdx
open scoped BigOperators

/-- An a-by-b array of extended reals, indexed as the programs index it. -/
abbrev Mat (a b : Nat) : Type := (⟨2, ![a, b]⟩ : Shape).Idx → EReal
/-- A vector of extended reals. -/
abbrev Vc (a : Nat) : Type := (⟨1, ![a]⟩ : Shape).Idx → EReal
/-- A rank-3 array of extended reals. -/
abbrev Cube (a b c : Nat) : Type := (⟨3, ![a, b, c]⟩ : Shape).Idx → EReal

/-- The four float words the programs share: 0, the row count 10⁶, the stabiliser 10⁻⁵ (as single precision rounds it), 1. -/
def zeroW : EReal := Ideal.ofBits .f32 0x00000000#32
def countW : EReal := Ideal.ofBits .f32 0x49742400#32
def epsW : EReal := Ideal.ofBits .f32 0x3727C5AC#32
def oneW : EReal := Ideal.ofBits .f32 0x3F800000#32

/-- Entry (n, j) of a dense layer whose bias is laid as a 1-by-64 row: (Σₖ x[n,k] · W[k,j]) + b[0,j]. -/
def lin (x : Mat 1000000 128) (W : Mat 128 64) (b : Mat 1 64) (n : Fin 1000000) (j : Fin 64) : EReal :=
  (∑ k : Fin 128, x (ix2 n k) * W (ix2 k j)) + b (ix2 0 j)

/-- Row r of block p of half c: row (125·c + p)·4000 + r of the million. -/
def row (c : Fin 2) (p : Fin 125) (r : Fin 4000) : Fin 1000000 :=
  ⟨(125 * c.val + p.val) * 4000 + r.val, by have := c.isLt; have := p.isLt; have := r.isLt; omega⟩

/-- The sum of f over the rows of half c, block by block. -/
def halfSum (f : Fin 1000000 → EReal) (c : Fin 2) : EReal := ∑ p : Fin 125, ∑ r : Fin 4000, f (row c p r)

/-- The gate's pre-activation at row n:  Σⱼ max((hg[n,j]·sg[j] + tg[j]) + (hx[n,j]·sx[j] + tx[j]), 0) · w[j] + b,
    with hg and hx the two dense layers and every per-channel vector laid as a 1-by-64 row. -/
def gatePre (gate skip : Mat 1000000 128) (Wg : Mat 128 64) (bg : Mat 1 64) (Wx : Mat 128 64) (bx : Mat 1 64)
    (sg tg sx tx w : Mat 1 64) (b : Mat 1 1) (n : Fin 1000000) : EReal :=
  (∑ j : Fin 64, max ((lin gate Wg bg n j * sg (ix2 0 j) + tg (ix2 0 j))
      + (lin skip Wx bx n j * sx (ix2 0 j) + tx (ix2 0 j))) 0 * w (ix2 0 j)) + b (ix2 0 0)

/-! ## One spelling of the normalisation: moments first

From the column's sum S₁ and sum of squares S₂: mean = S₁ / N, variance = max(S₂ / N − mean², 0),
scale = γ · rsqrt(variance + ε), shift = β − mean · scale; an entry h is sent to h · scale + shift. -/

def meanK (S1 : EReal) : EReal := Ideal.div S1 countW
def varK (S1 S2 : EReal) : EReal := max (Ideal.div S2 countW - meanK S1 * meanK S1) zeroW
def scaleK (S1 S2 γ : EReal) : EReal := γ * Ideal.rsqrt (varK S1 S2 + epsW)
def shiftK (S1 S2 γ β : EReal) : EReal := β - meanK S1 * scaleK S1 S2 γ

/-- A column's sum as the first program forms it: the zero word plus the two per-half sums. -/
def totalK (f : Fin 1000000 → EReal) : EReal := zeroW + ∑ c : Fin 2, halfSum f c

/-- The per-channel scale row from a layer's moments: scale[j] = γ[j] · rsqrt(max(S₂[j]/N − (S₁[j]/N)², 0) + ε). -/
def scaleRow (h : Fin 1000000 → Fin 64 → EReal) (γ : Mat 1 64) : Mat 1 64 := fun q =>
  scaleK (totalK fun n => h n (q 1)) (totalK fun n => h n (q 1) * h n (q 1)) (γ q)
/-- The per-channel shift row: shift[j] = β[j] − mean[j] · scale[j]. -/
def shiftRow (h : Fin 1000000 → Fin 64 → EReal) (γ β : Mat 1 64) : Mat 1 64 := fun q =>
  shiftK (totalK fun n => h n (q 1)) (totalK fun n => h n (q 1) * h n (q 1)) (γ q) (β q)

/-- The first program's gate pre-activation: both dense layers scaled and shifted by their own moments. -/
def kerPre (gate skip : Mat 1000000 128) (Wg : Mat 128 64) (bg γg βg : Mat 1 64) (Wx : Mat 128 64) (bx γx βx : Mat 1 64)
    (w : Mat 1 64) (b : Mat 1 1) (n : Fin 1000000) : EReal :=
  gatePre gate skip Wg bg Wx bx (scaleRow (lin gate Wg bg) γg) (shiftRow (lin gate Wg bg) γg βg)
    (scaleRow (lin skip Wx bx) γx) (shiftRow (lin skip Wx bx) γx βx) w b n

/-- The first program's result: skip[n,k] · logistic(pre[n] · scale + shift), scale and shift from the moments of pre. -/
def kerOut (gate skip : Mat 1000000 128) (Wg : Mat 128 64) (bg γg βg : Mat 1 64) (Wx : Mat 128 64) (bx γx βx : Mat 1 64)
    (w : Mat 1 64) (b γp βp : Mat 1 1) : Mat 1000000 128 := fun i =>
  skip i * Ideal.logistic (kerPre gate skip Wg bg γg βg Wx bx γx βx w b (i 0)
      * scaleK (totalK (kerPre gate skip Wg bg γg βg Wx bx γx βx w b))
          (totalK fun n => kerPre gate skip Wg bg γg βg Wx bx γx βx w b n * kerPre gate skip Wg bg γg βg Wx bx γx βx w b n)
          (γp (ix2 0 0))
    + shiftK (totalK (kerPre gate skip Wg bg γg βg Wx bx γx βx w b))
          (totalK fun n => kerPre gate skip Wg bg γg βg Wx bx γx βx w b n * kerPre gate skip Wg bg γg βg Wx bx γx βx w b n)
          (γp (ix2 0 0)) (βp (ix2 0 0)))

/-! ## The other spelling: two passes

mean = (0 + Σₙ h[n]) / N, variance = (0 + Σₙ (h[n] − mean)²) / N, and an entry is sent to
(h[n] − mean) · (γ · rsqrt(variance + ε)) + β. -/

def meanR (h : Fin 1000000 → EReal) : EReal := Ideal.div (zeroW + ∑ n : Fin 1000000, h n) countW
def varR (h : Fin 1000000 → EReal) : EReal :=
  Ideal.div (zeroW + ∑ n : Fin 1000000, (h n - meanR h) * (h n - meanR h)) countW
def normR (h : Fin 1000000 → EReal) (γ β : EReal) (n : Fin 1000000) : EReal :=
  (h n - meanR h) * (γ * Ideal.rsqrt (varR h + epsW)) + β

/-- Entry (n, j) of a dense layer whose bias is a vector: (Σₖ x[n,k] · W[k,j]) + b[j]. -/
def linV (x : Mat 1000000 128) (W : Mat 128 64) (b : Vc 64) (n : Fin 1000000) (j : Fin 64) : EReal :=
  (∑ k : Fin 128, x (ix2 n k) * W (ix2 k j)) + b (ix1 j)

/-- The second program's gate pre-activation at row n: Σⱼ max(norm(hg)[n,j] + norm(hx)[n,j], 0) · Wψ[j,0] + bψ. -/
def gatePreR (gate skip : Mat 1000000 128) (Wg : Mat 128 64) (bg γg βg : Vc 64) (Wx : Mat 128 64) (bx γx βx : Vc 64)
    (Wpsi : Mat 64 1) (bpsi : Vc 1) (n : Fin 1000000) : EReal :=
  (∑ j : Fin 64, max (normR (fun n' => linV gate Wg bg n' j) (γg (ix1 j)) (βg (ix1 j)) n
      + normR (fun n' => linV skip Wx bx n' j) (γx (ix1 j)) (βx (ix1 j)) n) zeroW * Wpsi (ix2 j 0)) + bpsi (ix1 0)

/-- The second program's result: skip[n,k] · 1 / (1 + exp(−norm(gate pre-activation)[n])). -/
def refOut (gate skip : Mat 1000000 128) (Wg : Mat 128 64) (bg γg βg : Vc 64) (Wx : Mat 128 64) (bx γx βx : Vc 64)
    (Wpsi : Mat 64 1) (bpsi γpsi βpsi : Vc 1) : Mat 1000000 128 := fun i =>
  skip i * Ideal.div oneW (oneW + Ideal.exp (-(normR (gatePreR gate skip Wg bg γg βg Wx bx γx βx Wpsi bpsi)
    (γpsi (ix1 0)) (βpsi (ix1 0)) (i 0))))

/-- The two per-half sums together are the sum over all the rows (any commutative addition: no finiteness). -/
theorem sum_halves (f : Fin 1000000 → EReal) : ∑ c : Fin 2, halfSum f c = ∑ n : Fin 1000000, f n := by
  have e : ∀ g : Fin (250 * 4000) → EReal,
      ∑ q : Fin 250, ∑ r : Fin 4000, g ⟨4000 * q.val + r.val, by have := q.isLt; have := r.isLt; omega⟩ = ∑ n : Fin (250 * 4000), g n := by
    intro g
    rw [← Equiv.sum_comp finProdFinEquiv g, Fintype.sum_prod_type]
    refine Finset.sum_congr rfl fun q _ => Finset.sum_congr rfl fun r _ => congrArg g (Fin.ext ?_)
    simp only [finProdFinEquiv_apply_val]; omega
  have e2 : ∀ g : Fin (2 * 125) → EReal,
      ∑ c : Fin 2, ∑ p : Fin 125, g ⟨125 * c.val + p.val, by have := c.isLt; have := p.isLt; omega⟩ = ∑ q : Fin (2 * 125), g q := by
    intro g
    rw [← Equiv.sum_comp finProdFinEquiv g, Fintype.sum_prod_type]
    refine Finset.sum_congr rfl fun c _ => Finset.sum_congr rfl fun p _ => congrArg g (Fin.ext ?_)
    simp only [finProdFinEquiv_apply_val]; omega
  show ∑ c : Fin 2, ∑ p : Fin 125, ∑ r : Fin 4000, f (row c p r) = _
  have h1 := e2 (fun q => ∑ r : Fin 4000, f ⟨4000 * q.val + r.val, by have := q.isLt; have := r.isLt; omega⟩)
  have h2 := e (fun n => f ⟨n.val, n.isLt⟩)
  calc ∑ c : Fin 2, ∑ p : Fin 125, ∑ r : Fin 4000, f (row c p r)
      = ∑ c : Fin 2, ∑ p : Fin 125, ∑ r : Fin 4000, f ⟨4000 * (125 * c.val + p.val) + r.val, by have := c.isLt; have := p.isLt; have := r.isLt; omega⟩ :=
        Finset.sum_congr rfl fun c _ => Finset.sum_congr rfl fun p _ => Finset.sum_congr rfl fun r _ =>
          congrArg f (Fin.ext (by simp only [row]; ring))
    _ = ∑ q : Fin (2 * 125), ∑ r : Fin 4000, f ⟨4000 * q.val + r.val, by have := q.isLt; have := r.isLt; omega⟩ := h1
    _ = ∑ n : Fin (250 * 4000), f ⟨n.val, n.isLt⟩ := h2
    _ = ∑ n : Fin 1000000, f n := rfl

end Cert.Spec

end
-- ==== Proof.KRun.lean ====
/-
  The idealized kernel's run with its result array named.

  @main is six segments: three stretches of host operations and three pipelined regions. The contents of every
  unscoped buffer at each segment boundary are a fold from the launch memory; after the last region the result array
  holds what that fold holds at it, and every argument array holds what it held at launch. Every weakly fair
  execution terminates, without a fault, in such a state.
-/
import proofs.«119614_j3375844294910_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and every argument array as launched. -/
theorem run_result : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.KRun

end
-- ==== Proof.KWalk.lean ====
/-
  The buffer contents the three regions find, traced through @main.

  Before the first region the host lays the six per-channel vectors as 1-by-64 rows, the three scalars of the last
  normalisation as 1-by-1 cells, and transposes the 64-by-1 projection to a row; nothing else is written there. A region
  leaves its input arrays as it found them, and a stretch of host operations leaves alone every buffer it does not write.
  So each region reads, at its entry, the launch contents of the big arrays and these re-laid small ones.
-/
import proofs.«119614_j3375844294910_2_alg».proof.Proof.Gen.KernelIdeal.Frame
import Idealize.ShloMosaic.Lib.StableHlo.Run
import Idealize.ShloMosaic.Lib.Pipeline.Value

noncomputable section

namespace Cert.KernelIdeal.KWalk

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## At the first region's entry -/

theorem V1_main_arg0 (c : Dev nD) : V1 m ρ c main_arg0 = m ((c : Thread nD τ).loc main_arg0) := by
  dsimp only [V1, W1, W0]; after_results
theorem V1_main_arg1 (c : Dev nD) : V1 m ρ c main_arg1 = m ((c : Thread nD τ).loc main_arg1) := by
  dsimp only [V1, W1, W0]; after_results
theorem V1_main_arg2 (c : Dev nD) : V1 m ρ c main_arg2 = m ((c : Thread nD τ).loc main_arg2) := by
  dsimp only [V1, W1, W0]; after_results
theorem V1_main_arg6 (c : Dev nD) : V1 m ρ c main_arg6 = m ((c : Thread nD τ).loc main_arg6) := by
  dsimp only [V1, W1, W0]; after_results
theorem V1_main_v0 (c : Dev nD) : V1 m ρ c main_v0 = shapeCast S1x64 (m ((c : Thread nD τ).loc main_arg3)) shapeCasts_S64_S1x64 := by
  dsimp only [V1, W1, W0]; after_results; rfl
theorem V1_main_v1 (c : Dev nD) : V1 m ρ c main_v1 = shapeCast S1x64 (m ((c : Thread nD τ).loc main_arg7)) shapeCasts_S64_S1x64 := by
  dsimp only [V1, W1, W0]; after_results; rfl
theorem V1_main_v2 (c : Dev nD) : V1 m ρ c main_v2 = shapeCast S1x64 (m ((c : Thread nD τ).loc main_arg4)) shapeCasts_S64_S1x64 := by
  dsimp only [V1, W1, W0]; after_results; rfl
theorem V1_main_v3 (c : Dev nD) : V1 m ρ c main_v3 = shapeCast S1x64 (m ((c : Thread nD τ).loc main_arg5)) shapeCasts_S64_S1x64 := by
  dsimp only [V1, W1, W0]; after_results; rfl
theorem V1_main_v4 (c : Dev nD) : V1 m ρ c main_v4 = shapeCast S1x64 (m ((c : Thread nD τ).loc main_arg8)) shapeCasts_S64_S1x64 := by
  dsimp only [V1, W1, W0]; after_results; rfl
theorem V1_main_v5 (c : Dev nD) : V1 m ρ c main_v5 = shapeCast S1x64 (m ((c : Thread nD τ).loc main_arg9)) shapeCasts_S64_S1x64 := by
  dsimp only [V1, W1, W0]; after_results; rfl
theorem V1_main_v6 (c : Dev nD) : V1 m ρ c main_v6 = shapeCast S1x1 (m ((c : Thread nD τ).loc main_arg11)) shapeCasts_S1_S1x1 := by
  dsimp only [V1, W1, W0]; after_results; rfl
theorem V1_main_v7 (c : Dev nD) : V1 m ρ c main_v7 = shapeCast S1x1 (m ((c : Thread nD τ).loc main_arg12)) shapeCasts_S1_S1x1 := by
  dsimp only [V1, W1, W0]; after_results; rfl
theorem V1_main_v8 (c : Dev nD) : V1 m ρ c main_v8 = shapeCast S1x1 (m ((c : Thread nD τ).loc main_arg13)) shapeCasts_S1_S1x1 := by
  dsimp only [V1, W1, W0]; after_results; rfl
theorem V1_main_v9 (c : Dev nD) :
    V1 m ρ c main_v9 = transpose S1x64 [1, 0] (m ((c : Thread nD τ).loc main_arg10)) transposes_S64x1_S1x64_1_0 := by
  dsimp only [V1, W1, W0]; after_results

/-! ## After the first region: its input arrays as entered, its outputs at what the pipeline leaves, the rest untouched -/

theorem W2_main_arg0 (c : Dev nD) : W2 m ρ c (Proc.devRef .tc main_arg0) = V1 m ρ c main_arg0 :=
  (W2_arr m ρ c 0).trans (((dat0 (V1 m ρ) c).arrAt_in 0 rfl _).trans (A_eq0 (V1 m ρ) c 0))
theorem W2_main_arg1 (c : Dev nD) : W2 m ρ c (Proc.devRef .tc main_arg1) = V1 m ρ c main_arg1 :=
  (W2_arr m ρ c 1).trans (((dat0 (V1 m ρ) c).arrAt_in 1 rfl _).trans (A_eq0 (V1 m ρ) c 1))
theorem W2_main_arg2 (c : Dev nD) : W2 m ρ c (Proc.devRef .tc main_arg2) = V1 m ρ c main_arg2 :=
  (W2_arr m ρ c 2).trans (((dat0 (V1 m ρ) c).arrAt_in 2 rfl _).trans (A_eq0 (V1 m ρ) c 2))
theorem W2_main_v0 (c : Dev nD) : W2 m ρ c (Proc.devRef .tc main_v0) = V1 m ρ c main_v0 :=
  (W2_arr m ρ c 3).trans (((dat0 (V1 m ρ) c).arrAt_in 3 rfl _).trans (A_eq0 (V1 m ρ) c 3))
theorem W2_main_arg6 (c : Dev nD) : W2 m ρ c (Proc.devRef .tc main_arg6) = V1 m ρ c main_arg6 :=
  (W2_arr m ρ c 4).trans (((dat0 (V1 m ρ) c).arrAt_in 4 rfl _).trans (A_eq0 (V1 m ρ) c 4))
theorem W2_main_v1 (c : Dev nD) : W2 m ρ c (Proc.devRef .tc main_v1) = V1 m ρ c main_v1 :=
  (W2_arr m ρ c 5).trans (((dat0 (V1 m ρ) c).arrAt_in 5 rfl _).trans (A_eq0 (V1 m ρ) c 5))
theorem W2_main_v2 (c : Dev nD) : W2 m ρ c (Proc.devRef .tc main_v2) = V1 m ρ c main_v2 :=
  W2_of_ne m ρ c main_v2 (by decide)
theorem W2_main_v3 (c : Dev nD) : W2 m ρ c (Proc.devRef .tc main_v3) = V1 m ρ c main_v3 :=
  W2_of_ne m ρ c main_v3 (by decide)
theorem W2_main_v4 (c : Dev nD) : W2 m ρ c (Proc.devRef .tc main_v4) = V1 m ρ c main_v4 :=
  W2_of_ne m ρ c main_v4 (by decide)
theorem W2_main_v5 (c : Dev nD) : W2 m ρ c (Proc.devRef .tc main_v5) = V1 m ρ c main_v5 :=
  W2_of_ne m ρ c main_v5 (by decide)
theorem W2_main_v6 (c : Dev nD) : W2 m ρ c (Proc.devRef .tc main_v6) = V1 m ρ c main_v6 :=
  W2_of_ne m ρ c main_v6 (by decide)
theorem W2_main_v7 (c : Dev nD) : W2 m ρ c (Proc.devRef .tc main_v7) = V1 m ρ c main_v7 :=
  W2_of_ne m ρ c main_v7 (by decide)
theorem W2_main_v8 (c : Dev nD) : W2 m ρ c (Proc.devRef .tc main_v8) = V1 m ρ c main_v8 :=
  W2_of_ne m ρ c main_v8 (by decide)
theorem W2_main_v9 (c : Dev nD) : W2 m ρ c (Proc.devRef .tc main_v9) = V1 m ρ c main_v9 :=
  W2_of_ne m ρ c main_v9 (by decide)
theorem W2_main_v10_0 (c : Dev nD) : W2 m ρ c (Proc.devRef .tc main_v10_0) = (dat0 (V1 m ρ) c).arrAt 6 cfg0.N :=
  W2_arr m ρ c 6
theorem W2_main_v10_1 (c : Dev nD) : W2 m ρ c (Proc.devRef .tc main_v10_1) = (dat0 (V1 m ρ) c).arrAt 7 cfg0.N :=
  W2_arr m ρ c 7
theorem W2_main_v10_2 (c : Dev nD) : W2 m ρ c (Proc.devRef .tc main_v10_2) = (dat0 (V1 m ρ) c).arrAt 8 cfg0.N :=
  W2_arr m ρ c 8
theorem W2_main_v10_3 (c : Dev nD) : W2 m ρ c (Proc.devRef .tc main_v10_3) = (dat0 (V1 m ρ) c).arrAt 9 cfg0.N :=
  W2_arr m ρ c 9

/-! ## At the second region's entry: what the host stretch before it does not write -/

theorem V3_main_arg0 (c : Dev nD) : V3 m ρ c main_arg0 = W2 m ρ c (Proc.devRef .tc main_arg0) := by
  dsimp only [V3, W3]; after_results
theorem V3_main_arg1 (c : Dev nD) : V3 m ρ c main_arg1 = W2 m ρ c (Proc.devRef .tc main_arg1) := by
  dsimp only [V3, W3]; after_results
theorem V3_main_arg2 (c : Dev nD) : V3 m ρ c main_arg2 = W2 m ρ c (Proc.devRef .tc main_arg2) := by
  dsimp only [V3, W3]; after_results
theorem V3_main_v0 (c : Dev nD) : V3 m ρ c main_v0 = W2 m ρ c (Proc.devRef .tc main_v0) := by
  dsimp only [V3, W3]; after_results
theorem V3_main_arg6 (c : Dev nD) : V3 m ρ c main_arg6 = W2 m ρ c (Proc.devRef .tc main_arg6) := by
  dsimp only [V3, W3]; after_results
theorem V3_main_v1 (c : Dev nD) : V3 m ρ c main_v1 = W2 m ρ c (Proc.devRef .tc main_v1) := by
  dsimp only [V3, W3]; after_results
theorem V3_main_v9 (c : Dev nD) : V3 m ρ c main_v9 = W2 m ρ c (Proc.devRef .tc main_v9) := by
  dsimp only [V3, W3]; after_results
theorem V3_main_v6 (c : Dev nD) : V3 m ρ c main_v6 = W2 m ρ c (Proc.devRef .tc main_v6) := by
  dsimp only [V3, W3]; after_results
theorem V3_main_v7 (c : Dev nD) : V3 m ρ c main_v7 = W2 m ρ c (Proc.devRef .tc main_v7) := by
  dsimp only [V3, W3]; after_results
theorem V3_main_v8 (c : Dev nD) : V3 m ρ c main_v8 = W2 m ρ c (Proc.devRef .tc main_v8) := by
  dsimp only [V3, W3]; after_results

/-! ## After the second region -/

theorem W4_main_arg1 (c : Dev nD) : W4 m ρ c (Proc.devRef .tc main_arg1) = V3 m ρ c main_arg1 :=
  (W4_arr m ρ c 1).trans (((dat1 (V3 m ρ) c).arrAt_in 1 rfl _).trans (A_eq1 (V3 m ρ) c 1))
theorem W4_main_v7 (c : Dev nD) : W4 m ρ c (Proc.devRef .tc main_v7) = V3 m ρ c main_v7 :=
  W4_of_ne m ρ c main_v7 (by decide)
theorem W4_main_v8 (c : Dev nD) : W4 m ρ c (Proc.devRef .tc main_v8) = V3 m ρ c main_v8 :=
  W4_of_ne m ρ c main_v8 (by decide)
theorem W4_main_v43_0 (c : Dev nD) : W4 m ρ c (Proc.devRef .tc main_v43_0) = (dat1 (V3 m ρ) c).arrAt 12 cfg1.N :=
  W4_arr m ρ c 12
theorem W4_main_v43_1 (c : Dev nD) : W4 m ρ c (Proc.devRef .tc main_v43_1) = (dat1 (V3 m ρ) c).arrAt 13 cfg1.N :=
  W4_arr m ρ c 13
theorem W4_main_v43_2 (c : Dev nD) : W4 m ρ c (Proc.devRef .tc main_v43_2) = (dat1 (V3 m ρ) c).arrAt 14 cfg1.N :=
  W4_arr m ρ c 14

/-! ## At the third region's entry, and after it -/

theorem V5_main_arg1 (c : Dev nD) : V5 m ρ c main_arg1 = W4 m ρ c (Proc.devRef .tc main_arg1) := by
  dsimp only [V5, W5]; after_results
theorem V5_main_v43_2 (c : Dev nD) : V5 m ρ c main_v43_2 = W4 m ρ c (Proc.devRef .tc main_v43_2) := by
  dsimp only [V5, W5]; after_results

theorem W6_main_v60 (c : Dev nD) : W6 m ρ c (Proc.devRef .tc main_v60) = (dat2 (V5 m ρ) c).arrAt 4 cfg2.N :=
  W6_arr m ρ c 4

/-! ## The big arrays, all the way back to launch -/

theorem V3_arg0 (c : Dev nD) : V3 m ρ c main_arg0 = m ((c : Thread nD τ).loc main_arg0) :=
  (V3_main_arg0 m ρ c).trans ((W2_main_arg0 m ρ c).trans (V1_main_arg0 m ρ c))
theorem V3_arg1 (c : Dev nD) : V3 m ρ c main_arg1 = m ((c : Thread nD τ).loc main_arg1) :=
  (V3_main_arg1 m ρ c).trans ((W2_main_arg1 m ρ c).trans (V1_main_arg1 m ρ c))
theorem V3_arg2 (c : Dev nD) : V3 m ρ c main_arg2 = m ((c : Thread nD τ).loc main_arg2) :=
  (V3_main_arg2 m ρ c).trans ((W2_main_arg2 m ρ c).trans (V1_main_arg2 m ρ c))
theorem V3_arg6 (c : Dev nD) : V3 m ρ c main_arg6 = m ((c : Thread nD τ).loc main_arg6) :=
  (V3_main_arg6 m ρ c).trans ((W2_main_arg6 m ρ c).trans (V1_main_arg6 m ρ c))
theorem V5_arg1 (c : Dev nD) : V5 m ρ c main_arg1 = m ((c : Thread nD τ).loc main_arg1) :=
  (V5_main_arg1 m ρ c).trans ((W4_main_arg1 m ρ c).trans (V3_arg1 m ρ c))

end Cert.KernelIdeal.KWalk

end
-- ==== Proof.KStages.lean ====
/-
  The host arithmetic between the three kernel launches, read at an index.

  The first two launches leave, per half of the rows, the sum and the sum of squares of each channel.  Between the
  launches the two halves are added onto the zero word and divided by the row count N, giving the mean and the mean
  of squares; the variance is max(mean of squares − mean², 0), the scale γ · rsqrt(variance + ε) and the shift
  β − mean · scale.  The same three steps are taken once more for the single gate channel.  The stages are written
  for any float instance; their readings are at the extended reals, in the names of the shared specification.
-/
import proofs.«119614_j3375844294910_2_alg».proof.Proof.Gen.KernelIdeal
import proofs.«119614_j3375844294910_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KStages

open Cert.KernelIdeal Cert.KernelIdeal.Gen Idealize.ShloMosaic Idealize.ShloMosaic.ValueIdx Cert.Spec
open scoped BigOperators

section Stages
variable {F : FTy → Type} [FloatOps F]

/-- The column mean from the two per-half sums of a 64-channel layer: (0 + Σ_c s[c]) / N. -/
def meanOf (s : FVec F S2x1x64 .f32) : FVec F S1x64 .f32 :=
  Host.divf (Host.reduceAdd s (constant S_ .f32 0x00000000#32) reducesTo_S2x1x64_S1x64_d0 h_S_)
    (broadcastInDim S1x64 ![] bcast_S_S1x64 (constant S_ .f32 0x49742400#32))
/-- The scale γ · rsqrt(max(mean of squares − mean², 0) + ε) of a 64-channel layer. -/
def scaleOf (s1 s2 : FVec F S2x1x64 .f32) (γ : FVec F S1x64 .f32) : FVec F S1x64 .f32 :=
  mulf γ (Host.rsqrt (addf (maximumf (subf (meanOf s2) (mulf (meanOf s1) (meanOf s1)))
    (broadcastInDim S1x64 ![] bcast_S_S1x64 (constant S_ .f32 0x00000000#32)))
    (broadcastInDim S1x64 ![] bcast_S_S1x64 (constant S_ .f32 0x3727C5AC#32))))
/-- The shift β − mean · scale of a 64-channel layer. -/
def shiftOf (s1 s2 : FVec F S2x1x64 .f32) (γ β : FVec F S1x64 .f32) : FVec F S1x64 .f32 :=
  subf β (mulf (meanOf s1) (scaleOf s1 s2 γ))

/-- The column mean from the two per-half sums of the one-channel layer: (0 + Σ_c s[c]) / N. -/
def meanOf1 (s : FVec F S2x1x1 .f32) : FVec F S1x1 .f32 :=
  Host.divf (Host.reduceAdd s (constant S_ .f32 0x00000000#32) reducesTo_S2x1x1_S1x1_d0 h_S_)
    (broadcastInDim S1x1 ![] bcast_S_S1x1 (constant S_ .f32 0x49742400#32))
/-- The scale γ · rsqrt(max(mean of squares − mean², 0) + ε) of the one-channel layer. -/
def scaleOf1 (s1 s2 : FVec F S2x1x1 .f32) (γ : FVec F S1x1 .f32) : FVec F S1x1 .f32 :=
  mulf γ (Host.rsqrt (addf (maximumf (subf (meanOf1 s2) (mulf (meanOf1 s1) (meanOf1 s1)))
    (broadcastInDim S1x1 ![] bcast_S_S1x1 (constant S_ .f32 0x00000000#32)))
    (broadcastInDim S1x1 ![] bcast_S_S1x1 (constant S_ .f32 0x3727C5AC#32))))
/-- The shift β − mean · scale of the one-channel layer. -/
def shiftOf1 (s1 s2 : FVec F S2x1x1 .f32) (γ β : FVec F S1x1 .f32) : FVec F S1x1 .f32 :=
  subf β (mulf (meanOf1 s1) (scaleOf1 s1 s2 γ))

end Stages

/-- A float word spread over the row reads as that word at every entry. -/
theorem bcast_word (w : BitVec 32) (i : S1x64.Idx) :
    broadcastInDim S1x64 ![] bcast_S_S1x64 (constant (F := Ideal) S_ .f32 w) i = Ideal.ofBits .f32 w :=
  broadcastInDim_apply _ bcast_S_S1x64 _ i ix0 (fun a => a.elim0)

/-- The sum over the two halves, started from the zero word. -/
theorem halves_sum (s : FVec Ideal S2x1x64 .f32) (j : Fin 64) :
    Host.reduceAdd s (constant (F := Ideal) S_ .f32 0x00000000#32) reducesTo_S2x1x64_S1x64_d0 h_S_ (ix2 (0 : Fin 1) j)
      = zeroW + ∑ c : Fin 2, s (ix3 c (0 : Fin 1) j) := by
  simp only [Host.reduceAdd, Ideal.hostReduceAdd_def]
  rw [Ideal.hostReduceAdd_single reducesTo_S2x1x64_S1x64_d0 (by decide)]
  refine congrArg (_ + ·) (Finset.sum_congr rfl fun k _ => ?_)
  exact congrArg s (funext fun a => Fin.ext (by match a with | ⟨0, _⟩ => rfl | ⟨1, _⟩ => rfl | ⟨2, _⟩ => rfl))

theorem meanOf_apply (s : FVec Ideal S2x1x64 .f32) (j : Fin 64) :
    meanOf s (ix2 (0 : Fin 1) j) = meanK (zeroW + ∑ c : Fin 2, s (ix3 c (0 : Fin 1) j)) := by
  show Ideal.div (Host.reduceAdd s (constant (F := Ideal) S_ .f32 0x00000000#32) reducesTo_S2x1x64_S1x64_d0 h_S_ (ix2 (0 : Fin 1) j))
    (broadcastInDim S1x64 ![] bcast_S_S1x64 (constant (F := Ideal) S_ .f32 0x49742400#32) (ix2 (0 : Fin 1) j)) = _
  rw [halves_sum, bcast_word]
  rfl

theorem scaleOf_apply (s1 s2 : FVec Ideal S2x1x64 .f32) (γ : FVec Ideal S1x64 .f32) (j : Fin 64) :
    scaleOf s1 s2 γ (ix2 (0 : Fin 1) j) = scaleK (zeroW + ∑ c : Fin 2, s1 (ix3 c (0 : Fin 1) j)) (zeroW + ∑ c : Fin 2, s2 (ix3 c (0 : Fin 1) j)) (γ (ix2 (0 : Fin 1) j)) := by
  show γ (ix2 (0 : Fin 1) j) * Ideal.rsqrt (max (meanOf s2 (ix2 (0 : Fin 1) j) - meanOf s1 (ix2 (0 : Fin 1) j) * meanOf s1 (ix2 (0 : Fin 1) j))
      (broadcastInDim S1x64 ![] bcast_S_S1x64 (constant (F := Ideal) S_ .f32 0x00000000#32) (ix2 (0 : Fin 1) j))
    + broadcastInDim S1x64 ![] bcast_S_S1x64 (constant (F := Ideal) S_ .f32 0x3727C5AC#32) (ix2 (0 : Fin 1) j)) = _
  rw [meanOf_apply, meanOf_apply, bcast_word, bcast_word]
  rfl

theorem shiftOf_apply (s1 s2 : FVec Ideal S2x1x64 .f32) (γ β : FVec Ideal S1x64 .f32) (j : Fin 64) :
    shiftOf s1 s2 γ β (ix2 (0 : Fin 1) j)
      = shiftK (zeroW + ∑ c : Fin 2, s1 (ix3 c (0 : Fin 1) j)) (zeroW + ∑ c : Fin 2, s2 (ix3 c (0 : Fin 1) j)) (γ (ix2 (0 : Fin 1) j)) (β (ix2 (0 : Fin 1) j)) := by
  show β (ix2 (0 : Fin 1) j) - meanOf s1 (ix2 (0 : Fin 1) j) * scaleOf s1 s2 γ (ix2 (0 : Fin 1) j) = _
  rw [meanOf_apply, scaleOf_apply]
  rfl

/-- A float word spread over the row reads as that word at every entry. -/
theorem bcast_word1 (w : BitVec 32) (i : S1x1.Idx) :
    broadcastInDim S1x1 ![] bcast_S_S1x1 (constant (F := Ideal) S_ .f32 w) i = Ideal.ofBits .f32 w :=
  broadcastInDim_apply _ bcast_S_S1x1 _ i ix0 (fun a => a.elim0)

/-- The sum over the two halves, started from the zero word. -/
theorem halves_sum1 (s : FVec Ideal S2x1x1 .f32) :
    Host.reduceAdd s (constant (F := Ideal) S_ .f32 0x00000000#32) reducesTo_S2x1x1_S1x1_d0 h_S_ (ix2 (0 : Fin 1) (0 : Fin 1))
      = zeroW + ∑ c : Fin 2, s (ix3 c (0 : Fin 1) (0 : Fin 1)) := by
  simp only [Host.reduceAdd, Ideal.hostReduceAdd_def]
  rw [Ideal.hostReduceAdd_single reducesTo_S2x1x1_S1x1_d0 (by decide)]
  refine congrArg (_ + ·) (Finset.sum_congr rfl fun k _ => ?_)
  exact congrArg s (funext fun a => Fin.ext (by match a with | ⟨0, _⟩ => rfl | ⟨1, _⟩ => rfl | ⟨2, _⟩ => rfl))

theorem meanOf1_apply (s : FVec Ideal S2x1x1 .f32) :
    meanOf1 s (ix2 (0 : Fin 1) (0 : Fin 1)) = meanK (zeroW + ∑ c : Fin 2, s (ix3 c (0 : Fin 1) (0 : Fin 1))) := by
  show Ideal.div (Host.reduceAdd s (constant (F := Ideal) S_ .f32 0x00000000#32) reducesTo_S2x1x1_S1x1_d0 h_S_ (ix2 (0 : Fin 1) (0 : Fin 1)))
    (broadcastInDim S1x1 ![] bcast_S_S1x1 (constant (F := Ideal) S_ .f32 0x49742400#32) (ix2 (0 : Fin 1) (0 : Fin 1))) = _
  rw [halves_sum1, bcast_word1]
  rfl

theorem scaleOf1_apply (s1 s2 : FVec Ideal S2x1x1 .f32) (γ : FVec Ideal S1x1 .f32) :
    scaleOf1 s1 s2 γ (ix2 (0 : Fin 1) (0 : Fin 1)) = scaleK (zeroW + ∑ c : Fin 2, s1 (ix3 c (0 : Fin 1) (0 : Fin 1))) (zeroW + ∑ c : Fin 2, s2 (ix3 c (0 : Fin 1) (0 : Fin 1))) (γ (ix2 (0 : Fin 1) (0 : Fin 1))) := by
  show γ (ix2 (0 : Fin 1) (0 : Fin 1)) * Ideal.rsqrt (max (meanOf1 s2 (ix2 (0 : Fin 1) (0 : Fin 1)) - meanOf1 s1 (ix2 (0 : Fin 1) (0 : Fin 1)) * meanOf1 s1 (ix2 (0 : Fin 1) (0 : Fin 1)))
      (broadcastInDim S1x1 ![] bcast_S_S1x1 (constant (F := Ideal) S_ .f32 0x00000000#32) (ix2 (0 : Fin 1) (0 : Fin 1)))
    + broadcastInDim S1x1 ![] bcast_S_S1x1 (constant (F := Ideal) S_ .f32 0x3727C5AC#32) (ix2 (0 : Fin 1) (0 : Fin 1))) = _
  rw [meanOf1_apply, meanOf1_apply, bcast_word1, bcast_word1]
  rfl

theorem shiftOf1_apply (s1 s2 : FVec Ideal S2x1x1 .f32) (γ β : FVec Ideal S1x1 .f32) :
    shiftOf1 s1 s2 γ β (ix2 (0 : Fin 1) (0 : Fin 1))
      = shiftK (zeroW + ∑ c : Fin 2, s1 (ix3 c (0 : Fin 1) (0 : Fin 1))) (zeroW + ∑ c : Fin 2, s2 (ix3 c (0 : Fin 1) (0 : Fin 1))) (γ (ix2 (0 : Fin 1) (0 : Fin 1))) (β (ix2 (0 : Fin 1) (0 : Fin 1))) := by
  show β (ix2 (0 : Fin 1) (0 : Fin 1)) - meanOf1 s1 (ix2 (0 : Fin 1) (0 : Fin 1)) * scaleOf1 s1 s2 γ (ix2 (0 : Fin 1) (0 : Fin 1)) = _
  rw [meanOf1_apply, scaleOf1_apply]
  rfl

/-- A vector laid as a 1-by-64 row reads, at (0, j), the vector at j. -/
theorem row_of_vec (x : FVec Ideal S64 .f32) (j : Fin 64) :
    shapeCast S1x64 x shapeCasts_S64_S1x64 (ix2 (0 : Fin 1) j) = x (ix1 j) :=
  shapeCast_a_1a_apply x shapeCasts_S64_S1x64 0 j

/-- A one-entry vector laid as a 1-by-1 array reads, at (0, 0), the vector's entry. -/
theorem cell_of_vec (x : FVec Ideal S1 .f32) :
    shapeCast S1x1 x shapeCasts_S1_S1x1 (ix2 (0 : Fin 1) (0 : Fin 1)) = x (ix1 (0 : Fin 1)) :=
  shapeCast_a_1a_apply x shapeCasts_S1_S1x1 0 0

/-- A 64-by-1 column transposed reads, at (0, j), the column at (j, 0). -/
theorem row_of_col (x : FVec Ideal S64x1 .f32) (j : Fin 64) :
    transpose S1x64 [1, 0] x transposes_S64x1_S1x64_1_0 (ix2 (0 : Fin 1) j) = x (ix2 j (0 : Fin 1)) :=
  transpose_ix2_apply x transposes_S64x1_S1x64_1_0 0 j

end Cert.KernelIdeal.KStages

end
-- ==== Proof.KWalk2.lean ====
/-
  What the host stretches between the regions compute: the per-channel scale and shift rows, and the last
  normalisation's scale and shift cells, as the stage functions of the per-half sums and of the re-laid parameters.
-/
import proofs.«119614_j3375844294910_2_alg».proof.Proof.Gen.KernelIdeal.Frame
import proofs.«119614_j3375844294910_2_alg».proof.Proof.KStages
import Idealize.ShloMosaic.Lib.StableHlo.Run
import Idealize.ShloMosaic.Lib.Pipeline.Value

noncomputable section

namespace Cert.KernelIdeal.KWalk2

open Cert.KernelIdeal Cert.KernelIdeal.Gen Cert.KernelIdeal.KStages
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 2000000 in
theorem V3_v26 (c : Dev nD) : V3 m ρ c main_v26
    = scaleOf (W2 m ρ c (Proc.devRef .tc main_v10_0)) (W2 m ρ c (Proc.devRef .tc main_v10_1)) (W2 m ρ c (Proc.devRef .tc main_v2)) := by
  dsimp only [V3, W3]; after_results_simp; rfl

set_option maxHeartbeats 2000000 in
theorem V3_v28 (c : Dev nD) : V3 m ρ c main_v28
    = shiftOf (W2 m ρ c (Proc.devRef .tc main_v10_0)) (W2 m ρ c (Proc.devRef .tc main_v10_1)) (W2 m ρ c (Proc.devRef .tc main_v2))
        (W2 m ρ c (Proc.devRef .tc main_v3)) := by
  dsimp only [V3, W3]; after_results_simp; rfl

set_option maxHeartbeats 2000000 in
theorem V3_v40 (c : Dev nD) : V3 m ρ c main_v40
    = scaleOf (W2 m ρ c (Proc.devRef .tc main_v10_2)) (W2 m ρ c (Proc.devRef .tc main_v10_3)) (W2 m ρ c (Proc.devRef .tc main_v4)) := by
  dsimp only [V3, W3]; after_results_simp; rfl

set_option maxHeartbeats 2000000 in
theorem V3_v42 (c : Dev nD) : V3 m ρ c main_v42
    = shiftOf (W2 m ρ c (Proc.devRef .tc main_v10_2)) (W2 m ρ c (Proc.devRef .tc main_v10_3)) (W2 m ρ c (Proc.devRef .tc main_v4))
        (W2 m ρ c (Proc.devRef .tc main_v5)) := by
  dsimp only [V3, W3]; after_results_simp; rfl

theorem V5_v57 (c : Dev nD) : V5 m ρ c main_v57
    = scaleOf1 (W4 m ρ c (Proc.devRef .tc main_v43_0)) (W4 m ρ c (Proc.devRef .tc main_v43_1)) (W4 m ρ c (Proc.devRef .tc main_v7)) := by
  dsimp only [V5, W5]; after_results_simp; rfl

theorem V5_v59 (c : Dev nD) : V5 m ρ c main_v59
    = shiftOf1 (W4 m ρ c (Proc.devRef .tc main_v43_0)) (W4 m ρ c (Proc.devRef .tc main_v43_1)) (W4 m ρ c (Proc.devRef .tc main_v7))
        (W4 m ρ c (Proc.devRef .tc main_v8)) := by
  dsimp only [V5, W5]; after_results_simp; rfl

end Cert.KernelIdeal.KWalk2

end
-- ==== Proof.Region0.lean ====
/-
  What the first kernel leaves in its four output arrays, as plain sums.

  The million rows of the two inputs are cut into two halves of 125 blocks of 4000 rows.  At step p of half c the kernel
  forms the two dense layers  h[r,j] = (Σₖ x[r,k] · W[k,j]) + b[0,j]  on block 125·c + p, sums each layer and its square over
  the block's 4000 rows, and adds the four [64]-vectors of column sums into four [1,1,64] blocks, which it first sets to
  zero when p = 0.  Block (c,0,0) of each output array is written back after the half's last step.  So entry (c,0,j) of
  the four arrays is  Σ_p Σ_r h[(125·c + p)·4000 + r, j]  and the same sum of squares, for each of the two layers: no zero
  word is left, since 0 + a = a on the extended reals.

  The steps: each operation of a step read at an entry; what each of the two cases of the body (first step of a half, any
  other step) leaves in each output block; the input blocks as entries of the arrays; the running value over a half by
  induction on the step; the written-back block as a block of one array, and the cover of that array by the two
  write-backs.
-/
import proofs.«119614_j3375844294910_2_alg».proof.Proof.Gen.KernelIdeal.Frame
import proofs.«119614_j3375844294910_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert Cert.KernelIdeal Cert.KernelIdeal.Gen

/-! ## The arithmetic of one grid point, entry by entry -/

/-- The dimension numbers of the two dense layers' products: rows by contraction times contraction by columns. -/
abbrev DD := dot_S4000x128_S128x64_S4000x64_1_0_0_1_n_n

theorem lhs_row (i : S4000x64.Idx) (q : DD.contr.Idx) : (DD.lhsIdx i q 0).val = (i 0).val := by
  unfold DotDims.lhsIdx
  rw [dif_neg (show ¬(0 : Fin S4000x128.rank) ∈ DD.lhsBatch by decide), dif_pos (show (0 : Fin S4000x128.rank) ∈ DD.lhsNonContracting by decide)]
  rfl
theorem lhs_col (i : S4000x64.Idx) (q : DD.contr.Idx) : (DD.lhsIdx i q 1).val = (q ⟨0, by decide⟩).val :=
  DD.lhsIdx_val_of_single rfl i q
theorem rhs_row (i : S4000x64.Idx) (q : DD.contr.Idx) : (DD.rhsIdx i q 0).val = (q ⟨0, by decide⟩).val :=
  DD.rhsIdx_val_of_single rfl i q
theorem rhs_col (i : S4000x64.Idx) (q : DD.contr.Idx) : (DD.rhsIdx i q 1).val = (i 1).val := by
  unfold DotDims.rhsIdx
  rw [dif_neg (show ¬(1 : Fin S128x64.rank) ∈ DD.rhsBatch by decide), dif_pos (show (1 : Fin S128x64.rank) ∈ DD.rhsNonContracting by decide)]
  rfl

/-- A block's product with a weight matrix into a zero accumulator, at row r and column j: Σₖ x[r,k] · W[k,j]. -/
theorem matmul_apply (x : FVec Ideal S4000x128 .f32) (W : FVec Ideal S128x64 .f32) (r : Fin 4000) (j : Fin 64) :
    matmul (F := Ideal) (φ₁ := .f32) (φ₂ := .f32) DD none x W (constant S4000x64 .f32 0x00000000#32) (ix2 r j) = ∑ k : Fin 128, x (ix2 r k) * W (ix2 k j) := by
  refine (Ideal.matmul_constant_zero_apply DD none x W (ix2 r j)).trans ?_
  refine (Equiv.sum_comp (contrEquiv1 DD 128 rfl rfl).symm _).symm.trans (Finset.sum_congr rfl fun k _ => ?_)
  have hk := contrEquiv1_symm_val DD 128 rfl rfl k
  have el : DD.lhsIdx (ix2 r j) ((contrEquiv1 DD 128 rfl rfl).symm k) = ix2 r k := funext fun a => Fin.ext (by
    match a with
    | ⟨0, _⟩ => exact lhs_row _ _
    | ⟨1, _⟩ => exact (lhs_col _ _).trans hk)
  have er : DD.rhsIdx (ix2 r j) ((contrEquiv1 DD 128 rfl rfl).symm k) = ix2 k j := funext fun a => Fin.ext (by
    match a with
    | ⟨0, _⟩ => exact (rhs_row _ _).trans hk
    | ⟨1, _⟩ => exact rhs_col _ _)
  rw [el, er]

/-- A dense layer on one block, at row r and column j: (Σₖ x[r,k] · W[k,j]) + b[0,j]. -/
theorem dense_apply (x : Vec Ideal S4000x128 .f32) (W : Vec Ideal S128x64 .f32) (b : Vec Ideal S1x64 .f32) (r : Fin 4000) (j : Fin 64) :
    k0_pay8 (F := Ideal) x W b (ix2 r j) = (∑ k : Fin 128, x (ix2 r k) * W (ix2 k j)) + b (ix2 0 j) := by
  unfold k0_pay8
  refine congrArg₂ (· + ·) (matmul_apply x W r j) ?_
  refine (broadcastTo_1b_ab_apply _ broadcasts_S1x64_S4000x64 r j).trans ?_
  exact congrFun (shapeCast_self b shapeCasts_S1x64_S1x64) _

/-- The second dense layer is the same function of its own operands. -/
theorem dense'_apply (x : Vec Ideal S4000x128 .f32) (W : Vec Ideal S128x64 .f32) (b : Vec Ideal S1x64 .f32) (r : Fin 4000) (j : Fin 64) :
    k0_pay9 (F := Ideal) x W b (ix2 r j) = (∑ k : Fin 128, x (ix2 r k) * W (ix2 k j)) + b (ix2 0 j) :=
  dense_apply x W b r j

/-- The sum of a 4000-row block over its rows into a zero accumulator, at column j. -/
theorem colsum_apply (v : FVec Ideal S4000x64 .f32) (j : Fin 64) :
    multiReduction (F := Ideal) .add [0] S64 v 0x00000000#32 reduces_S4000x64_S64 (.inl rfl) rfl (ix1 j) = ∑ r : Fin 4000, v (ix2 r j) :=
  (Ideal.multiReduction_add_single v _ reduces_S4000x64_S64 (.inl rfl) rfl (ix1 j)).trans
    (Finset.sum_congr rfl fun r _ => congrArg v (funext fun a => by
      match a with
      | ⟨0, _⟩ => rfl
      | ⟨1, _⟩ => rfl))

/-- A [1,1,64] block plus the column sums of a [4000,64] block, at column j: the shape the four accumulations share. -/
theorem acc_apply (acc : Vec Ideal S1x1x64 .f32) (v : FVec Ideal S4000x64 .f32) (j : Fin 64) :
    shapeCast S1x1x64 (addf (shapeCast S1x64 acc shapeCasts_S1x1x64_S1x64)
      (shapeCast S1x64 (multiReduction (F := Ideal) .add [0] S64 v 0x00000000#32 reduces_S4000x64_S64 (.inl rfl) rfl) shapeCasts_S64_S1x64))
      shapeCasts_S1x64_S1x1x64 (ix3 0 0 j) = acc (ix3 0 0 j) + ∑ r : Fin 4000, v (ix2 r j) := by
  refine (shapeCast_ab_1ab_apply _ shapeCasts_S1x64_S1x1x64 0 0 j).trans ?_
  refine congrArg₂ (· + ·) (shapeCast_1ab_ab_apply acc shapeCasts_S1x1x64_S1x64 0 j) ?_
  exact (shapeCast_a_1a_apply _ shapeCasts_S64_S1x64 0 j).trans (colsum_apply v j)

/-- The first layer's running column sums after a point: what was there plus this block's column sums. -/
theorem pay10_apply (x : Vec Ideal S4000x128 .f32) (W : Vec Ideal S128x64 .f32) (b : Vec Ideal S1x64 .f32) (acc : Vec Ideal S1x1x64 .f32) (j : Fin 64) :
    k0_pay10 (F := Ideal) x W b acc (ix3 0 0 j) = acc (ix3 0 0 j) + ∑ r : Fin 4000, k0_pay8 (F := Ideal) x W b (ix2 r j) := by
  unfold k0_pay10
  exact acc_apply acc (k0_pay8 x W b) j

/-- The first layer's running column sums of squares after a point. -/
theorem pay1_apply (x : Vec Ideal S4000x128 .f32) (W : Vec Ideal S128x64 .f32) (b : Vec Ideal S1x64 .f32) (acc : Vec Ideal S1x1x64 .f32) (j : Fin 64) :
    k0_pay1 (F := Ideal) (k0_pay11 acc) (k0_pay12 x W b) (ix3 0 0 j)
      = acc (ix3 0 0 j) + ∑ r : Fin 4000, k0_pay8 (F := Ideal) x W b (ix2 r j) * k0_pay8 (F := Ideal) x W b (ix2 r j) := by
  unfold k0_pay1 k0_pay11 k0_pay12
  exact acc_apply acc (mulf (k0_pay8 x W b) (k0_pay8 x W b)) j

/-- The second layer's running column sums after a point. -/
theorem pay2_apply (v : FVec Ideal S4000x64 .f32) (acc : Vec Ideal S1x1x64 .f32) (j : Fin 64) :
    k0_pay2 (F := Ideal) v acc (ix3 0 0 j) = acc (ix3 0 0 j) + ∑ r : Fin 4000, v (ix2 r j) := by
  unfold k0_pay2
  exact acc_apply acc v j

/-- The second layer's running column sums of squares after a point. -/
theorem pay3_apply (v : FVec Ideal S4000x64 .f32) (acc : Vec Ideal S1x1x64 .f32) (j : Fin 64) :
    k0_pay3 (F := Ideal) v acc (ix3 0 0 j) = acc (ix3 0 0 j) + ∑ r : Fin 4000, v (ix2 r j) * v (ix2 r j) := by
  unfold k0_pay3
  exact acc_apply acc (mulf v v) j

/-- The block the four outputs are reset to is zero everywhere. -/
theorem pay4_apply (j : Fin 64) : k0_pay4 (F := Ideal) (ix3 0 0 j) = 0 := by
  unfold k0_pay4
  exact (shapeCast_ab_1ab_apply _ shapeCasts_S1x64_S1x1x64 0 0 j).trans Ideal.ofBits_zero_f32
theorem pay5_apply (j : Fin 64) : k0_pay5 (F := Ideal) (ix3 0 0 j) = 0 := pay4_apply j
theorem pay6_apply (j : Fin 64) : k0_pay6 (F := Ideal) (ix3 0 0 j) = 0 := pay4_apply j
theorem pay7_apply (j : Fin 64) : k0_pay7 (F := Ideal) (ix3 0 0 j) = 0 := pay4_apply j

/-! ## What each case of the body leaves in the four output blocks

At the first step of a half the body stores a zero block and then accumulates into it; at every other step it accumulates
into what the step before left. Each block holds one covering store, whose operands are whole-buffer loads. -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 800000 in
/-- A later step leaves the first layer's column sums accumulated into what was there. -/
theorem out_B_6 (c : Dev nD) (i : grid0.Coords) (arg2 : Memref sig .tc .vmem S4000x128 .f32) (harg2 : arg2.IsWhole) (arg3 : Memref sig .tc .vmem S4000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x1x64 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1x64 .f32) (harg11 : arg11.IsWhole) (hc0 : ¬cond0_0 i) (x0 : Vec F S4000x128 .f32) (x1 : Vec F S4000x128 .f32) (x2 : Vec F S128x64 .f32) (x3 : Vec F S1x64 .f32) (x4 : Vec F S128x64 .f32) (x5 : Vec F S1x64 .f32) (xo6 : Vec F S1x1x64 .f32) (xo7 : Vec F S1x1x64 .f32) (xo8 : Vec F S1x1x64 .f32) (xo9 : Vec F S1x1x64 .f32) :
    out0_B_6 c i arg2 harg2 arg3 harg3 arg4 harg4 arg5 harg5 arg6 harg6 arg7 harg7 arg8 harg8 arg9 harg9 arg10 harg10 arg11 harg11 hc0 x0 x1 x2 x3 x4 x5 xo6 xo7 xo8 xo9 = k0_pay10 x0 x2 x3 xo6 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 x4 x5 xo6 xo7 xo8 xo9)]
  unfold kernelRun0_B
  dsimp only
  (try sl_unfold_words)
  rw [View.canon_unit_zero hz3]
  simp only [View.readAt_eq_ld, harg2.read_unread, harg3.read_unread, harg4.read_unread, harg5.read_unread, harg6.read_unread, harg7.read_unread,
    harg8.read_unread, harg9.read_unread, harg10.read_unread, harg11.read_unread,
    View.ld_unit_zero (S := S4000x128) hz2, View.ld_unit_zero (S := S128x64) hz2, View.ld_unit_zero (S := S1x64) hz2,
    View.ld_unit_zero (S := S1x1x64) hz3]

set_option maxHeartbeats 800000 in
/-- A later step leaves the first layer's column sums of squares accumulated into what was there. -/
theorem out_B_7 (c : Dev nD) (i : grid0.Coords) (arg2 : Memref sig .tc .vmem S4000x128 .f32) (harg2 : arg2.IsWhole) (arg3 : Memref sig .tc .vmem S4000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x1x64 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1x64 .f32) (harg11 : arg11.IsWhole) (hc0 : ¬cond0_0 i) (x0 : Vec F S4000x128 .f32) (x1 : Vec F S4000x128 .f32) (x2 : Vec F S128x64 .f32) (x3 : Vec F S1x64 .f32) (x4 : Vec F S128x64 .f32) (x5 : Vec F S1x64 .f32) (xo6 : Vec F S1x1x64 .f32) (xo7 : Vec F S1x1x64 .f32) (xo8 : Vec F S1x1x64 .f32) (xo9 : Vec F S1x1x64 .f32) :
    out0_B_7 c i arg2 harg2 arg3 harg3 arg4 harg4 arg5 harg5 arg6 harg6 arg7 harg7 arg8 harg8 arg9 harg9 arg10 harg10 arg11 harg11 hc0 x0 x1 x2 x3 x4 x5 xo6 xo7 xo8 xo9 = k0_pay1 (k0_pay11 xo7) (k0_pay12 x0 x2 x3) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 xo6 xo7 xo8 xo9)]
  unfold kernelRun0_B
  dsimp only
  (try sl_unfold_words)
  rw [View.canon_unit_zero hz3]
  simp only [View.readAt_eq_ld, harg2.read_unread, harg3.read_unread, harg4.read_unread, harg5.read_unread, harg6.read_unread, harg7.read_unread,
    harg8.read_unread, harg9.read_unread, harg10.read_unread, harg11.read_unread,
    View.ld_unit_zero (S := S4000x128) hz2, View.ld_unit_zero (S := S128x64) hz2, View.ld_unit_zero (S := S1x64) hz2,
    View.ld_unit_zero (S := S1x1x64) hz3]

set_option maxHeartbeats 800000 in
/-- A later step leaves the second layer's column sums accumulated into what was there. -/
theorem out_B_8 (c : Dev nD) (i : grid0.Coords) (arg2 : Memref sig .tc .vmem S4000x128 .f32) (harg2 : arg2.IsWhole) (arg3 : Memref sig .tc .vmem S4000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x1x64 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1x64 .f32) (harg11 : arg11.IsWhole) (hc0 : ¬cond0_0 i) (x0 : Vec F S4000x128 .f32) (x1 : Vec F S4000x128 .f32) (x2 : Vec F S128x64 .f32) (x3 : Vec F S1x64 .f32) (x4 : Vec F S128x64 .f32) (x5 : Vec F S1x64 .f32) (xo6 : Vec F S1x1x64 .f32) (xo7 : Vec F S1x1x64 .f32) (xo8 : Vec F S1x1x64 .f32) (xo9 : Vec F S1x1x64 .f32) :
    out0_B_8 c i arg2 harg2 arg3 harg3 arg4 harg4 arg5 harg5 arg6 harg6 arg7 harg7 arg8 harg8 arg9 harg9 arg10 harg10 arg11 harg11 hc0 x0 x1 x2 x3 x4 x5 xo6 xo7 xo8 xo9 = k0_pay2 (k0_pay9 x1 x4 x5) xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 xo6 xo7 xo8 xo9)]
  unfold kernelRun0_B
  dsimp only
  (try sl_unfold_words)
  rw [View.canon_unit_zero hz3]
  simp only [View.readAt_eq_ld, harg2.read_unread, harg3.read_unread, harg4.read_unread, harg5.read_unread, harg6.read_unread, harg7.read_unread,
    harg8.read_unread, harg9.read_unread, harg10.read_unread, harg11.read_unread,
    View.ld_unit_zero (S := S4000x128) hz2, View.ld_unit_zero (S := S128x64) hz2, View.ld_unit_zero (S := S1x64) hz2,
    View.ld_unit_zero (S := S1x1x64) hz3]

set_option maxHeartbeats 800000 in
/-- A later step leaves the second layer's column sums of squares accumulated into what was there. -/
theorem out_B_9 (c : Dev nD) (i : grid0.Coords) (arg2 : Memref sig .tc .vmem S4000x128 .f32) (harg2 : arg2.IsWhole) (arg3 : Memref sig .tc .vmem S4000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x1x64 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1x64 .f32) (harg11 : arg11.IsWhole) (hc0 : ¬cond0_0 i) (x0 : Vec F S4000x128 .f32) (x1 : Vec F S4000x128 .f32) (x2 : Vec F S128x64 .f32) (x3 : Vec F S1x64 .f32) (x4 : Vec F S128x64 .f32) (x5 : Vec F S1x64 .f32) (xo6 : Vec F S1x1x64 .f32) (xo7 : Vec F S1x1x64 .f32) (xo8 : Vec F S1x1x64 .f32) (xo9 : Vec F S1x1x64 .f32) :
    out0_B_9 c i arg2 harg2 arg3 harg3 arg4 harg4 arg5 harg5 arg6 harg6 arg7 harg7 arg8 harg8 arg9 harg9 arg10 harg10 arg11 harg11 hc0 x0 x1 x2 x3 x4 x5 xo6 xo7 xo8 xo9 = k0_pay3 (k0_pay9 x1 x4 x5) xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 x4 x5 xo6 xo7 xo8 xo9)]
  unfold kernelRun0_B
  dsimp only
  (try sl_unfold_words)
  rw [View.canon_unit_zero hz3]
  simp only [View.readAt_eq_ld, harg2.read_unread, harg3.read_unread, harg4.read_unread, harg5.read_unread, harg6.read_unread, harg7.read_unread,
    harg8.read_unread, harg9.read_unread, harg10.read_unread, harg11.read_unread,
    View.ld_unit_zero (S := S4000x128) hz2, View.ld_unit_zero (S := S128x64) hz2, View.ld_unit_zero (S := S1x64) hz2,
    View.ld_unit_zero (S := S1x1x64) hz3]

set_option maxHeartbeats 800000 in
/-- A half's first step leaves the first layer's column sums accumulated into the zero block. -/
theorem out_A_6 (c : Dev nD) (i : grid0.Coords) (arg2 : Memref sig .tc .vmem S4000x128 .f32) (harg2 : arg2.IsWhole) (arg3 : Memref sig .tc .vmem S4000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x1x64 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1x64 .f32) (harg11 : arg11.IsWhole) (hc0 : cond0_0 i) (x0 : Vec F S4000x128 .f32) (x1 : Vec F S4000x128 .f32) (x2 : Vec F S128x64 .f32) (x3 : Vec F S1x64 .f32) (x4 : Vec F S128x64 .f32) (x5 : Vec F S1x64 .f32) :
    out0_A_6 c i arg2 harg2 arg3 harg3 arg4 harg4 arg5 harg5 arg6 harg6 arg7 harg7 arg8 harg8 arg9 harg9 arg10 harg10 arg11 harg11 hc0 x0 x1 x2 x3 x4 x5 = k0_pay10 x0 x2 x3 k0_pay4 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S1x1x64) hz3, View.readCov_unit_zero (S := S1x1x64) _ hz3]
  simp only [View.readAt_eq_ld, harg2.read_unread, harg3.read_unread, harg4.read_unread, harg5.read_unread, harg6.read_unread, harg7.read_unread,
    harg8.read_unread, harg9.read_unread, harg10.read_unread, harg11.read_unread,
    View.ld_unit_zero (S := S4000x128) hz2, View.ld_unit_zero (S := S128x64) hz2, View.ld_unit_zero (S := S1x64) hz2,
    View.ld_unit_zero (S := S1x1x64) hz3]

set_option maxHeartbeats 800000 in
/-- A half's first step leaves the first layer's column sums of squares accumulated into the zero block. -/
theorem out_A_7 (c : Dev nD) (i : grid0.Coords) (arg2 : Memref sig .tc .vmem S4000x128 .f32) (harg2 : arg2.IsWhole) (arg3 : Memref sig .tc .vmem S4000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x1x64 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1x64 .f32) (harg11 : arg11.IsWhole) (hc0 : cond0_0 i) (x0 : Vec F S4000x128 .f32) (x1 : Vec F S4000x128 .f32) (x2 : Vec F S128x64 .f32) (x3 : Vec F S1x64 .f32) (x4 : Vec F S128x64 .f32) (x5 : Vec F S1x64 .f32) :
    out0_A_7 c i arg2 harg2 arg3 harg3 arg4 harg4 arg5 harg5 arg6 harg6 arg7 harg7 arg8 harg8 arg9 harg9 arg10 harg10 arg11 harg11 hc0 x0 x1 x2 x3 x4 x5 = k0_pay1 (k0_pay11 k0_pay5) (k0_pay12 x0 x2 x3) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S1x1x64) hz3, View.readCov_unit_zero (S := S1x1x64) _ hz3]
  simp only [View.readAt_eq_ld, harg2.read_unread, harg3.read_unread, harg4.read_unread, harg5.read_unread, harg6.read_unread, harg7.read_unread,
    harg8.read_unread, harg9.read_unread, harg10.read_unread, harg11.read_unread,
    View.ld_unit_zero (S := S4000x128) hz2, View.ld_unit_zero (S := S128x64) hz2, View.ld_unit_zero (S := S1x64) hz2,
    View.ld_unit_zero (S := S1x1x64) hz3]

set_option maxHeartbeats 800000 in
/-- A half's first step leaves the second layer's column sums accumulated into the zero block. -/
theorem out_A_8 (c : Dev nD) (i : grid0.Coords) (arg2 : Memref sig .tc .vmem S4000x128 .f32) (harg2 : arg2.IsWhole) (arg3 : Memref sig .tc .vmem S4000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x1x64 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1x64 .f32) (harg11 : arg11.IsWhole) (hc0 : cond0_0 i) (x0 : Vec F S4000x128 .f32) (x1 : Vec F S4000x128 .f32) (x2 : Vec F S128x64 .f32) (x3 : Vec F S1x64 .f32) (x4 : Vec F S128x64 .f32) (x5 : Vec F S1x64 .f32) :
    out0_A_8 c i arg2 harg2 arg3 harg3 arg4 harg4 arg5 harg5 arg6 harg6 arg7 harg7 arg8 harg8 arg9 harg9 arg10 harg10 arg11 harg11 hc0 x0 x1 x2 x3 x4 x5 = k0_pay2 (k0_pay9 x1 x4 x5) k0_pay6 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S1x1x64) hz3, View.readCov_unit_zero (S := S1x1x64) _ hz3]
  simp only [View.readAt_eq_ld, harg2.read_unread, harg3.read_unread, harg4.read_unread, harg5.read_unread, harg6.read_unread, harg7.read_unread,
    harg8.read_unread, harg9.read_unread, harg10.read_unread, harg11.read_unread,
    View.ld_unit_zero (S := S4000x128) hz2, View.ld_unit_zero (S := S128x64) hz2, View.ld_unit_zero (S := S1x64) hz2,
    View.ld_unit_zero (S := S1x1x64) hz3]

set_option maxHeartbeats 800000 in
/-- A half's first step leaves the second layer's column sums of squares accumulated into the zero block. -/
theorem out_A_9 (c : Dev nD) (i : grid0.Coords) (arg2 : Memref sig .tc .vmem S4000x128 .f32) (harg2 : arg2.IsWhole) (arg3 : Memref sig .tc .vmem S4000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x1x64 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1x64 .f32) (harg11 : arg11.IsWhole) (hc0 : cond0_0 i) (x0 : Vec F S4000x128 .f32) (x1 : Vec F S4000x128 .f32) (x2 : Vec F S128x64 .f32) (x3 : Vec F S1x64 .f32) (x4 : Vec F S128x64 .f32) (x5 : Vec F S1x64 .f32) :
    out0_A_9 c i arg2 harg2 arg3 harg3 arg4 harg4 arg5 harg5 arg6 harg6 arg7 harg7 arg8 harg8 arg9 harg9 arg10 harg10 arg11 harg11 hc0 x0 x1 x2 x3 x4 x5 = k0_pay3 (k0_pay9 x1 x4 x5) k0_pay7 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S1x1x64) hz3, View.readCov_unit_zero (S := S1x1x64) _ hz3]
  simp only [View.readAt_eq_ld, harg2.read_unread, harg3.read_unread, harg4.read_unread, harg5.read_unread, harg6.read_unread, harg7.read_unread,
    harg8.read_unread, harg9.read_unread, harg10.read_unread, harg11.read_unread,
    View.ld_unit_zero (S := S4000x128) hz2, View.ld_unit_zero (S := S128x64) hz2, View.ld_unit_zero (S := S1x64) hz2,
    View.ld_unit_zero (S := S1x1x64) hz3]

end Pieces

variable (V : (c : Dev nD) → (b : Ref sig .tc) → Buf (Elt Ideal) ((c : Thread nD τ).loc b))

/-! ## The input blocks of a grid point, as entries of the arrays -/

/-- Where each input window's block sits at a grid point: the two row-blocked inputs at block-row t, the four others whole. -/
theorem idx_in : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, _)

/-- Row r of the first input's block at point t is row 4000·t + r of the array. -/
theorem blk0_apply (c : Dev nD) (t : Fin cfg0.N) (r : Fin 4000) (k : Fin 128) (n : Fin 1000000) (hn : n.val = t.val * 4000 + r.val) :
    (iblk0 (F := Ideal) V c 0 t : Vec Ideal S4000x128 .f32) (ix2 r k) = (V c (Pipeline.arrRef spec0 0) : Spec.Mat 1000000 128) (ix2 n k) := by
  unfold iblk0
  show V c (Pipeline.arrRef spec0 0) (((cfg0.win 0).blk t).view.emb (ix2 r k)) = _
  refine congrArg (V c (Pipeline.arrRef spec0 0)) (funext fun a => Fin.ext ?_)
  match a with
  | ⟨0, _⟩ => show win0_0.index t 0 * 4000 + 1 * r.val = n.val; rw [(idx_in t).1.1, hn]; omega
  | ⟨1, _⟩ => show win0_0.index t 1 * 128 + 1 * k.val = k.val; rw [(idx_in t).1.2]; omega

/-- Row r of the second input's block at point t is row 4000·t + r of the array. -/
theorem blk1_apply (c : Dev nD) (t : Fin cfg0.N) (r : Fin 4000) (k : Fin 128) (n : Fin 1000000) (hn : n.val = t.val * 4000 + r.val) :
    (iblk0 (F := Ideal) V c 1 t : Vec Ideal S4000x128 .f32) (ix2 r k) = (V c (Pipeline.arrRef spec0 1) : Spec.Mat 1000000 128) (ix2 n k) := by
  unfold iblk0
  show V c (Pipeline.arrRef spec0 1) (((cfg0.win 1).blk t).view.emb (ix2 r k)) = _
  refine congrArg (V c (Pipeline.arrRef spec0 1)) (funext fun a => Fin.ext ?_)
  match a with
  | ⟨0, _⟩ => show win0_1.index t 0 * 4000 + 1 * r.val = n.val; rw [(idx_in t).2.1.1, hn]; omega
  | ⟨1, _⟩ => show win0_1.index t 1 * 128 + 1 * k.val = k.val; rw [(idx_in t).2.1.2]; omega

/-- The first weight matrix's block is the matrix. -/
theorem blk2_apply (c : Dev nD) (t : Fin cfg0.N) (k : Fin 128) (j : Fin 64) :
    (iblk0 (F := Ideal) V c 2 t : Vec Ideal S128x64 .f32) (ix2 k j) = (V c (Pipeline.arrRef spec0 2) : Spec.Mat 128 64) (ix2 k j) := by
  unfold iblk0
  show V c (Pipeline.arrRef spec0 2) (((cfg0.win 2).blk t).view.emb (ix2 k j)) = _
  refine congrArg (V c (Pipeline.arrRef spec0 2)) (funext fun a => Fin.ext ?_)
  match a with
  | ⟨0, _⟩ => show win0_2.index t 0 * 128 + 1 * k.val = k.val; rw [(idx_in t).2.2.1.1]; omega
  | ⟨1, _⟩ => show win0_2.index t 1 * 64 + 1 * j.val = j.val; rw [(idx_in t).2.2.1.2]; omega

/-- The first bias row's block is the row. -/
theorem blk3_apply (c : Dev nD) (t : Fin cfg0.N) (j : Fin 64) :
    (iblk0 (F := Ideal) V c 3 t : Vec Ideal S1x64 .f32) (ix2 0 j) = (V c (Pipeline.arrRef spec0 3) : Spec.Mat 1 64) (ix2 0 j) := by
  unfold iblk0
  show V c (Pipeline.arrRef spec0 3) (((cfg0.win 3).blk t).view.emb (ix2 0 j)) = _
  refine congrArg (V c (Pipeline.arrRef spec0 3)) (funext fun a => Fin.ext ?_)
  match a with
  | ⟨0, _⟩ => show win0_3.index t 0 * 1 + 1 * 0 = 0; rw [(idx_in t).2.2.2.1.1]
  | ⟨1, _⟩ => show win0_3.index t 1 * 64 + 1 * j.val = j.val; rw [(idx_in t).2.2.2.1.2]; omega

/-- The second weight matrix's block is the matrix. -/
theorem blk4_apply (c : Dev nD) (t : Fin cfg0.N) (k : Fin 128) (j : Fin 64) :
    (iblk0 (F := Ideal) V c 4 t : Vec Ideal S128x64 .f32) (ix2 k j) = (V c (Pipeline.arrRef spec0 4) : Spec.Mat 128 64) (ix2 k j) := by
  unfold iblk0
  show V c (Pipeline.arrRef spec0 4) (((cfg0.win 4).blk t).view.emb (ix2 k j)) = _
  refine congrArg (V c (Pipeline.arrRef spec0 4)) (funext fun a => Fin.ext ?_)
  match a with
  | ⟨0, _⟩ => show win0_4.index t 0 * 128 + 1 * k.val = k.val; rw [(idx_in t).2.2.2.2.1.1]; omega
  | ⟨1, _⟩ => show win0_4.index t 1 * 64 + 1 * j.val = j.val; rw [(idx_in t).2.2.2.2.1.2]; omega

/-- The second bias row's block is the row. -/
theorem blk5_apply (c : Dev nD) (t : Fin cfg0.N) (j : Fin 64) :
    (iblk0 (F := Ideal) V c 5 t : Vec Ideal S1x64 .f32) (ix2 0 j) = (V c (Pipeline.arrRef spec0 5) : Spec.Mat 1 64) (ix2 0 j) := by
  unfold iblk0
  show V c (Pipeline.arrRef spec0 5) (((cfg0.win 5).blk t).view.emb (ix2 0 j)) = _
  refine congrArg (V c (Pipeline.arrRef spec0 5)) (funext fun a => Fin.ext ?_)
  match a with
  | ⟨0, _⟩ => show win0_5.index t 0 * 1 + 1 * 0 = 0; rw [(idx_in t).2.2.2.2.2.1]
  | ⟨1, _⟩ => show win0_5.index t 1 * 64 + 1 * j.val = j.val; rw [(idx_in t).2.2.2.2.2.2]; omega

/-- The first dense layer on point t's blocks, at row r and column j, is the layer's entry at row 4000·t + r. -/
theorem dense_blk (c : Dev nD) (t : Fin cfg0.N) (r : Fin 4000) (j : Fin 64) (n : Fin 1000000) (hn : n.val = t.val * 4000 + r.val) :
    k0_pay8 (F := Ideal) (iblk0 V c 0 t) (iblk0 V c 2 t) (iblk0 V c 3 t) (ix2 r j)
      = Spec.lin (V c (Pipeline.arrRef spec0 0)) (V c (Pipeline.arrRef spec0 2)) (V c (Pipeline.arrRef spec0 3)) n j := by
  refine (dense_apply (iblk0 V c 0 t) (iblk0 V c 2 t) (iblk0 V c 3 t) r j).trans ?_
  unfold Spec.lin
  exact congrArg₂ (· + ·) (Finset.sum_congr rfl fun k _ => congrArg₂ (· * ·) (blk0_apply V c t r k n hn) (blk2_apply V c t k j))
    (blk3_apply V c t j)

/-- The second dense layer on point t's blocks, at row r and column j, is the layer's entry at row 4000·t + r. -/
theorem dense'_blk (c : Dev nD) (t : Fin cfg0.N) (r : Fin 4000) (j : Fin 64) (n : Fin 1000000) (hn : n.val = t.val * 4000 + r.val) :
    k0_pay9 (F := Ideal) (iblk0 V c 1 t) (iblk0 V c 4 t) (iblk0 V c 5 t) (ix2 r j)
      = Spec.lin (V c (Pipeline.arrRef spec0 1)) (V c (Pipeline.arrRef spec0 4)) (V c (Pipeline.arrRef spec0 5)) n j := by
  refine (dense'_apply (iblk0 V c 1 t) (iblk0 V c 4 t) (iblk0 V c 5 t) r j).trans ?_
  unfold Spec.lin
  exact congrArg₂ (· + ·) (Finset.sum_congr rfl fun k _ => congrArg₂ (· * ·) (blk1_apply V c t r k n hn) (blk4_apply V c t k j))
    (blk5_apply V c t j)

/-! ## A quantity that restarts at each half's first step and adds a step's term at every other step -/

/-- If f restarts at M at the multiples of 125 and adds M at every other point, then e steps after a multiple b of 125
    (e < 125) it is the sum of M over the points b … b + e. -/
theorem run_sum {N : ℕ} (f M : (n : ℕ) → n < N → Fin 64 → EReal)
    (h0 : ∀ (n : ℕ) (h : n < N), n % 125 = 0 → ∀ j, f n h j = M n h j)
    (hs : ∀ (n : ℕ) (h : n + 1 < N), ¬(n + 1) % 125 = 0 → ∀ j, f (n + 1) h j = f n (Nat.lt_of_succ_lt h) j + M (n + 1) h j)
    (b : ℕ) (hb : b % 125 = 0) : ∀ (e : ℕ) (_ : e < 125) (h : b + e < N) (j : Fin 64),
      f (b + e) h j = ∑ s : Fin (e + 1), M (b + s.val) (by have := s.isLt; omega) j
  | 0, _, h, j => by
    rw [Fin.sum_univ_one]
    exact h0 b h hb j
  | e + 1, he, h, j => by
    rw [Fin.sum_univ_castSucc]
    have ih := run_sum f M h0 hs b hb e (by omega) (Nat.lt_of_succ_lt h) j
    have hne : ¬(b + e + 1) % 125 = 0 := by omega
    refine (hs (b + e) h hne j).trans ?_
    rw [ih]
    rfl

/-! ## From the blocks to the four output arrays -/

/-- Where each output window's block sits at a grid point: block (t / 125, 0, 0), a whole [1,1,64] block. -/
theorem idx_out : ∀ t : Fin cfg0.N,
    (win0_6.index t 0 = t.val / 125 ∧ win0_6.index t 1 = 0 ∧ win0_6.index t 2 = 0
      ∧ win0_6.xsize (grid0.coords t) 0 = 1 ∧ win0_6.xsize (grid0.coords t) 1 = 1 ∧ win0_6.xsize (grid0.coords t) 2 = 64)
    ∧ (win0_7.index t 0 = t.val / 125 ∧ win0_7.index t 1 = 0 ∧ win0_7.index t 2 = 0
      ∧ win0_7.xsize (grid0.coords t) 0 = 1 ∧ win0_7.xsize (grid0.coords t) 1 = 1 ∧ win0_7.xsize (grid0.coords t) 2 = 64)
    ∧ (win0_8.index t 0 = t.val / 125 ∧ win0_8.index t 1 = 0 ∧ win0_8.index t 2 = 0
      ∧ win0_8.xsize (grid0.coords t) 0 = 1 ∧ win0_8.xsize (grid0.coords t) 1 = 1 ∧ win0_8.xsize (grid0.coords t) 2 = 64)
    ∧ (win0_9.index t 0 = t.val / 125 ∧ win0_9.index t 1 = 0 ∧ win0_9.index t 2 = 0
      ∧ win0_9.xsize (grid0.coords t) 0 = 1 ∧ win0_9.xsize (grid0.coords t) 1 = 1 ∧ win0_9.xsize (grid0.coords t) 2 = 64) :=
  (by decide +kernel : ∀ t : Fin grid0.N, _)

/-! ### Output 6: the first dense layer's per-half column sums -/

/-- The column sums of the first dense layer over grid point n's 4000 rows. -/
def term6 (c : Dev nD) (n : ℕ) (h : n < cfg0.N) (j : Fin 64) : EReal :=
  ∑ r : Fin 4000, k0_pay8 (F := Ideal) (iblk0 V c 0 ⟨n, h⟩) (iblk0 V c 2 ⟨n, h⟩) (iblk0 V c 3 ⟨n, h⟩) (ix2 r j)

/-- At a half's first step the block holds that step's term. -/
theorem first6 (c : Dev nD) (n : ℕ) (h : n < cfg0.N) (h0 : n % 125 = 0) (j : Fin 64) :
    (outsAt0 (F := Ideal) V c n h).1 (ix3 0 0 j) = term6 V c n h j := by
  rw [outsAt0_A V c ⟨n, h⟩ h0]
  dsimp only
  rw [out_A_6]
  refine (pay10_apply _ _ _ _ j).trans ?_
  rw [pay4_apply, zero_add]
  rfl

/-- At every other step the block holds what the step before left plus the step's term. -/
theorem next6 (c : Dev nD) (n : ℕ) (h : n + 1 < cfg0.N) (h0 : ¬(n + 1) % 125 = 0) (j : Fin 64) :
    (outsAt0 (F := Ideal) V c (n + 1) h).1 (ix3 0 0 j)
      = (outsAt0 (F := Ideal) V c n (Nat.lt_of_succ_lt h)).1 (ix3 0 0 j) + term6 V c (n + 1) h j := by
  rw [outsAt0_B V c ⟨n + 1, h⟩ h0]
  dsimp only
  rw [out_B_6]
  exact pay10_apply _ _ _ _ j

/-- After a half's last step the block holds the half's sum. -/
theorem half6 (c : Dev nD) (n : ℕ) (hn : n < cfg0.N) (q : Fin 2) (hq : n = 125 * q.val + 124) (j : Fin 64) :
    (outsAt0 (F := Ideal) V c n hn).1 (ix3 0 0 j) = Spec.halfSum (fun m => Spec.lin (V c (Pipeline.arrRef spec0 0)) (V c (Pipeline.arrRef spec0 2)) (V c (Pipeline.arrRef spec0 3)) m j) q := by
  subst hq
  refine (run_sum (fun n h j => (outsAt0 (F := Ideal) V c n h).1 (ix3 0 0 j)) (term6 V c)
    (fun n h h0 j => first6 V c n h h0 j) (fun n h h0 j => next6 V c n h h0 j) (125 * q.val) (by omega) 124 (by omega) hn j).trans ?_
  have hN : cfg0.N = 250 := N_0
  show ∑ p : Fin 125, term6 V c (125 * q.val + p.val) _ j = ∑ p : Fin 125, ∑ r : Fin 4000, _
  refine Finset.sum_congr rfl fun p _ => Finset.sum_congr rfl fun r _ => ?_
  exact dense_blk V c (⟨125 * q.val + p.val, by have := q.isLt; have := p.isLt; omega⟩ : Fin cfg0.N) r j (Spec.row q p r) rfl

/-- The array the two write-backs of output 6 are blocks of. -/
def G6 (c : Dev nD) : S2x1x64.Idx → EReal := fun i =>
  Spec.halfSum (fun m => Spec.lin (V c (Pipeline.arrRef spec0 0)) (V c (Pipeline.arrRef spec0 2)) (V c (Pipeline.arrRef spec0 3)) m ⟨(i 2).val, (i 2).isLt⟩) ⟨(i 0).val, (i 0).isLt⟩

set_option maxHeartbeats 800000 in
/-- What a write-back of output 6 writes is its block of that array. -/
theorem flushed6 (c : Dev nD) (t : Fin cfg0.N) (hf : (cfg0.win 6).flush t = true) :
    (dat0 (F := Ideal) V c).flushed 6 t = ((cfg0.win 6).blk t).view.read (Elt Ideal) (G6 V c) := by
  have hN : cfg0.N = 250 := N_0
  have hlt : t.val < 250 := lt_of_lt_of_eq t.isLt hN
  have h124 : t.val % 125 = 124 := (flush0_6 t).mp hf
  have hi := (idx_out t).1
  funext y
  show (dat0 (F := Ideal) V c).after 6 t ((cfg0.win 6).xinj (grid0.coords t) y) = G6 V c (((cfg0.win 6).blk t).view.emb y)
  rw [after0_6]
  have hy0 : (y 0).val = 0 := by
    have : (y 0).val < win0_6.xsize (grid0.coords t) 0 := (y 0).isLt
    rw [hi.2.2.2.1] at this; omega
  have hy1 : (y 1).val = 0 := by
    have : (y 1).val < win0_6.xsize (grid0.coords t) 1 := (y 1).isLt
    rw [hi.2.2.2.2.1] at this; omega
  have hy2 : (y 2).val < 64 := by
    have : (y 2).val < win0_6.xsize (grid0.coords t) 2 := (y 2).isLt
    rw [hi.2.2.2.2.2] at this; exact this
  have hx : (cfg0.win 6).xinj (grid0.coords t) y = ix3 (0 : Fin 1) (0 : Fin 1) (⟨(y 2).val, hy2⟩ : Fin 64) := funext fun a => Fin.ext (by
    match a with
    | ⟨0, _⟩ => exact hy0
    | ⟨1, _⟩ => exact hy1
    | ⟨2, _⟩ => rfl)
  rw [hx]
  refine (half6 V c t.val t.isLt ⟨t.val / 125, by omega⟩ (by dsimp only; omega) ⟨(y 2).val, hy2⟩).trans ?_
  have e0 : ((((cfg0.win 6).blk t).view.emb y) 0).val = t.val / 125 := by
    show win0_6.index t 0 * 1 + 1 * (y 0).val = t.val / 125
    rw [hi.1, hy0]; omega
  have e2 : ((((cfg0.win 6).blk t).view.emb y) 2).val = (y 2).val := by
    show win0_6.index t 2 * 64 + 1 * (y 2).val = (y 2).val
    rw [hi.2.2.1]; omega
  unfold G6
  exact congrArg₂ (fun (jj : Fin 64) (qq : Fin 2) => Spec.halfSum (fun m => Spec.lin (V c (Pipeline.arrRef spec0 0)) (V c (Pipeline.arrRef spec0 2)) (V c (Pipeline.arrRef spec0 3)) m jj) qq)
    (Fin.ext e2.symm) (Fin.ext e0.symm)

/-- Every entry of output 6's array lies in the block written back after its half's last step. -/
theorem cover6 (i : S2x1x64.Idx) : ∃ t : Fin cfg0.N, (cfg0.win 6).flush t = true ∧ i ∈ ((cfg0.win 6).blk t).view.set := by
  have hN : cfg0.N = 250 := N_0
  have hi0 : (i 0).val < 2 := (i 0).isLt
  have hi1 : (i 1).val < 1 := (i 1).isLt
  have hi2 : (i 2).val < 64 := (i 2).isLt
  obtain ⟨T, hT⟩ : ∃ T : Fin cfg0.N, T.val = 125 * (i 0).val + 124 := ⟨⟨125 * (i 0).val + 124, by omega⟩, rfl⟩
  have hi := (idx_out T).1
  refine ⟨T, (flush0_6 T).mpr (by omega), ?_⟩
  show i ∈ ((View.whole main_v10_0).slice (win0_6.rect T)).set
  rw [View.set_slice_whole, Rect.mem_set_unit]
  intro a
  match a with
  | ⟨0, _⟩ =>
    show win0_6.index T 0 * 1 ≤ (i 0).val ∧ (i 0).val < win0_6.index T 0 * 1 + win0_6.xsize (grid0.coords T) 0
    rw [hi.1, hi.2.2.2.1]; omega
  | ⟨1, _⟩ =>
    show win0_6.index T 1 * 1 ≤ (i 1).val ∧ (i 1).val < win0_6.index T 1 * 1 + win0_6.xsize (grid0.coords T) 1
    rw [hi.2.1, hi.2.2.2.2.1]; omega
  | ⟨2, _⟩ =>
    show win0_6.index T 2 * 64 ≤ (i 2).val ∧ (i 2).val < win0_6.index T 2 * 64 + win0_6.xsize (grid0.coords T) 2
    rw [hi.2.2.1, hi.2.2.2.2.2]; omega

/-- Output 6 after the region: the first dense layer's per-half column sums -/
theorem arr6_apply (c : Dev nD) (h : Fin 2) (j : Fin 64) :
    (dat0 (F := Ideal) V c).arrAt 6 cfg0.N (ix3 h 0 j)
      = Spec.halfSum (fun n => Spec.lin (V c (Pipeline.arrRef spec0 0)) (V c (Pipeline.arrRef spec0 2)) (V c (Pipeline.arrRef spec0 3)) n j) h :=
  congrFun ((dat0 (F := Ideal) V c).arrAt_eq_of_cover 6 (G6 V c) (flushed6 V c) cover6) (ix3 h 0 j)

/-! ### Output 7: the first dense layer's per-half column sums of squares -/

/-- The column sums of the first dense layer's squares over grid point n's 4000 rows. -/
def term7 (c : Dev nD) (n : ℕ) (h : n < cfg0.N) (j : Fin 64) : EReal :=
  ∑ r : Fin 4000, k0_pay8 (F := Ideal) (iblk0 V c 0 ⟨n, h⟩) (iblk0 V c 2 ⟨n, h⟩) (iblk0 V c 3 ⟨n, h⟩) (ix2 r j) * k0_pay8 (F := Ideal) (iblk0 V c 0 ⟨n, h⟩) (iblk0 V c 2 ⟨n, h⟩) (iblk0 V c 3 ⟨n, h⟩) (ix2 r j)

/-- At a half's first step the block holds that step's term. -/
theorem first7 (c : Dev nD) (n : ℕ) (h : n < cfg0.N) (h0 : n % 125 = 0) (j : Fin 64) :
    (outsAt0 (F := Ideal) V c n h).2.1 (ix3 0 0 j) = term7 V c n h j := by
  rw [outsAt0_A V c ⟨n, h⟩ h0]
  dsimp only
  rw [out_A_7]
  refine (pay1_apply _ _ _ _ j).trans ?_
  rw [pay5_apply, zero_add]
  rfl

/-- At every other step the block holds what the step before left plus the step's term. -/
theorem next7 (c : Dev nD) (n : ℕ) (h : n + 1 < cfg0.N) (h0 : ¬(n + 1) % 125 = 0) (j : Fin 64) :
    (outsAt0 (F := Ideal) V c (n + 1) h).2.1 (ix3 0 0 j)
      = (outsAt0 (F := Ideal) V c n (Nat.lt_of_succ_lt h)).2.1 (ix3 0 0 j) + term7 V c (n + 1) h j := by
  rw [outsAt0_B V c ⟨n + 1, h⟩ h0]
  dsimp only
  rw [out_B_7]
  exact pay1_apply _ _ _ _ j

/-- After a half's last step the block holds the half's sum. -/
theorem half7 (c : Dev nD) (n : ℕ) (hn : n < cfg0.N) (q : Fin 2) (hq : n = 125 * q.val + 124) (j : Fin 64) :
    (outsAt0 (F := Ideal) V c n hn).2.1 (ix3 0 0 j) = Spec.halfSum (fun m => Spec.lin (V c (Pipeline.arrRef spec0 0)) (V c (Pipeline.arrRef spec0 2)) (V c (Pipeline.arrRef spec0 3)) m j * Spec.lin (V c (Pipeline.arrRef spec0 0)) (V c (Pipeline.arrRef spec0 2)) (V c (Pipeline.arrRef spec0 3)) m j) q := by
  subst hq
  refine (run_sum (fun n h j => (outsAt0 (F := Ideal) V c n h).2.1 (ix3 0 0 j)) (term7 V c)
    (fun n h h0 j => first7 V c n h h0 j) (fun n h h0 j => next7 V c n h h0 j) (125 * q.val) (by omega) 124 (by omega) hn j).trans ?_
  have hN : cfg0.N = 250 := N_0
  show ∑ p : Fin 125, term7 V c (125 * q.val + p.val) _ j = ∑ p : Fin 125, ∑ r : Fin 4000, _
  refine Finset.sum_congr rfl fun p _ => Finset.sum_congr rfl fun r _ => ?_
  exact congrArg₂ (· * ·) (dense_blk V c (⟨125 * q.val + p.val, by have := q.isLt; have := p.isLt; omega⟩ : Fin cfg0.N) r j (Spec.row q p r) rfl) (dense_blk V c (⟨125 * q.val + p.val, by have := q.isLt; have := p.isLt; omega⟩ : Fin cfg0.N) r j (Spec.row q p r) rfl)

/-- The array the two write-backs of output 7 are blocks of. -/
def G7 (c : Dev nD) : S2x1x64.Idx → EReal := fun i =>
  Spec.halfSum (fun m => Spec.lin (V c (Pipeline.arrRef spec0 0)) (V c (Pipeline.arrRef spec0 2)) (V c (Pipeline.arrRef spec0 3)) m ⟨(i 2).val, (i 2).isLt⟩ * Spec.lin (V c (Pipeline.arrRef spec0 0)) (V c (Pipeline.arrRef spec0 2)) (V c (Pipeline.arrRef spec0 3)) m ⟨(i 2).val, (i 2).isLt⟩) ⟨(i 0).val, (i 0).isLt⟩

set_option maxHeartbeats 800000 in
/-- What a write-back of output 7 writes is its block of that array. -/
theorem flushed7 (c : Dev nD) (t : Fin cfg0.N) (hf : (cfg0.win 7).flush t = true) :
    (dat0 (F := Ideal) V c).flushed 7 t = ((cfg0.win 7).blk t).view.read (Elt Ideal) (G7 V c) := by
  have hN : cfg0.N = 250 := N_0
  have hlt : t.val < 250 := lt_of_lt_of_eq t.isLt hN
  have h124 : t.val % 125 = 124 := (flush0_7 t).mp hf
  have hi := (idx_out t).2.1
  funext y
  show (dat0 (F := Ideal) V c).after 7 t ((cfg0.win 7).xinj (grid0.coords t) y) = G7 V c (((cfg0.win 7).blk t).view.emb y)
  rw [after0_7]
  have hy0 : (y 0).val = 0 := by
    have : (y 0).val < win0_7.xsize (grid0.coords t) 0 := (y 0).isLt
    rw [hi.2.2.2.1] at this; omega
  have hy1 : (y 1).val = 0 := by
    have : (y 1).val < win0_7.xsize (grid0.coords t) 1 := (y 1).isLt
    rw [hi.2.2.2.2.1] at this; omega
  have hy2 : (y 2).val < 64 := by
    have : (y 2).val < win0_7.xsize (grid0.coords t) 2 := (y 2).isLt
    rw [hi.2.2.2.2.2] at this; exact this
  have hx : (cfg0.win 7).xinj (grid0.coords t) y = ix3 (0 : Fin 1) (0 : Fin 1) (⟨(y 2).val, hy2⟩ : Fin 64) := funext fun a => Fin.ext (by
    match a with
    | ⟨0, _⟩ => exact hy0
    | ⟨1, _⟩ => exact hy1
    | ⟨2, _⟩ => rfl)
  rw [hx]
  refine (half7 V c t.val t.isLt ⟨t.val / 125, by omega⟩ (by dsimp only; omega) ⟨(y 2).val, hy2⟩).trans ?_
  have e0 : ((((cfg0.win 7).blk t).view.emb y) 0).val = t.val / 125 := by
    show win0_7.index t 0 * 1 + 1 * (y 0).val = t.val / 125
    rw [hi.1, hy0]; omega
  have e2 : ((((cfg0.win 7).blk t).view.emb y) 2).val = (y 2).val := by
    show win0_7.index t 2 * 64 + 1 * (y 2).val = (y 2).val
    rw [hi.2.2.1]; omega
  unfold G7
  exact congrArg₂ (fun (jj : Fin 64) (qq : Fin 2) => Spec.halfSum (fun m => Spec.lin (V c (Pipeline.arrRef spec0 0)) (V c (Pipeline.arrRef spec0 2)) (V c (Pipeline.arrRef spec0 3)) m jj * Spec.lin (V c (Pipeline.arrRef spec0 0)) (V c (Pipeline.arrRef spec0 2)) (V c (Pipeline.arrRef spec0 3)) m jj) qq)
    (Fin.ext e2.symm) (Fin.ext e0.symm)

/-- Every entry of output 7's array lies in the block written back after its half's last step. -/
theorem cover7 (i : S2x1x64.Idx) : ∃ t : Fin cfg0.N, (cfg0.win 7).flush t = true ∧ i ∈ ((cfg0.win 7).blk t).view.set := by
  have hN : cfg0.N = 250 := N_0
  have hi0 : (i 0).val < 2 := (i 0).isLt
  have hi1 : (i 1).val < 1 := (i 1).isLt
  have hi2 : (i 2).val < 64 := (i 2).isLt
  obtain ⟨T, hT⟩ : ∃ T : Fin cfg0.N, T.val = 125 * (i 0).val + 124 := ⟨⟨125 * (i 0).val + 124, by omega⟩, rfl⟩
  have hi := (idx_out T).2.1
  refine ⟨T, (flush0_7 T).mpr (by omega), ?_⟩
  show i ∈ ((View.whole main_v10_1).slice (win0_7.rect T)).set
  rw [View.set_slice_whole, Rect.mem_set_unit]
  intro a
  match a with
  | ⟨0, _⟩ =>
    show win0_7.index T 0 * 1 ≤ (i 0).val ∧ (i 0).val < win0_7.index T 0 * 1 + win0_7.xsize (grid0.coords T) 0
    rw [hi.1, hi.2.2.2.1]; omega
  | ⟨1, _⟩ =>
    show win0_7.index T 1 * 1 ≤ (i 1).val ∧ (i 1).val < win0_7.index T 1 * 1 + win0_7.xsize (grid0.coords T) 1
    rw [hi.2.1, hi.2.2.2.2.1]; omega
  | ⟨2, _⟩ =>
    show win0_7.index T 2 * 64 ≤ (i 2).val ∧ (i 2).val < win0_7.index T 2 * 64 + win0_7.xsize (grid0.coords T) 2
    rw [hi.2.2.1, hi.2.2.2.2.2]; omega

/-- Output 7 after the region: the first dense layer's per-half column sums of squares -/
theorem arr7_apply (c : Dev nD) (h : Fin 2) (j : Fin 64) :
    (dat0 (F := Ideal) V c).arrAt 7 cfg0.N (ix3 h 0 j)
      = Spec.halfSum (fun n => Spec.lin (V c (Pipeline.arrRef spec0 0)) (V c (Pipeline.arrRef spec0 2)) (V c (Pipeline.arrRef spec0 3)) n j * Spec.lin (V c (Pipeline.arrRef spec0 0)) (V c (Pipeline.arrRef spec0 2)) (V c (Pipeline.arrRef spec0 3)) n j) h :=
  congrFun ((dat0 (F := Ideal) V c).arrAt_eq_of_cover 7 (G7 V c) (flushed7 V c) cover7) (ix3 h 0 j)

/-! ### Output 8: the second dense layer's per-half column sums -/

/-- The column sums of the second dense layer over grid point n's 4000 rows. -/
def term8 (c : Dev nD) (n : ℕ) (h : n < cfg0.N) (j : Fin 64) : EReal :=
  ∑ r : Fin 4000, k0_pay9 (F := Ideal) (iblk0 V c 1 ⟨n, h⟩) (iblk0 V c 4 ⟨n, h⟩) (iblk0 V c 5 ⟨n, h⟩) (ix2 r j)

/-- At a half's first step the block holds that step's term. -/
theorem first8 (c : Dev nD) (n : ℕ) (h : n < cfg0.N) (h0 : n % 125 = 0) (j : Fin 64) :
    (outsAt0 (F := Ideal) V c n h).2.2.1 (ix3 0 0 j) = term8 V c n h j := by
  rw [outsAt0_A V c ⟨n, h⟩ h0]
  dsimp only
  rw [out_A_8]
  refine (pay2_apply _ _ j).trans ?_
  rw [pay6_apply, zero_add]
  rfl

/-- At every other step the block holds what the step before left plus the step's term. -/
theorem next8 (c : Dev nD) (n : ℕ) (h : n + 1 < cfg0.N) (h0 : ¬(n + 1) % 125 = 0) (j : Fin 64) :
    (outsAt0 (F := Ideal) V c (n + 1) h).2.2.1 (ix3 0 0 j)
      = (outsAt0 (F := Ideal) V c n (Nat.lt_of_succ_lt h)).2.2.1 (ix3 0 0 j) + term8 V c (n + 1) h j := by
  rw [outsAt0_B V c ⟨n + 1, h⟩ h0]
  dsimp only
  rw [out_B_8]
  exact pay2_apply _ _ j

/-- After a half's last step the block holds the half's sum. -/
theorem half8 (c : Dev nD) (n : ℕ) (hn : n < cfg0.N) (q : Fin 2) (hq : n = 125 * q.val + 124) (j : Fin 64) :
    (outsAt0 (F := Ideal) V c n hn).2.2.1 (ix3 0 0 j) = Spec.halfSum (fun m => Spec.lin (V c (Pipeline.arrRef spec0 1)) (V c (Pipeline.arrRef spec0 4)) (V c (Pipeline.arrRef spec0 5)) m j) q := by
  subst hq
  refine (run_sum (fun n h j => (outsAt0 (F := Ideal) V c n h).2.2.1 (ix3 0 0 j)) (term8 V c)
    (fun n h h0 j => first8 V c n h h0 j) (fun n h h0 j => next8 V c n h h0 j) (125 * q.val) (by omega) 124 (by omega) hn j).trans ?_
  have hN : cfg0.N = 250 := N_0
  show ∑ p : Fin 125, term8 V c (125 * q.val + p.val) _ j = ∑ p : Fin 125, ∑ r : Fin 4000, _
  refine Finset.sum_congr rfl fun p _ => Finset.sum_congr rfl fun r _ => ?_
  exact dense'_blk V c (⟨125 * q.val + p.val, by have := q.isLt; have := p.isLt; omega⟩ : Fin cfg0.N) r j (Spec.row q p r) rfl

/-- The array the two write-backs of output 8 are blocks of. -/
def G8 (c : Dev nD) : S2x1x64.Idx → EReal := fun i =>
  Spec.halfSum (fun m => Spec.lin (V c (Pipeline.arrRef spec0 1)) (V c (Pipeline.arrRef spec0 4)) (V c (Pipeline.arrRef spec0 5)) m ⟨(i 2).val, (i 2).isLt⟩) ⟨(i 0).val, (i 0).isLt⟩

set_option maxHeartbeats 800000 in
/-- What a write-back of output 8 writes is its block of that array. -/
theorem flushed8 (c : Dev nD) (t : Fin cfg0.N) (hf : (cfg0.win 8).flush t = true) :
    (dat0 (F := Ideal) V c).flushed 8 t = ((cfg0.win 8).blk t).view.read (Elt Ideal) (G8 V c) := by
  have hN : cfg0.N = 250 := N_0
  have hlt : t.val < 250 := lt_of_lt_of_eq t.isLt hN
  have h124 : t.val % 125 = 124 := (flush0_8 t).mp hf
  have hi := (idx_out t).2.2.1
  funext y
  show (dat0 (F := Ideal) V c).after 8 t ((cfg0.win 8).xinj (grid0.coords t) y) = G8 V c (((cfg0.win 8).blk t).view.emb y)
  rw [after0_8]
  have hy0 : (y 0).val = 0 := by
    have : (y 0).val < win0_8.xsize (grid0.coords t) 0 := (y 0).isLt
    rw [hi.2.2.2.1] at this; omega
  have hy1 : (y 1).val = 0 := by
    have : (y 1).val < win0_8.xsize (grid0.coords t) 1 := (y 1).isLt
    rw [hi.2.2.2.2.1] at this; omega
  have hy2 : (y 2).val < 64 := by
    have : (y 2).val < win0_8.xsize (grid0.coords t) 2 := (y 2).isLt
    rw [hi.2.2.2.2.2] at this; exact this
  have hx : (cfg0.win 8).xinj (grid0.coords t) y = ix3 (0 : Fin 1) (0 : Fin 1) (⟨(y 2).val, hy2⟩ : Fin 64) := funext fun a => Fin.ext (by
    match a with
    | ⟨0, _⟩ => exact hy0
    | ⟨1, _⟩ => exact hy1
    | ⟨2, _⟩ => rfl)
  rw [hx]
  refine (half8 V c t.val t.isLt ⟨t.val / 125, by omega⟩ (by dsimp only; omega) ⟨(y 2).val, hy2⟩).trans ?_
  have e0 : ((((cfg0.win 8).blk t).view.emb y) 0).val = t.val / 125 := by
    show win0_8.index t 0 * 1 + 1 * (y 0).val = t.val / 125
    rw [hi.1, hy0]; omega
  have e2 : ((((cfg0.win 8).blk t).view.emb y) 2).val = (y 2).val := by
    show win0_8.index t 2 * 64 + 1 * (y 2).val = (y 2).val
    rw [hi.2.2.1]; omega
  unfold G8
  exact congrArg₂ (fun (jj : Fin 64) (qq : Fin 2) => Spec.halfSum (fun m => Spec.lin (V c (Pipeline.arrRef spec0 1)) (V c (Pipeline.arrRef spec0 4)) (V c (Pipeline.arrRef spec0 5)) m jj) qq)
    (Fin.ext e2.symm) (Fin.ext e0.symm)

/-- Every entry of output 8's array lies in the block written back after its half's last step. -/
theorem cover8 (i : S2x1x64.Idx) : ∃ t : Fin cfg0.N, (cfg0.win 8).flush t = true ∧ i ∈ ((cfg0.win 8).blk t).view.set := by
  have hN : cfg0.N = 250 := N_0
  have hi0 : (i 0).val < 2 := (i 0).isLt
  have hi1 : (i 1).val < 1 := (i 1).isLt
  have hi2 : (i 2).val < 64 := (i 2).isLt
  obtain ⟨T, hT⟩ : ∃ T : Fin cfg0.N, T.val = 125 * (i 0).val + 124 := ⟨⟨125 * (i 0).val + 124, by omega⟩, rfl⟩
  have hi := (idx_out T).2.2.1
  refine ⟨T, (flush0_8 T).mpr (by omega), ?_⟩
  show i ∈ ((View.whole main_v10_2).slice (win0_8.rect T)).set
  rw [View.set_slice_whole, Rect.mem_set_unit]
  intro a
  match a with
  | ⟨0, _⟩ =>
    show win0_8.index T 0 * 1 ≤ (i 0).val ∧ (i 0).val < win0_8.index T 0 * 1 + win0_8.xsize (grid0.coords T) 0
    rw [hi.1, hi.2.2.2.1]; omega
  | ⟨1, _⟩ =>
    show win0_8.index T 1 * 1 ≤ (i 1).val ∧ (i 1).val < win0_8.index T 1 * 1 + win0_8.xsize (grid0.coords T) 1
    rw [hi.2.1, hi.2.2.2.2.1]; omega
  | ⟨2, _⟩ =>
    show win0_8.index T 2 * 64 ≤ (i 2).val ∧ (i 2).val < win0_8.index T 2 * 64 + win0_8.xsize (grid0.coords T) 2
    rw [hi.2.2.1, hi.2.2.2.2.2]; omega

/-- Output 8 after the region: the second dense layer's per-half column sums -/
theorem arr8_apply (c : Dev nD) (h : Fin 2) (j : Fin 64) :
    (dat0 (F := Ideal) V c).arrAt 8 cfg0.N (ix3 h 0 j)
      = Spec.halfSum (fun n => Spec.lin (V c (Pipeline.arrRef spec0 1)) (V c (Pipeline.arrRef spec0 4)) (V c (Pipeline.arrRef spec0 5)) n j) h :=
  congrFun ((dat0 (F := Ideal) V c).arrAt_eq_of_cover 8 (G8 V c) (flushed8 V c) cover8) (ix3 h 0 j)

/-! ### Output 9: the second dense layer's per-half column sums of squares -/

/-- The column sums of the second dense layer's squares over grid point n's 4000 rows. -/
def term9 (c : Dev nD) (n : ℕ) (h : n < cfg0.N) (j : Fin 64) : EReal :=
  ∑ r : Fin 4000, k0_pay9 (F := Ideal) (iblk0 V c 1 ⟨n, h⟩) (iblk0 V c 4 ⟨n, h⟩) (iblk0 V c 5 ⟨n, h⟩) (ix2 r j) * k0_pay9 (F := Ideal) (iblk0 V c 1 ⟨n, h⟩) (iblk0 V c 4 ⟨n, h⟩) (iblk0 V c 5 ⟨n, h⟩) (ix2 r j)

/-- At a half's first step the block holds that step's term. -/
theorem first9 (c : Dev nD) (n : ℕ) (h : n < cfg0.N) (h0 : n % 125 = 0) (j : Fin 64) :
    (outsAt0 (F := Ideal) V c n h).2.2.2 (ix3 0 0 j) = term9 V c n h j := by
  rw [outsAt0_A V c ⟨n, h⟩ h0]
  dsimp only
  rw [out_A_9]
  refine (pay3_apply _ _ j).trans ?_
  rw [pay7_apply, zero_add]
  rfl

/-- At every other step the block holds what the step before left plus the step's term. -/
theorem next9 (c : Dev nD) (n : ℕ) (h : n + 1 < cfg0.N) (h0 : ¬(n + 1) % 125 = 0) (j : Fin 64) :
    (outsAt0 (F := Ideal) V c (n + 1) h).2.2.2 (ix3 0 0 j)
      = (outsAt0 (F := Ideal) V c n (Nat.lt_of_succ_lt h)).2.2.2 (ix3 0 0 j) + term9 V c (n + 1) h j := by
  rw [outsAt0_B V c ⟨n + 1, h⟩ h0]
  dsimp only
  rw [out_B_9]
  exact pay3_apply _ _ j

/-- After a half's last step the block holds the half's sum. -/
theorem half9 (c : Dev nD) (n : ℕ) (hn : n < cfg0.N) (q : Fin 2) (hq : n = 125 * q.val + 124) (j : Fin 64) :
    (outsAt0 (F := Ideal) V c n hn).2.2.2 (ix3 0 0 j) = Spec.halfSum (fun m => Spec.lin (V c (Pipeline.arrRef spec0 1)) (V c (Pipeline.arrRef spec0 4)) (V c (Pipeline.arrRef spec0 5)) m j * Spec.lin (V c (Pipeline.arrRef spec0 1)) (V c (Pipeline.arrRef spec0 4)) (V c (Pipeline.arrRef spec0 5)) m j) q := by
  subst hq
  refine (run_sum (fun n h j => (outsAt0 (F := Ideal) V c n h).2.2.2 (ix3 0 0 j)) (term9 V c)
    (fun n h h0 j => first9 V c n h h0 j) (fun n h h0 j => next9 V c n h h0 j) (125 * q.val) (by omega) 124 (by omega) hn j).trans ?_
  have hN : cfg0.N = 250 := N_0
  show ∑ p : Fin 125, term9 V c (125 * q.val + p.val) _ j = ∑ p : Fin 125, ∑ r : Fin 4000, _
  refine Finset.sum_congr rfl fun p _ => Finset.sum_congr rfl fun r _ => ?_
  exact congrArg₂ (· * ·) (dense'_blk V c (⟨125 * q.val + p.val, by have := q.isLt; have := p.isLt; omega⟩ : Fin cfg0.N) r j (Spec.row q p r) rfl) (dense'_blk V c (⟨125 * q.val + p.val, by have := q.isLt; have := p.isLt; omega⟩ : Fin cfg0.N) r j (Spec.row q p r) rfl)

/-- The array the two write-backs of output 9 are blocks of. -/
def G9 (c : Dev nD) : S2x1x64.Idx → EReal := fun i =>
  Spec.halfSum (fun m => Spec.lin (V c (Pipeline.arrRef spec0 1)) (V c (Pipeline.arrRef spec0 4)) (V c (Pipeline.arrRef spec0 5)) m ⟨(i 2).val, (i 2).isLt⟩ * Spec.lin (V c (Pipeline.arrRef spec0 1)) (V c (Pipeline.arrRef spec0 4)) (V c (Pipeline.arrRef spec0 5)) m ⟨(i 2).val, (i 2).isLt⟩) ⟨(i 0).val, (i 0).isLt⟩

set_option maxHeartbeats 800000 in
/-- What a write-back of output 9 writes is its block of that array. -/
theorem flushed9 (c : Dev nD) (t : Fin cfg0.N) (hf : (cfg0.win 9).flush t = true) :
    (dat0 (F := Ideal) V c).flushed 9 t = ((cfg0.win 9).blk t).view.read (Elt Ideal) (G9 V c) := by
  have hN : cfg0.N = 250 := N_0
  have hlt : t.val < 250 := lt_of_lt_of_eq t.isLt hN
  have h124 : t.val % 125 = 124 := (flush0_9 t).mp hf
  have hi := (idx_out t).2.2.2
  funext y
  show (dat0 (F := Ideal) V c).after 9 t ((cfg0.win 9).xinj (grid0.coords t) y) = G9 V c (((cfg0.win 9).blk t).view.emb y)
  rw [after0_9]
  have hy0 : (y 0).val = 0 := by
    have : (y 0).val < win0_9.xsize (grid0.coords t) 0 := (y 0).isLt
    rw [hi.2.2.2.1] at this; omega
  have hy1 : (y 1).val = 0 := by
    have : (y 1).val < win0_9.xsize (grid0.coords t) 1 := (y 1).isLt
    rw [hi.2.2.2.2.1] at this; omega
  have hy2 : (y 2).val < 64 := by
    have : (y 2).val < win0_9.xsize (grid0.coords t) 2 := (y 2).isLt
    rw [hi.2.2.2.2.2] at this; exact this
  have hx : (cfg0.win 9).xinj (grid0.coords t) y = ix3 (0 : Fin 1) (0 : Fin 1) (⟨(y 2).val, hy2⟩ : Fin 64) := funext fun a => Fin.ext (by
    match a with
    | ⟨0, _⟩ => exact hy0
    | ⟨1, _⟩ => exact hy1
    | ⟨2, _⟩ => rfl)
  rw [hx]
  refine (half9 V c t.val t.isLt ⟨t.val / 125, by omega⟩ (by dsimp only; omega) ⟨(y 2).val, hy2⟩).trans ?_
  have e0 : ((((cfg0.win 9).blk t).view.emb y) 0).val = t.val / 125 := by
    show win0_9.index t 0 * 1 + 1 * (y 0).val = t.val / 125
    rw [hi.1, hy0]; omega
  have e2 : ((((cfg0.win 9).blk t).view.emb y) 2).val = (y 2).val := by
    show win0_9.index t 2 * 64 + 1 * (y 2).val = (y 2).val
    rw [hi.2.2.1]; omega
  unfold G9
  exact congrArg₂ (fun (jj : Fin 64) (qq : Fin 2) => Spec.halfSum (fun m => Spec.lin (V c (Pipeline.arrRef spec0 1)) (V c (Pipeline.arrRef spec0 4)) (V c (Pipeline.arrRef spec0 5)) m jj * Spec.lin (V c (Pipeline.arrRef spec0 1)) (V c (Pipeline.arrRef spec0 4)) (V c (Pipeline.arrRef spec0 5)) m jj) qq)
    (Fin.ext e2.symm) (Fin.ext e0.symm)

/-- Every entry of output 9's array lies in the block written back after its half's last step. -/
theorem cover9 (i : S2x1x64.Idx) : ∃ t : Fin cfg0.N, (cfg0.win 9).flush t = true ∧ i ∈ ((cfg0.win 9).blk t).view.set := by
  have hN : cfg0.N = 250 := N_0
  have hi0 : (i 0).val < 2 := (i 0).isLt
  have hi1 : (i 1).val < 1 := (i 1).isLt
  have hi2 : (i 2).val < 64 := (i 2).isLt
  obtain ⟨T, hT⟩ : ∃ T : Fin cfg0.N, T.val = 125 * (i 0).val + 124 := ⟨⟨125 * (i 0).val + 124, by omega⟩, rfl⟩
  have hi := (idx_out T).2.2.2
  refine ⟨T, (flush0_9 T).mpr (by omega), ?_⟩
  show i ∈ ((View.whole main_v10_3).slice (win0_9.rect T)).set
  rw [View.set_slice_whole, Rect.mem_set_unit]
  intro a
  match a with
  | ⟨0, _⟩ =>
    show win0_9.index T 0 * 1 ≤ (i 0).val ∧ (i 0).val < win0_9.index T 0 * 1 + win0_9.xsize (grid0.coords T) 0
    rw [hi.1, hi.2.2.2.1]; omega
  | ⟨1, _⟩ =>
    show win0_9.index T 1 * 1 ≤ (i 1).val ∧ (i 1).val < win0_9.index T 1 * 1 + win0_9.xsize (grid0.coords T) 1
    rw [hi.2.1, hi.2.2.2.2.1]; omega
  | ⟨2, _⟩ =>
    show win0_9.index T 2 * 64 ≤ (i 2).val ∧ (i 2).val < win0_9.index T 2 * 64 + win0_9.xsize (grid0.coords T) 2
    rw [hi.2.2.1, hi.2.2.2.2.2]; omega

/-- Output 9 after the region: the second dense layer's per-half column sums of squares -/
theorem arr9_apply (c : Dev nD) (h : Fin 2) (j : Fin 64) :
    (dat0 (F := Ideal) V c).arrAt 9 cfg0.N (ix3 h 0 j)
      = Spec.halfSum (fun n => Spec.lin (V c (Pipeline.arrRef spec0 1)) (V c (Pipeline.arrRef spec0 4)) (V c (Pipeline.arrRef spec0 5)) n j * Spec.lin (V c (Pipeline.arrRef spec0 1)) (V c (Pipeline.arrRef spec0 4)) (V c (Pipeline.arrRef spec0 5)) n j) h :=
  congrFun ((dat0 (F := Ideal) V c).arrAt_eq_of_cover 9 (G9 V c) (flushed9 V c) cover9) (ix3 h 0 j)

end Cert.KernelIdeal.Region0

end
-- ==== Proof.Region1.lean ====
/-
  What the second pass of the gated network leaves in its three output arrays.

  The million rows are visited in 250 blocks of 4000 consecutive rows, 125 blocks to a half.  At each block the pass forms,
  for every row, the gate's pre-activation  Σⱼ max(u[r,j] + v[r,j], 0) · w[j] + b  of the two dense layers after their
  per-channel scale and shift, writes that column of 4000 values out, and adds its sum and its sum of squares to two running
  totals that restart at the first block of a half and are written out after the last.  So the column array ends holding
  the pre-activation of every row, and the two per-half arrays end holding, per half, the sum of the pre-activation and the
  sum of its square over the half's 125 · 4000 rows.

  The proof reads each block's stores back as values, evaluates them entry by entry on the extended reals (a product into a
  zero accumulator is a sum over the 128 features, a reduction from zero is a sum over its axis, a broadcast row reads its
  channel's entry), follows the running totals by induction on the block, and identifies row r of block t with row
  4000 · t + r of the arrays.
-/
import proofs.«119614_j3375844294910_2_alg».proof.Proof.Gen.KernelIdeal.Frame
import proofs.«119614_j3375844294910_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-! ## What each case's stores leave, as the payloads of the blocks -/

section Pieces
variable {F : FTy → Type} [FloatOps F]
variable (c : Dev nD) (i : grid1.Coords) (a2 : Memref sig .tc .vmem S4000x128 .f32) (h2 : a2.IsWhole) (a3 : Memref sig .tc .vmem S4000x128 .f32) (h3 : a3.IsWhole) (a4 : Memref sig .tc .vmem S128x64 .f32) (h4 : a4.IsWhole) (a5 : Memref sig .tc .vmem S1x64 .f32) (h5 : a5.IsWhole) (a6 : Memref sig .tc .vmem S128x64 .f32) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x64 .f32) (h11 : a11.IsWhole) (a12 : Memref sig .tc .vmem S1x64 .f32) (h12 : a12.IsWhole) (a13 : Memref sig .tc .vmem S1x1 .f32) (h13 : a13.IsWhole) (a14 : Memref sig .tc .vmem S1x1x1 .f32) (h14 : a14.IsWhole) (a15 : Memref sig .tc .vmem S1x1x1 .f32) (h15 : a15.IsWhole) (a16 : Memref sig .tc .vmem S4000x1 .f32) (h16 : a16.IsWhole)
variable (x0 : Vec F S4000x128 .f32) (x1 : Vec F S4000x128 .f32) (x2 : Vec F S128x64 .f32) (x3 : Vec F S1x64 .f32) (x4 : Vec F S128x64 .f32) (x5 : Vec F S1x64 .f32) (x6 : Vec F S1x64 .f32) (x7 : Vec F S1x64 .f32) (x8 : Vec F S1x64 .f32) (x9 : Vec F S1x64 .f32) (x10 : Vec F S1x64 .f32) (x11 : Vec F S1x1 .f32) (xo12 xo13 : Vec F S1x1x1 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- Away from the first step of a half, the row block the body stores is the pre-activation of the two dense layers. -/
theorem outB14 (hc : ¬cond1_0 i) : out1_B_14 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 xo12 xo13 = k1_pay1 (k1_pay6 x0 x2 x3 x6 x7) (k1_pay7 x1 x4 x5 x8 x9) x10 x11 := by
  unfold out1_B_14
  rw [View.read_writes_eq_canon _ _ _ (cover1_B_14 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 xo12 xo13)]
  unfold kernelRun1_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S4000x128) hz2, View.ld_unit_zero (S := S128x64) hz2, View.ld_unit_zero (S := S1x64) hz2, View.ld_unit_zero (S := S1x1) hz2, View.ld_unit_zero (S := S4000x1) hz2, View.ld_unit_zero (S := S1x1x1) hz3, shapeCast_self]

/-- Away from the first step, the running sum becomes what it was plus the block's column sum. -/
theorem outB12 (hc : ¬cond1_0 i) : out1_B_12 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 xo12 xo13 = k1_pay2 (k1_pay6 x0 x2 x3 x6 x7) (k1_pay7 x1 x4 x5 x8 x9) x10 x11 xo12 := by
  unfold out1_B_12
  rw [View.read_writes_eq_canon _ _ _ (cover1_B_12 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 xo12 xo13)]
  unfold kernelRun1_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S4000x128) hz2, View.ld_unit_zero (S := S128x64) hz2, View.ld_unit_zero (S := S1x64) hz2, View.ld_unit_zero (S := S1x1) hz2, View.ld_unit_zero (S := S4000x1) hz2, View.ld_unit_zero (S := S1x1x1) hz3, shapeCast_self]

/-- Away from the first step, the running sum of squares becomes what it was plus the block's sum of squares. -/
theorem outB13 (hc : ¬cond1_0 i) : out1_B_13 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 xo12 xo13 = k1_pay3 (k1_pay6 x0 x2 x3 x6 x7) (k1_pay7 x1 x4 x5 x8 x9) x10 x11 xo13 := by
  unfold out1_B_13
  rw [View.read_writes_eq_canon _ _ _ (cover1_B_13 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 xo12 xo13)]
  unfold kernelRun1_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S4000x128) hz2, View.ld_unit_zero (S := S128x64) hz2, View.ld_unit_zero (S := S1x64) hz2, View.ld_unit_zero (S := S1x1) hz2, View.ld_unit_zero (S := S4000x1) hz2, View.ld_unit_zero (S := S1x1x1) hz3, shapeCast_self]

/-- At the first step of a half the stored row block is the same pre-activation. -/
theorem outA14 (hc : cond1_0 i) : out1_A_14 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 = k1_pay1 (k1_pay6 x0 x2 x3 x6 x7) (k1_pay7 x1 x4 x5 x8 x9) x10 x11 := by
  unfold out1_A_14
  rw [View.read_writes_eq_canon _ _ _ (cover1_A_14 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun1_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S4000x128) hz2, View.ld_unit_zero (S := S128x64) hz2, View.ld_unit_zero (S := S1x64) hz2, View.ld_unit_zero (S := S1x1) hz2, View.ld_unit_zero (S := S4000x1) hz2, View.ld_unit_zero (S := S1x1x1) hz3, shapeCast_self]

/-- At the first step of a half the running sum restarts: the zero block plus the block's column sum. -/
theorem outA12 (hc : cond1_0 i) : out1_A_12 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 = k1_pay2 (k1_pay6 x0 x2 x3 x6 x7) (k1_pay7 x1 x4 x5 x8 x9) x10 x11 k1_pay4 := by
  unfold out1_A_12
  rw [View.read_writes_eq_canon _ _ _ (cover1_A_12 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S4000x128) hz2, View.ld_unit_zero (S := S128x64) hz2, View.ld_unit_zero (S := S1x64) hz2, View.ld_unit_zero (S := S1x1) hz2, View.ld_unit_zero (S := S4000x1) hz2, View.ld_unit_zero (S := S1x1x1) hz3, shapeCast_self]

/-- At the first step of a half the running sum of squares restarts likewise. -/
theorem outA13 (hc : cond1_0 i) : out1_A_13 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 = k1_pay3 (k1_pay6 x0 x2 x3 x6 x7) (k1_pay7 x1 x4 x5 x8 x9) x10 x11 k1_pay5 := by
  unfold out1_A_13
  rw [View.read_writes_eq_canon _ _ _ (cover1_A_13 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S4000x128) hz2, View.ld_unit_zero (S := S128x64) hz2, View.ld_unit_zero (S := S1x64) hz2, View.ld_unit_zero (S := S1x1) hz2, View.ld_unit_zero (S := S4000x1) hz2, View.ld_unit_zero (S := S1x1x1) hz3, shapeCast_self]

end Pieces

/-! ## The payloads at an index, on the extended reals -/

section Arith

/-- The dimension numbers of the two dense layers' products: rows by channels, contracting the 128 features. -/
abbrev D1 := dot_S4000x128_S128x64_S4000x64_1_0_0_1_n_n

/-- A block's product into a zero accumulator, at row r and channel j: the sum over the 128 features. -/
theorem lhs_row (i : S4000x64.Idx) (q : D1.contr.Idx) : (D1.lhsIdx i q 0).val = (i 0).val := by
  unfold DotDims.lhsIdx
  rw [dif_neg (show ¬(0 : Fin S4000x128.rank) ∈ D1.lhsBatch by decide), dif_pos (show (0 : Fin S4000x128.rank) ∈ D1.lhsNonContracting by decide)]
  rfl
theorem lhs_feat (i : S4000x64.Idx) (q : D1.contr.Idx) : (D1.lhsIdx i q 1).val = (q ⟨0, by decide⟩).val :=
  D1.lhsIdx_val_of_single rfl i q
theorem rhs_feat (i : S4000x64.Idx) (q : D1.contr.Idx) : (D1.rhsIdx i q 0).val = (q ⟨0, by decide⟩).val :=
  D1.rhsIdx_val_of_single rfl i q
theorem rhs_chan (i : S4000x64.Idx) (q : D1.contr.Idx) : (D1.rhsIdx i q 1).val = (i 1).val := by
  unfold DotDims.rhsIdx
  rw [dif_neg (show ¬(1 : Fin S128x64.rank) ∈ D1.rhsBatch by decide), dif_pos (show (1 : Fin S128x64.rank) ∈ D1.rhsNonContracting by decide)]
  rfl

theorem matmul_at (x : FVec Ideal S4000x128 .f32) (w : FVec Ideal S128x64 .f32) (r : Fin 4000) (j : Fin 64) :
    matmul D1 none x w (constant (F := Ideal) S4000x64 .f32 0x00000000#32) (ix2 r j) = ∑ k : Fin 128, x (ix2 r k) * w (ix2 k j) := by
  refine (Ideal.matmul_constant_zero_apply D1 none x w (ix2 r j)).trans ?_
  rw [← Equiv.sum_comp (contrEquiv1 D1 128 rfl rfl).symm]
  refine Finset.sum_congr rfl fun k _ => ?_
  have hk := contrEquiv1_symm_val D1 128 rfl rfl k
  have el : D1.lhsIdx (ix2 r j) ((contrEquiv1 D1 128 rfl rfl).symm k) = ix2 r k := funext fun a => Fin.ext (by
    match a with
    | ⟨0, _⟩ => exact lhs_row _ _
    | ⟨1, _⟩ => exact (lhs_feat _ _).trans hk)
  have er : D1.rhsIdx (ix2 r j) ((contrEquiv1 D1 128 rfl rfl).symm k) = ix2 k j := funext fun a => Fin.ext (by
    match a with
    | ⟨0, _⟩ => exact (rhs_feat _ _).trans hk
    | ⟨1, _⟩ => exact rhs_chan _ _)
  rw [el, er]

/-- A per-channel row laid over the 4000 rows reads its channel's entry. -/
theorem row_at (v : FVec Ideal S1x64 .f32) (r : Fin 4000) (j : Fin 64) :
    broadcastTo S4000x64 (shapeCast S1x64 v shapeCasts_S1x64_S1x64) broadcasts_S1x64_S4000x64 (ix2 r j) = v (ix2 0 j) := by
  rw [shapeCast_self]; exact broadcastTo_1b_ab_apply v _ r j

/-- The one bias entry laid over the 4000 rows of a column. -/
theorem bias_at (v : FVec Ideal S1x1 .f32) (r : Fin 4000) :
    broadcastTo S4000x1 (shapeCast S1x1 v shapeCasts_S1x1_S1x1) broadcasts_S1x1_S4000x1 (ix2 r 0) = v (ix2 0 0) := by
  rw [shapeCast_self]; exact broadcastTo_1b_ab_apply v _ r 0

/-- A vector of 4000 entries cast to a column keeps entry r at (r, 0). -/
theorem col_cast_at (v : FVec Ideal S4000 .f32) (r : Fin 4000) :
    shapeCast S4000x1 v shapeCasts_S4000_S4000x1 (ix2 r 0) = v (ix1 r) :=
  shapeCast_apply v _ _ _ (by
    rw [Shape.rowMajor_val_one, Shape.rowMajor_val_two]
    show r.val = r.val * 1 + 0
    omega)

/-- The sum over the 64 channels of a row. -/
theorem lane_sum_at (v : FVec Ideal S4000x64 .f32) (r : Fin 4000) :
    multiReduction (F := Ideal) .add [1] S4000 v 0x00000000#32 reduces_S4000x64_S4000 (.inl rfl) rfl (ix1 r) = ∑ j : Fin 64, v (ix2 r j) := by
  refine (Ideal.multiReduction_add_single v 0x00000000#32 reduces_S4000x64_S4000 (.inl rfl) rfl (ix1 r)).trans ?_
  refine Finset.sum_congr rfl fun k _ => congrArg v ?_
  funext c; apply Fin.ext; fin_cases c <;> rfl

/-- The sum of a column over its 4000 rows. -/
theorem col_sum_at (v : FVec Ideal S4000x1 .f32) :
    multiReduction (F := Ideal) .add [0] S1 v 0x00000000#32 reduces_S4000x1_S1 (.inl rfl) rfl (ix1 0) = ∑ r : Fin 4000, v (ix2 r 0) := by
  refine (Ideal.multiReduction_add_single v 0x00000000#32 reduces_S4000x1_S1 (.inl rfl) rfl (ix1 0)).trans ?_
  refine Finset.sum_congr rfl fun k _ => congrArg v ?_
  funext c; apply Fin.ext; fin_cases c <;> rfl

/-- One dense layer after its per-channel scale and shift, at row r and channel j. -/
theorem pay6_at (x : Vec Ideal S4000x128 .f32) (w : Vec Ideal S128x64 .f32) (b s t : Vec Ideal S1x64 .f32) (r : Fin 4000) (j : Fin 64) :
    k1_pay6 x w b s t (ix2 r j) = ((∑ k : Fin 128, x (ix2 r k) * w (ix2 k j)) + b (ix2 0 j)) * s (ix2 0 j) + t (ix2 0 j) := by
  unfold k1_pay6
  (try dsimp only)
  rw [addf_apply, mulf_apply, addf_apply, matmul_at, row_at, row_at, row_at]

theorem pay7_at (x : Vec Ideal S4000x128 .f32) (w : Vec Ideal S128x64 .f32) (b s t : Vec Ideal S1x64 .f32) (r : Fin 4000) (j : Fin 64) :
    k1_pay7 x w b s t (ix2 r j) = ((∑ k : Fin 128, x (ix2 r k) * w (ix2 k j)) + b (ix2 0 j)) * s (ix2 0 j) + t (ix2 0 j) := by
  unfold k1_pay7
  (try dsimp only)
  rw [addf_apply, mulf_apply, addf_apply, matmul_at, row_at, row_at, row_at]

/-- The gate's pre-activation at row r of a block, from the two scaled layers u and v. -/
theorem pay1_at (u v : FVec Ideal S4000x64 .f32) (w : Vec Ideal S1x64 .f32) (b : Vec Ideal S1x1 .f32) (r : Fin 4000) :
    k1_pay1 u v w b (ix2 r 0) = (∑ j : Fin 64, max (u (ix2 r j) + v (ix2 r j)) 0 * w (ix2 0 j)) + b (ix2 0 0) := by
  unfold k1_pay1
  dsimp only
  rw [addf_apply, col_cast_at, lane_sum_at, bias_at]
  refine congrArg (· + b (ix2 0 0)) (Finset.sum_congr rfl fun j _ => ?_)
  rw [mulf_apply, maximumf_apply, addf_apply, row_at, broadcast_apply]
  exact congrArg (fun z => max (u (ix2 r j) + v (ix2 r j)) z * w (ix2 0 j)) Ideal.ofBits_zero_f32

/-- The leading unit axis of the running sums put on and taken off. -/
theorem cast3_at (v : FVec Ideal S1x1 .f32) : shapeCast S1x1x1 v shapeCasts_S1x1_S1x1x1 (ix3 0 0 0) = v (ix2 0 0) :=
  shapeCast_ab_1ab_apply v _ 0 0 0
theorem cast2_at (v : FVec Ideal S1x1x1 .f32) : shapeCast S1x1 v shapeCasts_S1x1x1_S1x1 (ix2 0 0) = v (ix3 0 0 0) :=
  shapeCast_1ab_ab_apply v _ 0 0
theorem cast1_at (v : FVec Ideal S1 .f32) : shapeCast S1x1 v shapeCasts_S1_S1x1 (ix2 0 0) = v (ix1 0) :=
  shapeCast_a_1a_apply v _ 0 0

/-- The running sum after a block: what it was plus the block's pre-activations over the 4000 rows. -/
theorem pay2_at (u v : FVec Ideal S4000x64 .f32) (w : Vec Ideal S1x64 .f32) (b : Vec Ideal S1x1 .f32) (acc : Vec Ideal S1x1x1 .f32) :
    k1_pay2 u v w b acc (ix3 0 0 0) = acc (ix3 0 0 0) + ∑ r : Fin 4000, k1_pay1 u v w b (ix2 r 0) := by
  unfold k1_pay2
  (try dsimp only)
  rw [cast3_at, addf_apply, cast2_at, cast1_at, col_sum_at]

/-- The running sum of squares after a block. -/
theorem pay3_at (u v : FVec Ideal S4000x64 .f32) (w : Vec Ideal S1x64 .f32) (b : Vec Ideal S1x1 .f32) (acc : Vec Ideal S1x1x1 .f32) :
    k1_pay3 u v w b acc (ix3 0 0 0) = acc (ix3 0 0 0) + ∑ r : Fin 4000, k1_pay1 u v w b (ix2 r 0) * k1_pay1 u v w b (ix2 r 0) := by
  unfold k1_pay3
  (try dsimp only)
  rw [cast3_at, addf_apply, cast2_at, cast1_at, col_sum_at]
  rfl

/-- The block a half's first step stores before adding: zero. -/
theorem pay4_at : (k1_pay4 (F := Ideal)) (ix3 0 0 0) = 0 := by
  unfold k1_pay4
  (try dsimp only)
  rw [cast3_at, broadcast_apply]
  exact Ideal.ofBits_zero_f32
theorem pay5_at : (k1_pay5 (F := Ideal)) (ix3 0 0 0) = 0 := by
  unfold k1_pay5
  (try dsimp only)
  rw [cast3_at, broadcast_apply]
  exact Ideal.ofBits_zero_f32

end Arith

/-! ## The blocks as entries of the arrays the region finds -/

section Blocks

/-- The gate's pre-activation at row r of a block, from the block's two row blocks and the ten whole parameter arrays. -/
def preBlk (x0 : Vec Ideal S4000x128 .f32) (x1 : Vec Ideal S4000x128 .f32) (x2 : Vec Ideal S128x64 .f32) (x3 : Vec Ideal S1x64 .f32) (x4 : Vec Ideal S128x64 .f32) (x5 : Vec Ideal S1x64 .f32) (x6 : Vec Ideal S1x64 .f32) (x7 : Vec Ideal S1x64 .f32) (x8 : Vec Ideal S1x64 .f32) (x9 : Vec Ideal S1x64 .f32) (x10 : Vec Ideal S1x64 .f32) (x11 : Vec Ideal S1x1 .f32) (r : Fin 4000) : EReal :=
  (∑ j : Fin 64, max ((((∑ k : Fin 128, x0 (ix2 r k) * x2 (ix2 k j)) + x3 (ix2 0 j)) * x6 (ix2 0 j) + x7 (ix2 0 j))
      + (((∑ k : Fin 128, x1 (ix2 r k) * x4 (ix2 k j)) + x5 (ix2 0 j)) * x8 (ix2 0 j) + x9 (ix2 0 j))) 0 * x10 (ix2 0 j)) + x11 (ix2 0 0)

/-- The stored column at row r is that pre-activation. -/
theorem pay1_blk (x0 : Vec Ideal S4000x128 .f32) (x1 : Vec Ideal S4000x128 .f32) (x2 : Vec Ideal S128x64 .f32) (x3 : Vec Ideal S1x64 .f32) (x4 : Vec Ideal S128x64 .f32) (x5 : Vec Ideal S1x64 .f32) (x6 : Vec Ideal S1x64 .f32) (x7 : Vec Ideal S1x64 .f32) (x8 : Vec Ideal S1x64 .f32) (x9 : Vec Ideal S1x64 .f32) (x10 : Vec Ideal S1x64 .f32) (x11 : Vec Ideal S1x1 .f32) (r : Fin 4000) :
    k1_pay1 (k1_pay6 x0 x2 x3 x6 x7) (k1_pay7 x1 x4 x5 x8 x9) x10 x11 (ix2 r 0) = preBlk x0 x1 x2 x3 x4 x5 x6 x7 x8 x9 x10 x11 r := by
  rw [pay1_at]; unfold preBlk; simp only [pay6_at, pay7_at]

variable (V : (c : Dev nD) → (b : Ref sig .tc) → Buf (Elt Ideal) ((c : Thread nD τ).loc b))

/-- The pre-activation of row n, from the arrays as the region finds them. -/
def pre (c : Dev nD) (n : Fin 1000000) : EReal :=
  Spec.gatePre (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) n

theorem idx0 : ∀ t : Fin cfg1.N, win1_0.index t 0 = t.val ∧ win1_0.index t 1 = 0 :=
  (by decide +kernel : ∀ t : Fin grid1.N, win1_0.index t 0 = t.val ∧ win1_0.index t 1 = 0)
/-- Row r of the block of point t is row 4000·t + r of the array. -/
theorem iblk0_at (c : Dev nD) (t : Fin cfg1.N) (r : Fin 4000) (k : Fin 128) (n : Fin 1000000) (hn : n.val = t.val * 4000 + r.val) :
    (iblk1 V c 0 t : Vec Ideal S4000x128 .f32) (ix2 r k) = (V c (Pipeline.arrRef spec1 0) : S1000000x128.Idx → EReal) (ix2 n k) := by
  have hi := idx0 t
  unfold iblk1
  rw [View.read_apply]
  show V c (Pipeline.arrRef spec1 0) _ = V c (Pipeline.arrRef spec1 0) _
  refine congrArg _ (funext fun a => Fin.ext ?_)
  match a with
  | ⟨0, _⟩ => show win1_0.index t 0 * 4000 + 1 * r.val = n.val; rw [hi.1, hn]; omega
  | ⟨1, _⟩ => show win1_0.index t 1 * 128 + 1 * k.val = k.val; rw [hi.2]; omega

theorem idx1 : ∀ t : Fin cfg1.N, win1_1.index t 0 = t.val ∧ win1_1.index t 1 = 0 :=
  (by decide +kernel : ∀ t : Fin grid1.N, win1_1.index t 0 = t.val ∧ win1_1.index t 1 = 0)
/-- Row r of the block of point t is row 4000·t + r of the array. -/
theorem iblk1_at (c : Dev nD) (t : Fin cfg1.N) (r : Fin 4000) (k : Fin 128) (n : Fin 1000000) (hn : n.val = t.val * 4000 + r.val) :
    (iblk1 V c 1 t : Vec Ideal S4000x128 .f32) (ix2 r k) = (V c (Pipeline.arrRef spec1 1) : S1000000x128.Idx → EReal) (ix2 n k) := by
  have hi := idx1 t
  unfold iblk1
  rw [View.read_apply]
  show V c (Pipeline.arrRef spec1 1) _ = V c (Pipeline.arrRef spec1 1) _
  refine congrArg _ (funext fun a => Fin.ext ?_)
  match a with
  | ⟨0, _⟩ => show win1_1.index t 0 * 4000 + 1 * r.val = n.val; rw [hi.1, hn]; omega
  | ⟨1, _⟩ => show win1_1.index t 1 * 128 + 1 * k.val = k.val; rw [hi.2]; omega

theorem idx2 : ∀ t : Fin cfg1.N, win1_2.index t 0 = 0 ∧ win1_2.index t 1 = 0 :=
  (by decide +kernel : ∀ t : Fin grid1.N, win1_2.index t 0 = 0 ∧ win1_2.index t 1 = 0)
/-- The one block of this input is the whole array. -/
theorem iblk2_at (c : Dev nD) (t : Fin cfg1.N) (a : Fin 128) (b : Fin 64) :
    (iblk1 V c 2 t : Vec Ideal S128x64 .f32) (ix2 a b) = (V c (Pipeline.arrRef spec1 2) : S128x64.Idx → EReal) (ix2 a b) := by
  have hi := idx2 t
  unfold iblk1
  rw [View.read_apply]
  show V c (Pipeline.arrRef spec1 2) _ = V c (Pipeline.arrRef spec1 2) _
  refine congrArg _ (funext fun d => Fin.ext ?_)
  match d with
  | ⟨0, _⟩ => show win1_2.index t 0 * 128 + 1 * a.val = a.val; rw [hi.1]; omega
  | ⟨1, _⟩ => show win1_2.index t 1 * 64 + 1 * b.val = b.val; rw [hi.2]; omega

theorem idx3 : ∀ t : Fin cfg1.N, win1_3.index t 0 = 0 ∧ win1_3.index t 1 = 0 :=
  (by decide +kernel : ∀ t : Fin grid1.N, win1_3.index t 0 = 0 ∧ win1_3.index t 1 = 0)
/-- The one block of this input is the whole array. -/
theorem iblk3_at (c : Dev nD) (t : Fin cfg1.N) (a : Fin 1) (b : Fin 64) :
    (iblk1 V c 3 t : Vec Ideal S1x64 .f32) (ix2 a b) = (V c (Pipeline.arrRef spec1 3) : S1x64.Idx → EReal) (ix2 a b) := by
  have hi := idx3 t
  unfold iblk1
  rw [View.read_apply]
  show V c (Pipeline.arrRef spec1 3) _ = V c (Pipeline.arrRef spec1 3) _
  refine congrArg _ (funext fun d => Fin.ext ?_)
  match d with
  | ⟨0, _⟩ => show win1_3.index t 0 * 1 + 1 * a.val = a.val; rw [hi.1]; omega
  | ⟨1, _⟩ => show win1_3.index t 1 * 64 + 1 * b.val = b.val; rw [hi.2]; omega

theorem idx4 : ∀ t : Fin cfg1.N, win1_4.index t 0 = 0 ∧ win1_4.index t 1 = 0 :=
  (by decide +kernel : ∀ t : Fin grid1.N, win1_4.index t 0 = 0 ∧ win1_4.index t 1 = 0)
/-- The one block of this input is the whole array. -/
theorem iblk4_at (c : Dev nD) (t : Fin cfg1.N) (a : Fin 128) (b : Fin 64) :
    (iblk1 V c 4 t : Vec Ideal S128x64 .f32) (ix2 a b) = (V c (Pipeline.arrRef spec1 4) : S128x64.Idx → EReal) (ix2 a b) := by
  have hi := idx4 t
  unfold iblk1
  rw [View.read_apply]
  show V c (Pipeline.arrRef spec1 4) _ = V c (Pipeline.arrRef spec1 4) _
  refine congrArg _ (funext fun d => Fin.ext ?_)
  match d with
  | ⟨0, _⟩ => show win1_4.index t 0 * 128 + 1 * a.val = a.val; rw [hi.1]; omega
  | ⟨1, _⟩ => show win1_4.index t 1 * 64 + 1 * b.val = b.val; rw [hi.2]; omega

theorem idx5 : ∀ t : Fin cfg1.N, win1_5.index t 0 = 0 ∧ win1_5.index t 1 = 0 :=
  (by decide +kernel : ∀ t : Fin grid1.N, win1_5.index t 0 = 0 ∧ win1_5.index t 1 = 0)
/-- The one block of this input is the whole array. -/
theorem iblk5_at (c : Dev nD) (t : Fin cfg1.N) (a : Fin 1) (b : Fin 64) :
    (iblk1 V c 5 t : Vec Ideal S1x64 .f32) (ix2 a b) = (V c (Pipeline.arrRef spec1 5) : S1x64.Idx → EReal) (ix2 a b) := by
  have hi := idx5 t
  unfold iblk1
  rw [View.read_apply]
  show V c (Pipeline.arrRef spec1 5) _ = V c (Pipeline.arrRef spec1 5) _
  refine congrArg _ (funext fun d => Fin.ext ?_)
  match d with
  | ⟨0, _⟩ => show win1_5.index t 0 * 1 + 1 * a.val = a.val; rw [hi.1]; omega
  | ⟨1, _⟩ => show win1_5.index t 1 * 64 + 1 * b.val = b.val; rw [hi.2]; omega

theorem idx6 : ∀ t : Fin cfg1.N, win1_6.index t 0 = 0 ∧ win1_6.index t 1 = 0 :=
  (by decide +kernel : ∀ t : Fin grid1.N, win1_6.index t 0 = 0 ∧ win1_6.index t 1 = 0)
/-- The one block of this input is the whole array. -/
theorem iblk6_at (c : Dev nD) (t : Fin cfg1.N) (a : Fin 1) (b : Fin 64) :
    (iblk1 V c 6 t : Vec Ideal S1x64 .f32) (ix2 a b) = (V c (Pipeline.arrRef spec1 6) : S1x64.Idx → EReal) (ix2 a b) := by
  have hi := idx6 t
  unfold iblk1
  rw [View.read_apply]
  show V c (Pipeline.arrRef spec1 6) _ = V c (Pipeline.arrRef spec1 6) _
  refine congrArg _ (funext fun d => Fin.ext ?_)
  match d with
  | ⟨0, _⟩ => show win1_6.index t 0 * 1 + 1 * a.val = a.val; rw [hi.1]; omega
  | ⟨1, _⟩ => show win1_6.index t 1 * 64 + 1 * b.val = b.val; rw [hi.2]; omega

theorem idx7 : ∀ t : Fin cfg1.N, win1_7.index t 0 = 0 ∧ win1_7.index t 1 = 0 :=
  (by decide +kernel : ∀ t : Fin grid1.N, win1_7.index t 0 = 0 ∧ win1_7.index t 1 = 0)
/-- The one block of this input is the whole array. -/
theorem iblk7_at (c : Dev nD) (t : Fin cfg1.N) (a : Fin 1) (b : Fin 64) :
    (iblk1 V c 7 t : Vec Ideal S1x64 .f32) (ix2 a b) = (V c (Pipeline.arrRef spec1 7) : S1x64.Idx → EReal) (ix2 a b) := by
  have hi := idx7 t
  unfold iblk1
  rw [View.read_apply]
  show V c (Pipeline.arrRef spec1 7) _ = V c (Pipeline.arrRef spec1 7) _
  refine congrArg _ (funext fun d => Fin.ext ?_)
  match d with
  | ⟨0, _⟩ => show win1_7.index t 0 * 1 + 1 * a.val = a.val; rw [hi.1]; omega
  | ⟨1, _⟩ => show win1_7.index t 1 * 64 + 1 * b.val = b.val; rw [hi.2]; omega

theorem idx8 : ∀ t : Fin cfg1.N, win1_8.index t 0 = 0 ∧ win1_8.index t 1 = 0 :=
  (by decide +kernel : ∀ t : Fin grid1.N, win1_8.index t 0 = 0 ∧ win1_8.index t 1 = 0)
/-- The one block of this input is the whole array. -/
theorem iblk8_at (c : Dev nD) (t : Fin cfg1.N) (a : Fin 1) (b : Fin 64) :
    (iblk1 V c 8 t : Vec Ideal S1x64 .f32) (ix2 a b) = (V c (Pipeline.arrRef spec1 8) : S1x64.Idx → EReal) (ix2 a b) := by
  have hi := idx8 t
  unfold iblk1
  rw [View.read_apply]
  show V c (Pipeline.arrRef spec1 8) _ = V c (Pipeline.arrRef spec1 8) _
  refine congrArg _ (funext fun d => Fin.ext ?_)
  match d with
  | ⟨0, _⟩ => show win1_8.index t 0 * 1 + 1 * a.val = a.val; rw [hi.1]; omega
  | ⟨1, _⟩ => show win1_8.index t 1 * 64 + 1 * b.val = b.val; rw [hi.2]; omega

theorem idx9 : ∀ t : Fin cfg1.N, win1_9.index t 0 = 0 ∧ win1_9.index t 1 = 0 :=
  (by decide +kernel : ∀ t : Fin grid1.N, win1_9.index t 0 = 0 ∧ win1_9.index t 1 = 0)
/-- The one block of this input is the whole array. -/
theorem iblk9_at (c : Dev nD) (t : Fin cfg1.N) (a : Fin 1) (b : Fin 64) :
    (iblk1 V c 9 t : Vec Ideal S1x64 .f32) (ix2 a b) = (V c (Pipeline.arrRef spec1 9) : S1x64.Idx → EReal) (ix2 a b) := by
  have hi := idx9 t
  unfold iblk1
  rw [View.read_apply]
  show V c (Pipeline.arrRef spec1 9) _ = V c (Pipeline.arrRef spec1 9) _
  refine congrArg _ (funext fun d => Fin.ext ?_)
  match d with
  | ⟨0, _⟩ => show win1_9.index t 0 * 1 + 1 * a.val = a.val; rw [hi.1]; omega
  | ⟨1, _⟩ => show win1_9.index t 1 * 64 + 1 * b.val = b.val; rw [hi.2]; omega

theorem idx10 : ∀ t : Fin cfg1.N, win1_10.index t 0 = 0 ∧ win1_10.index t 1 = 0 :=
  (by decide +kernel : ∀ t : Fin grid1.N, win1_10.index t 0 = 0 ∧ win1_10.index t 1 = 0)
/-- The one block of this input is the whole array. -/
theorem iblk10_at (c : Dev nD) (t : Fin cfg1.N) (a : Fin 1) (b : Fin 64) :
    (iblk1 V c 10 t : Vec Ideal S1x64 .f32) (ix2 a b) = (V c (Pipeline.arrRef spec1 10) : S1x64.Idx → EReal) (ix2 a b) := by
  have hi := idx10 t
  unfold iblk1
  rw [View.read_apply]
  show V c (Pipeline.arrRef spec1 10) _ = V c (Pipeline.arrRef spec1 10) _
  refine congrArg _ (funext fun d => Fin.ext ?_)
  match d with
  | ⟨0, _⟩ => show win1_10.index t 0 * 1 + 1 * a.val = a.val; rw [hi.1]; omega
  | ⟨1, _⟩ => show win1_10.index t 1 * 64 + 1 * b.val = b.val; rw [hi.2]; omega

theorem idx11 : ∀ t : Fin cfg1.N, win1_11.index t 0 = 0 ∧ win1_11.index t 1 = 0 :=
  (by decide +kernel : ∀ t : Fin grid1.N, win1_11.index t 0 = 0 ∧ win1_11.index t 1 = 0)
/-- The one block of this input is the whole array. -/
theorem iblk11_at (c : Dev nD) (t : Fin cfg1.N) (a : Fin 1) (b : Fin 1) :
    (iblk1 V c 11 t : Vec Ideal S1x1 .f32) (ix2 a b) = (V c (Pipeline.arrRef spec1 11) : S1x1.Idx → EReal) (ix2 a b) := by
  have hi := idx11 t
  unfold iblk1
  rw [View.read_apply]
  show V c (Pipeline.arrRef spec1 11) _ = V c (Pipeline.arrRef spec1 11) _
  refine congrArg _ (funext fun d => Fin.ext ?_)
  match d with
  | ⟨0, _⟩ => show win1_11.index t 0 * 1 + 1 * a.val = a.val; rw [hi.1]; omega
  | ⟨1, _⟩ => show win1_11.index t 1 * 1 + 1 * b.val = b.val; rw [hi.2]; omega

/-- Row r of the block of point t has the pre-activation of row 4000·t + r. -/
theorem blk_pre (c : Dev nD) (t : Fin cfg1.N) (r : Fin 4000) (n : Fin 1000000) (hn : n.val = t.val * 4000 + r.val) :
    preBlk (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) r = pre V c n := by
  unfold preBlk pre Spec.gatePre Spec.lin
  simp only [fun k => iblk0_at V c t r k n hn, fun k => iblk1_at V c t r k n hn, iblk2_at, iblk3_at, iblk4_at, iblk5_at, iblk6_at, iblk7_at,
    iblk8_at, iblk9_at, iblk10_at, iblk11_at]

end Blocks

/-! ## The three outputs after each point -/

section Run

/-- At the first step of a half: the sums restart at the block's own, the column is the block's pre-activations. -/
theorem caseA (c : Dev nD) (i : grid1.Coords) (a2 : Memref sig .tc .vmem S4000x128 .f32) (h2 : a2.IsWhole) (a3 : Memref sig .tc .vmem S4000x128 .f32) (h3 : a3.IsWhole) (a4 : Memref sig .tc .vmem S128x64 .f32) (h4 : a4.IsWhole) (a5 : Memref sig .tc .vmem S1x64 .f32) (h5 : a5.IsWhole) (a6 : Memref sig .tc .vmem S128x64 .f32) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x64 .f32) (h11 : a11.IsWhole) (a12 : Memref sig .tc .vmem S1x64 .f32) (h12 : a12.IsWhole) (a13 : Memref sig .tc .vmem S1x1 .f32) (h13 : a13.IsWhole) (a14 : Memref sig .tc .vmem S1x1x1 .f32) (h14 : a14.IsWhole) (a15 : Memref sig .tc .vmem S1x1x1 .f32) (h15 : a15.IsWhole) (a16 : Memref sig .tc .vmem S4000x1 .f32) (h16 : a16.IsWhole) (hc : cond1_0 i) (x0 : Vec Ideal S4000x128 .f32) (x1 : Vec Ideal S4000x128 .f32) (x2 : Vec Ideal S128x64 .f32) (x3 : Vec Ideal S1x64 .f32) (x4 : Vec Ideal S128x64 .f32) (x5 : Vec Ideal S1x64 .f32) (x6 : Vec Ideal S1x64 .f32) (x7 : Vec Ideal S1x64 .f32) (x8 : Vec Ideal S1x64 .f32) (x9 : Vec Ideal S1x64 .f32) (x10 : Vec Ideal S1x64 .f32) (x11 : Vec Ideal S1x1 .f32) :
    out1_A_12 (F := Ideal) c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 (ix3 0 0 0) = ∑ r : Fin 4000, preBlk x0 x1 x2 x3 x4 x5 x6 x7 x8 x9 x10 x11 r
    ∧ out1_A_13 (F := Ideal) c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 (ix3 0 0 0) = ∑ r : Fin 4000, preBlk x0 x1 x2 x3 x4 x5 x6 x7 x8 x9 x10 x11 r * preBlk x0 x1 x2 x3 x4 x5 x6 x7 x8 x9 x10 x11 r
    ∧ ∀ r : Fin 4000, out1_A_14 (F := Ideal) c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 (ix2 r 0) = preBlk x0 x1 x2 x3 x4 x5 x6 x7 x8 x9 x10 x11 r := by
  refine ⟨?_, ?_, fun r => ?_⟩
  · rw [outA12, pay2_at, pay4_at, zero_add]
    exact Finset.sum_congr rfl fun r _ => pay1_blk x0 x1 x2 x3 x4 x5 x6 x7 x8 x9 x10 x11 r
  · rw [outA13, pay3_at, pay5_at, zero_add]
    exact Finset.sum_congr rfl fun r _ => by rw [pay1_blk]
  · rw [outA14]
    exact pay1_blk x0 x1 x2 x3 x4 x5 x6 x7 x8 x9 x10 x11 r

/-- At a later step: the sums grow by the block's own, the column is the block's pre-activations. -/
theorem caseB (c : Dev nD) (i : grid1.Coords) (a2 : Memref sig .tc .vmem S4000x128 .f32) (h2 : a2.IsWhole) (a3 : Memref sig .tc .vmem S4000x128 .f32) (h3 : a3.IsWhole) (a4 : Memref sig .tc .vmem S128x64 .f32) (h4 : a4.IsWhole) (a5 : Memref sig .tc .vmem S1x64 .f32) (h5 : a5.IsWhole) (a6 : Memref sig .tc .vmem S128x64 .f32) (h6 : a6.IsWhole) (a7 : Memref sig .tc .vmem S1x64 .f32) (h7 : a7.IsWhole) (a8 : Memref sig .tc .vmem S1x64 .f32) (h8 : a8.IsWhole) (a9 : Memref sig .tc .vmem S1x64 .f32) (h9 : a9.IsWhole) (a10 : Memref sig .tc .vmem S1x64 .f32) (h10 : a10.IsWhole) (a11 : Memref sig .tc .vmem S1x64 .f32) (h11 : a11.IsWhole) (a12 : Memref sig .tc .vmem S1x64 .f32) (h12 : a12.IsWhole) (a13 : Memref sig .tc .vmem S1x1 .f32) (h13 : a13.IsWhole) (a14 : Memref sig .tc .vmem S1x1x1 .f32) (h14 : a14.IsWhole) (a15 : Memref sig .tc .vmem S1x1x1 .f32) (h15 : a15.IsWhole) (a16 : Memref sig .tc .vmem S4000x1 .f32) (h16 : a16.IsWhole) (hc : ¬cond1_0 i) (x0 : Vec Ideal S4000x128 .f32) (x1 : Vec Ideal S4000x128 .f32) (x2 : Vec Ideal S128x64 .f32) (x3 : Vec Ideal S1x64 .f32) (x4 : Vec Ideal S128x64 .f32) (x5 : Vec Ideal S1x64 .f32) (x6 : Vec Ideal S1x64 .f32) (x7 : Vec Ideal S1x64 .f32) (x8 : Vec Ideal S1x64 .f32) (x9 : Vec Ideal S1x64 .f32) (x10 : Vec Ideal S1x64 .f32) (x11 : Vec Ideal S1x1 .f32) (xo12 xo13 : Vec Ideal S1x1x1 .f32) :
    out1_B_12 (F := Ideal) c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 xo12 xo13 (ix3 0 0 0) = xo12 (ix3 0 0 0) + ∑ r : Fin 4000, preBlk x0 x1 x2 x3 x4 x5 x6 x7 x8 x9 x10 x11 r
    ∧ out1_B_13 (F := Ideal) c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 xo12 xo13 (ix3 0 0 0) = xo13 (ix3 0 0 0) + ∑ r : Fin 4000, preBlk x0 x1 x2 x3 x4 x5 x6 x7 x8 x9 x10 x11 r * preBlk x0 x1 x2 x3 x4 x5 x6 x7 x8 x9 x10 x11 r
    ∧ ∀ r : Fin 4000, out1_B_14 (F := Ideal) c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 xo12 xo13 (ix2 r 0) = preBlk x0 x1 x2 x3 x4 x5 x6 x7 x8 x9 x10 x11 r := by
  refine ⟨?_, ?_, fun r => ?_⟩
  · rw [outB12, pay2_at]
    exact congrArg (xo12 (ix3 0 0 0) + ·) (Finset.sum_congr rfl fun r _ => pay1_blk x0 x1 x2 x3 x4 x5 x6 x7 x8 x9 x10 x11 r)
  · rw [outB13, pay3_at]
    exact congrArg (xo13 (ix3 0 0 0) + ·) (Finset.sum_congr rfl fun r _ => by rw [pay1_blk])
  · rw [outB14]
    exact pay1_blk x0 x1 x2 x3 x4 x5 x6 x7 x8 x9 x10 x11 r

variable (V : (c : Dev nD) → (b : Ref sig .tc) → Buf (Elt Ideal) ((c : Thread nD τ).loc b))

/-- The sum of the pre-activations over the 4000 rows of point m's block (zero past the grid). -/
def bs12 (c : Dev nD) (m : ℕ) : EReal :=
  if hm : m < cfg1.N then ∑ r : Fin 4000, preBlk (iblk1 V c 0 ⟨m, hm⟩) (iblk1 V c 1 ⟨m, hm⟩) (iblk1 V c 2 ⟨m, hm⟩) (iblk1 V c 3 ⟨m, hm⟩) (iblk1 V c 4 ⟨m, hm⟩) (iblk1 V c 5 ⟨m, hm⟩) (iblk1 V c 6 ⟨m, hm⟩) (iblk1 V c 7 ⟨m, hm⟩) (iblk1 V c 8 ⟨m, hm⟩) (iblk1 V c 9 ⟨m, hm⟩) (iblk1 V c 10 ⟨m, hm⟩) (iblk1 V c 11 ⟨m, hm⟩) r else 0
/-- The sum of their squares. -/
def bs13 (c : Dev nD) (m : ℕ) : EReal :=
  if hm : m < cfg1.N then ∑ r : Fin 4000, preBlk (iblk1 V c 0 ⟨m, hm⟩) (iblk1 V c 1 ⟨m, hm⟩) (iblk1 V c 2 ⟨m, hm⟩) (iblk1 V c 3 ⟨m, hm⟩) (iblk1 V c 4 ⟨m, hm⟩) (iblk1 V c 5 ⟨m, hm⟩) (iblk1 V c 6 ⟨m, hm⟩) (iblk1 V c 7 ⟨m, hm⟩) (iblk1 V c 8 ⟨m, hm⟩) (iblk1 V c 9 ⟨m, hm⟩) (iblk1 V c 10 ⟨m, hm⟩) (iblk1 V c 11 ⟨m, hm⟩) r * preBlk (iblk1 V c 0 ⟨m, hm⟩) (iblk1 V c 1 ⟨m, hm⟩) (iblk1 V c 2 ⟨m, hm⟩) (iblk1 V c 3 ⟨m, hm⟩) (iblk1 V c 4 ⟨m, hm⟩) (iblk1 V c 5 ⟨m, hm⟩) (iblk1 V c 6 ⟨m, hm⟩) (iblk1 V c 7 ⟨m, hm⟩) (iblk1 V c 8 ⟨m, hm⟩) (iblk1 V c 9 ⟨m, hm⟩) (iblk1 V c 10 ⟨m, hm⟩) (iblk1 V c 11 ⟨m, hm⟩) r else 0

theorem bs12_eq (c : Dev nD) (t : Fin cfg1.N) : bs12 V c t.val = ∑ r : Fin 4000, preBlk (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) r := by
  unfold bs12; rw [dif_pos t.isLt]
theorem bs13_eq (c : Dev nD) (t : Fin cfg1.N) : bs13 V c t.val = ∑ r : Fin 4000, preBlk (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) r * preBlk (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) r := by
  unfold bs13; rw [dif_pos t.isLt]

/-- After the first step of a half the two running sums are that block's. -/
theorem stepA (c : Dev nD) (t : Fin cfg1.N) (h0 : t.val % 125 = 0) :
    (outsAt1 V c t.val t.isLt).1 (ix3 0 0 0) = bs12 V c t.val ∧ (outsAt1 V c t.val t.isLt).2.1 (ix3 0 0 0) = bs13 V c t.val := by
  have hA := caseA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  rw [outsAt1_A V c t h0, bs12_eq, bs13_eq]
  dsimp only
  exact ⟨hA.1, hA.2.1⟩

/-- After a later step they are what the step before left plus that block's. -/
theorem stepB (c : Dev nD) (t : Fin cfg1.N) (h0 : ¬t.val % 125 = 0) :
    (outsAt1 V c t.val t.isLt).1 (ix3 0 0 0) = (outsAt1 V c (t.val - 1) (Nat.lt_of_le_of_lt (Nat.sub_le _ _) t.isLt)).1 (ix3 0 0 0) + bs12 V c t.val
    ∧ (outsAt1 V c t.val t.isLt).2.1 (ix3 0 0 0) = (outsAt1 V c (t.val - 1) (Nat.lt_of_le_of_lt (Nat.sub_le _ _) t.isLt)).2.1 (ix3 0 0 0) + bs13 V c t.val := by
  have hB := caseB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (outsAt1 V c (t.val - 1) (Nat.lt_of_le_of_lt (Nat.sub_le _ _) t.isLt)).1 (outsAt1 V c (t.val - 1) (Nat.lt_of_le_of_lt (Nat.sub_le _ _) t.isLt)).2.1
  rw [outsAt1_B V c t h0, bs12_eq, bs13_eq]
  dsimp only
  exact ⟨hB.1, hB.2.1⟩

/-- After every step the stored column is the pre-activation of the block's rows. -/
theorem step14 (c : Dev nD) (t : Fin cfg1.N) (r : Fin 4000) :
    (outsAt1 V c t.val t.isLt).2.2 (ix2 r 0) = preBlk (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) r := by
  by_cases h0 : t.val % 125 = 0
  · have hA := caseA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
    rw [outsAt1_A V c t h0]
    dsimp only
    exact hA.2.2 r
  · have hB := caseB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (outsAt1 V c (t.val - 1) (Nat.lt_of_le_of_lt (Nat.sub_le _ _) t.isLt)).1 (outsAt1 V c (t.val - 1) (Nat.lt_of_le_of_lt (Nat.sub_le _ _) t.isLt)).2.1
    rw [outsAt1_B V c t h0]
    dsimp only
    exact hB.2.2 r

/-- Within a half the running sums after step p are the first p + 1 blocks' sums. -/
theorem outsAt_inv (c : Dev nD) : ∀ (n : ℕ) (h : n < cfg1.N),
    (outsAt1 V c n h).1 (ix3 0 0 0) = ∑ q ∈ Finset.range (n % 125 + 1), bs12 V c (125 * (n / 125) + q)
    ∧ (outsAt1 V c n h).2.1 (ix3 0 0 0) = ∑ q ∈ Finset.range (n % 125 + 1), bs13 V c (125 * (n / 125) + q)
  | 0, h => by
    have sA := stepA V c ⟨0, h⟩ rfl
    rw [show 0 % 125 + 1 = 1 from rfl, Finset.sum_range_one, Finset.sum_range_one]
    exact sA
  | n + 1, h => by
    by_cases h0 : (n + 1) % 125 = 0
    · have sA := stepA V c ⟨n + 1, h⟩ h0
      rw [h0, show 0 + 1 = 1 from rfl, Finset.sum_range_one, Finset.sum_range_one, show 125 * ((n + 1) / 125) + 0 = n + 1 from by omega]
      exact sA
    · have sB := stepB V c ⟨n + 1, h⟩ h0
      have ih := outsAt_inv c n (Nat.lt_of_succ_lt h)
      refine ⟨?_, ?_⟩
      · rw [show (n + 1) % 125 = n % 125 + 1 from by omega, show (n + 1) / 125 = n / 125 from by omega, Finset.sum_range_succ,
          ← ih.1, show 125 * (n / 125) + (n % 125 + 1) = n + 1 from by omega]
        exact sB.1
      · rw [show (n + 1) % 125 = n % 125 + 1 from by omega, show (n + 1) / 125 = n / 125 from by omega, Finset.sum_range_succ,
          ← ih.2, show 125 * (n / 125) + (n % 125 + 1) = n + 1 from by omega]
        exact sB.2

/-- The 125 blocks of a half together: the per-half sums of the specification. -/
theorem half12 (c : Dev nD) (hf : Fin 2) : ∑ q ∈ Finset.range 125, bs12 V c (125 * hf.val + q) = Spec.halfSum (pre V c) hf := by
  have hN : cfg1.N = 250 := N_1
  rw [Finset.sum_range]; unfold Spec.halfSum
  refine Finset.sum_congr rfl fun p _ => ?_
  have hm : 125 * hf.val + p.val < cfg1.N := by have := hf.isLt; have := p.isLt; omega
  rw [bs12_eq V c ⟨125 * hf.val + p.val, hm⟩]
  exact Finset.sum_congr rfl fun r _ => blk_pre V c ⟨125 * hf.val + p.val, hm⟩ r (Spec.row hf p r) rfl
theorem half13 (c : Dev nD) (hf : Fin 2) :
    ∑ q ∈ Finset.range 125, bs13 V c (125 * hf.val + q) = Spec.halfSum (fun n => pre V c n * pre V c n) hf := by
  have hN : cfg1.N = 250 := N_1
  rw [Finset.sum_range]; unfold Spec.halfSum
  refine Finset.sum_congr rfl fun p _ => ?_
  have hm : 125 * hf.val + p.val < cfg1.N := by have := hf.isLt; have := p.isLt; omega
  rw [bs13_eq V c ⟨125 * hf.val + p.val, hm⟩]
  exact Finset.sum_congr rfl fun r _ => by rw [blk_pre V c ⟨125 * hf.val + p.val, hm⟩ r (Spec.row hf p r) rfl]

end Run

/-! ## The three arrays after the region -/

section Arrays
variable (V : (c : Dev nD) → (b : Ref sig .tc) → Buf (Elt Ideal) ((c : Thread nD τ).loc b))

theorem idx12 : ∀ t : Fin cfg1.N, win1_12.index t 0 = t.val / 125 ∧ win1_12.index t 1 = 0 ∧ win1_12.index t 2 = 0 :=
  (by decide +kernel : ∀ t : Fin grid1.N, win1_12.index t 0 = t.val / 125 ∧ win1_12.index t 1 = 0 ∧ win1_12.index t 2 = 0)

/-- What this output's array ends holding: at half h, the sum of the pre-activation over the half's rows. -/
def G12 (c : Dev nD) : Buf (Elt Ideal) ((c : Thread nD τ).loc main_v43_0) := fun i => Spec.halfSum (pre V c) (i 0)

/-- What the last step of a half writes back is that half's entry. -/
theorem flushed12_eq (c : Dev nD) (t : Fin cfg1.N) (hf : (cfg1.win 12).flush t = true) :
    (dat1 V c).flushed 12 t = ((cfg1.win 12).blk t).view.read (Elt Ideal) (G12 V c) := by
  have h124 : t.val % 125 = 124 := (flush1_12 t).mp hf
  have hN : cfg1.N = 250 := N_1
  have hlt : t.val < 250 := lt_of_lt_of_eq t.isLt hN
  obtain ⟨e0, e1, e2⟩ := idx12 t
  show (cfg1.win 12).cut (grid1.coords t) ((dat1 V c).after 12 t) = _
  rw [after1_12]
  funext j
  show (outsAt1 V c t.val t.isLt).1 ((cfg1.win 12).xinj (grid1.coords t) j) = G12 V c (((cfg1.win 12).blk t).view.emb j)
  have hj0 : (j 0).val < 1 := (j 0).isLt
  have hj1 : (j 1).val < 1 := (j 1).isLt
  have hj2 : (j 2).val < 1 := (j 2).isLt
  have hj : (cfg1.win 12).xinj (grid1.coords t) j = ix3 (0 : Fin 1) (0 : Fin 1) (0 : Fin 1) := funext fun a => Fin.ext (by
    match a with
    | ⟨0, _⟩ => show (j 0).val = 0; omega
    | ⟨1, _⟩ => show (j 1).val = 0; omega
    | ⟨2, _⟩ => show (j 2).val = 0; omega)
  have he : ((cfg1.win 12).blk t).view.emb j = ix3 (⟨t.val / 125, by omega⟩ : Fin 2) (0 : Fin 1) (0 : Fin 1) := funext fun a => Fin.ext (by
    match a with
    | ⟨0, _⟩ => show win1_12.index t 0 * 1 + 1 * (j 0).val = t.val / 125; rw [e0]; omega
    | ⟨1, _⟩ => show win1_12.index t 1 * 1 + 1 * (j 1).val = 0; rw [e1]; omega
    | ⟨2, _⟩ => show win1_12.index t 2 * 1 + 1 * (j 2).val = 0; rw [e2]; omega)
  rw [hj, he, (outsAt_inv V c t.val t.isLt).1, h124]
  exact half12 V c ⟨t.val / 125, by omega⟩

/-- Each half's entry is written by the last step of that half. -/
theorem cover12 (c : Dev nD) (i : ((cfg1.win 12).arr.view.loc (c.tc : Thread nD τ)).2.ty.Idx) :
    ∃ t : Fin cfg1.N, (cfg1.win 12).flush t = true ∧ i ∈ ((cfg1.win 12).blk t).view.set := by
  have hN : cfg1.N = 250 := N_1
  have hi0 : (i 0).val < 2 := (i 0).isLt
  have hi1 : (i 1).val < 1 := (i 1).isLt
  have hi2 : (i 2).val < 1 := (i 2).isLt
  obtain ⟨T, hT⟩ : ∃ T : Fin cfg1.N, T.val = 125 * (i 0).val + 124 := ⟨⟨125 * (i 0).val + 124, by omega⟩, rfl⟩
  obtain ⟨e0, e1, e2⟩ := idx12 T
  refine ⟨T, (flush1_12 T).mpr (by omega), ?_⟩
  show i ∈ ((View.whole main_v43_0).slice (win1_12.rect T)).set
  rw [View.set_slice_whole, Rect.mem_set_unit]
  intro a
  match a with
  | ⟨0, _⟩ => show win1_12.index T 0 * 1 ≤ (i 0).val ∧ (i 0).val < win1_12.index T 0 * 1 + 1; rw [e0]; omega
  | ⟨1, _⟩ => show win1_12.index T 1 * 1 ≤ (i 1).val ∧ (i 1).val < win1_12.index T 1 * 1 + 1; rw [e1]; omega
  | ⟨2, _⟩ => show win1_12.index T 2 * 1 ≤ (i 2).val ∧ (i 2).val < win1_12.index T 2 * 1 + 1; rw [e2]; omega

theorem final12 (c : Dev nD) : (dat1 V c).arrAt 12 cfg1.N = G12 V c :=
  (dat1 V c).arrAt_eq_of_cover 12 (G12 V c) (flushed12_eq V c) (cover12 c)

theorem idx13 : ∀ t : Fin cfg1.N, win1_13.index t 0 = t.val / 125 ∧ win1_13.index t 1 = 0 ∧ win1_13.index t 2 = 0 :=
  (by decide +kernel : ∀ t : Fin grid1.N, win1_13.index t 0 = t.val / 125 ∧ win1_13.index t 1 = 0 ∧ win1_13.index t 2 = 0)

/-- What this output's array ends holding: at half h, the sum of the squared pre-activation over the half's rows. -/
def G13 (c : Dev nD) : Buf (Elt Ideal) ((c : Thread nD τ).loc main_v43_1) := fun i => Spec.halfSum (fun n => pre V c n * pre V c n) (i 0)

/-- What the last step of a half writes back is that half's entry. -/
theorem flushed13_eq (c : Dev nD) (t : Fin cfg1.N) (hf : (cfg1.win 13).flush t = true) :
    (dat1 V c).flushed 13 t = ((cfg1.win 13).blk t).view.read (Elt Ideal) (G13 V c) := by
  have h124 : t.val % 125 = 124 := (flush1_13 t).mp hf
  have hN : cfg1.N = 250 := N_1
  have hlt : t.val < 250 := lt_of_lt_of_eq t.isLt hN
  obtain ⟨e0, e1, e2⟩ := idx13 t
  show (cfg1.win 13).cut (grid1.coords t) ((dat1 V c).after 13 t) = _
  rw [after1_13]
  funext j
  show (outsAt1 V c t.val t.isLt).2.1 ((cfg1.win 13).xinj (grid1.coords t) j) = G13 V c (((cfg1.win 13).blk t).view.emb j)
  have hj0 : (j 0).val < 1 := (j 0).isLt
  have hj1 : (j 1).val < 1 := (j 1).isLt
  have hj2 : (j 2).val < 1 := (j 2).isLt
  have hj : (cfg1.win 13).xinj (grid1.coords t) j = ix3 (0 : Fin 1) (0 : Fin 1) (0 : Fin 1) := funext fun a => Fin.ext (by
    match a with
    | ⟨0, _⟩ => show (j 0).val = 0; omega
    | ⟨1, _⟩ => show (j 1).val = 0; omega
    | ⟨2, _⟩ => show (j 2).val = 0; omega)
  have he : ((cfg1.win 13).blk t).view.emb j = ix3 (⟨t.val / 125, by omega⟩ : Fin 2) (0 : Fin 1) (0 : Fin 1) := funext fun a => Fin.ext (by
    match a with
    | ⟨0, _⟩ => show win1_13.index t 0 * 1 + 1 * (j 0).val = t.val / 125; rw [e0]; omega
    | ⟨1, _⟩ => show win1_13.index t 1 * 1 + 1 * (j 1).val = 0; rw [e1]; omega
    | ⟨2, _⟩ => show win1_13.index t 2 * 1 + 1 * (j 2).val = 0; rw [e2]; omega)
  rw [hj, he, (outsAt_inv V c t.val t.isLt).2, h124]
  exact half13 V c ⟨t.val / 125, by omega⟩

/-- Each half's entry is written by the last step of that half. -/
theorem cover13 (c : Dev nD) (i : ((cfg1.win 13).arr.view.loc (c.tc : Thread nD τ)).2.ty.Idx) :
    ∃ t : Fin cfg1.N, (cfg1.win 13).flush t = true ∧ i ∈ ((cfg1.win 13).blk t).view.set := by
  have hN : cfg1.N = 250 := N_1
  have hi0 : (i 0).val < 2 := (i 0).isLt
  have hi1 : (i 1).val < 1 := (i 1).isLt
  have hi2 : (i 2).val < 1 := (i 2).isLt
  obtain ⟨T, hT⟩ : ∃ T : Fin cfg1.N, T.val = 125 * (i 0).val + 124 := ⟨⟨125 * (i 0).val + 124, by omega⟩, rfl⟩
  obtain ⟨e0, e1, e2⟩ := idx13 T
  refine ⟨T, (flush1_13 T).mpr (by omega), ?_⟩
  show i ∈ ((View.whole main_v43_1).slice (win1_13.rect T)).set
  rw [View.set_slice_whole, Rect.mem_set_unit]
  intro a
  match a with
  | ⟨0, _⟩ => show win1_13.index T 0 * 1 ≤ (i 0).val ∧ (i 0).val < win1_13.index T 0 * 1 + 1; rw [e0]; omega
  | ⟨1, _⟩ => show win1_13.index T 1 * 1 ≤ (i 1).val ∧ (i 1).val < win1_13.index T 1 * 1 + 1; rw [e1]; omega
  | ⟨2, _⟩ => show win1_13.index T 2 * 1 ≤ (i 2).val ∧ (i 2).val < win1_13.index T 2 * 1 + 1; rw [e2]; omega

theorem final13 (c : Dev nD) : (dat1 V c).arrAt 13 cfg1.N = G13 V c :=
  (dat1 V c).arrAt_eq_of_cover 13 (G13 V c) (flushed13_eq V c) (cover13 c)

theorem idx14 : ∀ t : Fin cfg1.N, win1_14.index t 0 = t.val ∧ win1_14.index t 1 = 0 :=
  (by decide +kernel : ∀ t : Fin grid1.N, win1_14.index t 0 = t.val ∧ win1_14.index t 1 = 0)

/-- What the column of pre-activations ends holding: row n's pre-activation at (n, 0). -/
def G14 (c : Dev nD) : Buf (Elt Ideal) ((c : Thread nD τ).loc main_v43_2) := fun i => pre V c (i 0)

/-- What point t writes back is rows 4000·t … 4000·t + 3999 of that column. -/
theorem flushed14_eq (c : Dev nD) (t : Fin cfg1.N) :
    (dat1 V c).flushed 14 t = ((cfg1.win 14).blk t).view.read (Elt Ideal) (G14 V c) := by
  obtain ⟨e0, e1⟩ := idx14 t
  show (cfg1.win 14).cut (grid1.coords t) ((dat1 V c).after 14 t) = _
  rw [after1_14]
  funext j
  show (outsAt1 V c t.val t.isLt).2.2 ((cfg1.win 14).xinj (grid1.coords t) j) = G14 V c (((cfg1.win 14).blk t).view.emb j)
  have hj0 : (j 0).val < 4000 := (j 0).isLt
  have hj1 : (j 1).val < 1 := (j 1).isLt
  have hj : (cfg1.win 14).xinj (grid1.coords t) j = ix2 (⟨(j 0).val, hj0⟩ : Fin 4000) (0 : Fin 1) := funext fun a => Fin.ext (by
    match a with
    | ⟨0, _⟩ => rfl
    | ⟨1, _⟩ => show (j 1).val = 0; omega)
  rw [hj, step14 V c t ⟨(j 0).val, hj0⟩]
  exact blk_pre V c t ⟨(j 0).val, hj0⟩ _ (by
    show win1_14.index t 0 * 4000 + 1 * (j 0).val = t.val * 4000 + (j 0).val
    rw [e0]; omega)

/-- Row n is in the block of point n / 4000. -/
theorem cover14 (c : Dev nD) (i : ((cfg1.win 14).arr.view.loc (c.tc : Thread nD τ)).2.ty.Idx) :
    ∃ t : Fin cfg1.N, (cfg1.win 14).flush t = true ∧ i ∈ ((cfg1.win 14).blk t).view.set := by
  have hN : cfg1.N = 250 := N_1
  have hi0 : (i 0).val < 1000000 := (i 0).isLt
  have hi1 : (i 1).val < 1 := (i 1).isLt
  obtain ⟨T, hT⟩ : ∃ T : Fin cfg1.N, T.val = (i 0).val / 4000 := ⟨⟨(i 0).val / 4000, by omega⟩, rfl⟩
  obtain ⟨e0, e1⟩ := idx14 T
  refine ⟨T, flush1_14 T, ?_⟩
  show i ∈ ((View.whole main_v43_2).slice (win1_14.rect T)).set
  rw [View.set_slice_whole, Rect.mem_set_unit]
  intro a
  match a with
  | ⟨0, _⟩ => show win1_14.index T 0 * 4000 ≤ (i 0).val ∧ (i 0).val < win1_14.index T 0 * 4000 + 4000; rw [e0]; omega
  | ⟨1, _⟩ => show win1_14.index T 1 * 1 ≤ (i 1).val ∧ (i 1).val < win1_14.index T 1 * 1 + 1; rw [e1]; omega

theorem final14 (c : Dev nD) : (dat1 V c).arrAt 14 cfg1.N = G14 V c :=
  (dat1 V c).arrAt_eq_of_cover 14 (G14 V c) (fun t _ => flushed14_eq V c t) (cover14 c)

/-- After the region the column of pre-activations holds, at row n, the gate's pre-activation of row n. -/
theorem arr14_apply (c : Dev nD) (n : Fin 1000000) :
    (dat1 (F := Ideal) V c).arrAt 14 cfg1.N (ix2 n 0) = Spec.gatePre (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) n :=
  congrFun (final14 V c) (ix2 n 0)

/-- After the region the per-half sums hold, at half h, the sum of the pre-activation over the half's rows. -/
theorem arr12_apply (c : Dev nD) (h : Fin 2) :
    (dat1 (F := Ideal) V c).arrAt 12 cfg1.N (ix3 h 0 0) = Spec.halfSum (fun n => Spec.gatePre (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) n) h :=
  congrFun (final12 V c) (ix3 h 0 0)

/-- After the region the per-half sums of squares hold, at half h, the sum of the squared pre-activation over the half's rows. -/
theorem arr13_apply (c : Dev nD) (h : Fin 2) :
    (dat1 (F := Ideal) V c).arrAt 13 cfg1.N (ix3 h 0 0) = Spec.halfSum (fun n => Spec.gatePre (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) n * Spec.gatePre (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) n) h :=
  congrFun (final13 V c) (ix3 h 0 0)

end Arrays

end Cert.KernelIdeal.Region1

end
-- ==== Proof.Region2.lean ====
/-
  The last region of the idealized kernel: the gated product.

  The grid has 250 points; point t reads rows 4000·t … 4000·t + 3999 of the skip array and of the pre-activation column,
  and the two 1-by-1 scale and shift; it writes the same rows of the result, entry (r, k) being
      skip[r,k] · logistic(pre[r,0] · scale + shift).
  Every block is the restriction of ONE function of the four input arrays, and the 250 blocks tile the result array, so
  after the region the result array is that function.
-/
import proofs.«119614_j3375844294910_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- A column [a,1] repeated along the second axis reads, at (p, c), the column at (p, 0). -/
theorem column_repeat_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else _
    rw [if_pos rfl]

/-- The logistic of a vector, entry by entry. -/
theorem logistic_apply {s : Shape} {φ : FTy} (a : FVec Ideal s φ) (i : s.Idx) : logistic a i = Ideal.logistic (a i) := rfl

/-- The body's one stored value at entry (r, k) of its block: x0[r,k] · logistic(x1[r,0] · x2 + x3). -/
theorem pay_apply (x0 : Vec Ideal S4000x128 .f32) (x1 : Vec Ideal S4000x1 .f32) (x2 x3 : Vec Ideal S1x1 .f32)
    (r : Fin 4000) (k : Fin 128) :
    k2_pay1 (F := Ideal) x0 x1 x2 x3 (ix2 r k)
      = x0 (ix2 r k) * Ideal.logistic (x1 (ix2 r 0) * x2 (ix2 0 0) + x3 (ix2 0 0)) := by
  unfold k2_pay1
  simp only [shapeCast_self]
  rw [mulf_apply, column_repeat_apply, logistic_apply, addf_apply, mulf_apply, broadcastTo_1b_ab_apply,
    broadcastTo_1b_ab_apply]

/-- The result array as one function of the region's four input arrays: skip, the pre-activation column, scale, shift. -/
def G (s : S1000000x128.Idx → EReal) (p : S1000000x1.Idx → EReal) (a b : S1x1.Idx → EReal) : S1000000x128.Idx → EReal :=
  fun i => s i * Ideal.logistic (p (ix2 (i 0) 0) * a (ix2 0 0) + b (ix2 0 0))

variable (V : (c : Dev nD) → (b : Ref sig .tc) → Buf (Elt Ideal) ((c : Thread nD τ).loc b))

/-- The printed index maps over the grid: the three row-blocked windows sit at block row t, the two 1-by-1 windows at
    their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Input window 0's block at point t, read at (r, k), is the skip array where the output's block puts (r, k). -/
theorem blk0 (c : Dev nD) (t : Fin cfg2.N) (r : Fin 4000) (k : Fin 128) :
    iblk2 V c 0 t (ix2 r k) = V c (Pipeline.arrRef spec2 0) (((cfg2.win 4).blk t).view.emb (ix2 r k)) := by
  obtain ⟨e00, e01, -, -, -, -, -, -, e40, e41⟩ := idx_facts t
  show V c (Pipeline.arrRef spec2 0) (((cfg2.win 0).blk t).view.emb (ix2 r k)) = _
  refine congrArg _ (funext fun a => Fin.ext ?_)
  match a with
  | ⟨0, _⟩ => show win2_0.index t 0 * 4000 + 1 * r.val = win2_4.index t 0 * 4000 + 1 * r.val; rw [e00, e40]
  | ⟨1, _⟩ => show win2_0.index t 1 * 128 + 1 * k.val = win2_4.index t 1 * 128 + 1 * k.val; rw [e01, e41]

/-- Input window 1's block at point t, read at (r, 0), is the pre-activation column at the output block's row. -/
theorem blk1 (c : Dev nD) (t : Fin cfg2.N) (r : Fin 4000) (k : Fin 128) :
    iblk2 V c 1 t (ix2 r 0)
      = V c (Pipeline.arrRef spec2 1) (ix2 ((((cfg2.win 4).blk t).view.emb (ix2 r k)) 0) 0) := by
  obtain ⟨-, -, e10, e11, -, -, -, -, e40, -⟩ := idx_facts t
  show V c (Pipeline.arrRef spec2 1) (((cfg2.win 1).blk t).view.emb (ix2 r 0)) = _
  refine congrArg _ (funext fun a => Fin.ext ?_)
  match a with
  | ⟨0, _⟩ => show win2_1.index t 0 * 4000 + 1 * r.val = win2_4.index t 0 * 4000 + 1 * r.val; rw [e10, e40]
  | ⟨1, _⟩ => show win2_1.index t 1 * 1 + 1 * 0 = 0; rw [e11]

/-- The 1-by-1 scale window's block is the scale array's one entry. -/
theorem blk2 (c : Dev nD) (t : Fin cfg2.N) : iblk2 V c 2 t (ix2 0 0) = V c (Pipeline.arrRef spec2 2) (ix2 0 0) := by
  obtain ⟨-, -, -, -, e20, e21, -, -, -, -⟩ := idx_facts t
  show V c (Pipeline.arrRef spec2 2) (((cfg2.win 2).blk t).view.emb (ix2 0 0)) = _
  refine congrArg _ (funext fun a => Fin.ext ?_)
  match a with
  | ⟨0, _⟩ => show win2_2.index t 0 * 1 + 1 * 0 = 0; rw [e20]
  | ⟨1, _⟩ => show win2_2.index t 1 * 1 + 1 * 0 = 0; rw [e21]

/-- The 1-by-1 shift window's block is the shift array's one entry. -/
theorem blk3 (c : Dev nD) (t : Fin cfg2.N) : iblk2 V c 3 t (ix2 0 0) = V c (Pipeline.arrRef spec2 3) (ix2 0 0) := by
  obtain ⟨-, -, -, -, -, -, e30, e31, -, -⟩ := idx_facts t
  show V c (Pipeline.arrRef spec2 3) (((cfg2.win 3).blk t).view.emb (ix2 0 0)) = _
  refine congrArg _ (funext fun a => Fin.ext ?_)
  match a with
  | ⟨0, _⟩ => show win2_3.index t 0 * 1 + 1 * 0 = 0; rw [e30]
  | ⟨1, _⟩ => show win2_3.index t 1 * 1 + 1 * 0 = 0; rw [e31]

/-- The body's stored block at point t, entry (r, k), is G of the four arrays at the array index of that entry. -/
theorem stored_apply (c : Dev nD) (t : Fin cfg2.N) (r : Fin 4000) (k : Fin 128) :
    k2_pay1 (F := Ideal) (iblk2 V c 0 t) (iblk2 V c 1 t) (iblk2 V c 2 t) (iblk2 V c 3 t) (ix2 r k)
      = G (V c (Pipeline.arrRef spec2 0)) (V c (Pipeline.arrRef spec2 1)) (V c (Pipeline.arrRef spec2 2))
          (V c (Pipeline.arrRef spec2 3)) (((cfg2.win 4).blk t).view.emb (ix2 r k)) := by
  refine (pay_apply (iblk2 V c 0 t) (iblk2 V c 1 t) (iblk2 V c 2 t) (iblk2 V c 3 t) r k).trans ?_
  rw [blk0 V c t r k, blk1 V c t r k, blk2 V c t, blk3 V c t]
  rfl

/-- WHAT POINT t WRITES BACK is block t of G of the arrays as the region finds them. -/
theorem flushed_eq (c : Dev nD) (t : Fin cfg2.N) :
    (dat2 (F := Ideal) V c).flushed 4 t = ((cfg2.win 4).blk t).view.read (Elt Ideal)
      (G (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz]
  simp only [View.ld_unit_zero (S := S4000x128) hz, View.ld_unit_zero (S := S4000x1) hz, View.ld_unit_zero (S := S1x1) hz]
  funext j
  obtain ⟨r, k, rfl⟩ : ∃ (r : Fin 4000) (k : Fin 128), j = ix2 r k := ⟨j 0, j 1, eq_ix2 j⟩
  exact stored_apply V c t r k

/-- An index of the result array is in point t's block iff each coordinate is in the block's range on its axis. -/
theorem mem_blk (t : Fin cfg2.N) (i : S1000000x128.Idx) :
    i ∈ ((cfg2.win 4).blk t).view.set ↔ ∀ a : Fin 2, win2_4.index t a * S4000x128.size a ≤ (i a).val
      ∧ (i a).val < win2_4.index t a * S4000x128.size a + S4000x128.size a := by
  show i ∈ ((View.whole main_v60).slice (win2_4.rect t)).set ↔ _
  rw [View.set_slice_whole, Rect.mem_set_unit]
  exact Iff.rfl

/-- Every row lies in the block of the point numbered by the row divided by 4000. -/
theorem cover (i : S1000000x128.Idx) :
    ∃ t : Fin cfg2.N, (cfg2.win 4).flush t = true ∧ i ∈ ((cfg2.win 4).blk t).view.set := by
  have hi0 : (i 0).val < 1000000 := (i 0).isLt
  have hi1 : (i 1).val < 128 := (i 1).isLt
  have hN : cfg2.N = 250 := N_2
  refine ⟨⟨(i 0).val / 4000, by rw [hN]; omega⟩, flush2_4 _, ?_⟩
  obtain ⟨-, -, -, -, -, -, -, -, e40, e41⟩ := idx_facts ⟨(i 0).val / 4000, by rw [hN]; omega⟩
  rw [mem_blk]
  intro a
  match a with
  | ⟨0, _⟩ =>
    show win2_4.index _ (0 : Fin 2) * 4000 ≤ (i 0).val ∧ (i 0).val < win2_4.index _ (0 : Fin 2) * 4000 + 4000
    rw [e40]; dsimp only; omega
  | ⟨1, _⟩ =>
    show win2_4.index _ (1 : Fin 2) * 128 ≤ (i 1).val ∧ (i 1).val < win2_4.index _ (1 : Fin 2) * 128 + 128
    rw [e41]; omega

/-- After the region the result array is G of the four input arrays as the region found them. -/
theorem arr4 (c : Dev nD) : (dat2 (F := Ideal) V c).arrAt 4 cfg2.N
    = G (V c (Pipeline.arrRef spec2 0)) (V c (Pipeline.arrRef spec2 1)) (V c (Pipeline.arrRef spec2 2)) (V c (Pipeline.arrRef spec2 3)) :=
  (dat2 V c).arrAt_eq_of_cover 4 _ (fun t _ => flushed_eq V c t) cover

end Cert.KernelIdeal.Region2

end
-- ==== Proof.KValue.lean ====
/-
  What the idealized kernel's result array holds: Spec.kerOut of the launch memory, the small parameters re-laid as the
  host lays them (a vector as a 1-by-64 row or a 1-by-1 cell, the projection transposed to a row).

  The first region leaves, per half, the column sums and sums of squares of the two dense layers; the host adds the two
  halves and forms each layer's scale and shift rows, which are Spec.scaleRow and Spec.shiftRow of that layer. The second
  region leaves the gate's pre-activation column, which is then Spec.kerPre, and its per-half sum and sum of squares; the
  host forms the last scale and shift from them. The third region multiplies.
-/
import proofs.«119614_j3375844294910_2_alg».proof.Proof.Gen.KernelIdeal.Frame
import proofs.«119614_j3375844294910_2_alg».proof.Proof.Spec
import proofs.«119614_j3375844294910_2_alg».proof.Proof.KWalk
import proofs.«119614_j3375844294910_2_alg».proof.Proof.KWalk2
import proofs.«119614_j3375844294910_2_alg».proof.Proof.KStages
import proofs.«119614_j3375844294910_2_alg».proof.Proof.Region0
import proofs.«119614_j3375844294910_2_alg».proof.Proof.Region1
import proofs.«119614_j3375844294910_2_alg».proof.Proof.Region2
import Idealize.ShloMosaic.Lib.ValueIdx

noncomputable section

namespace Cert.KernelIdeal.KValue

open Cert.KernelIdeal Cert.KernelIdeal.Gen Cert.KernelIdeal.KStages Cert.Spec
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The launch memory as the specification's arrays -/

abbrev gate (c : Dev nD) : Mat 1000000 128 := m ((c : Thread nD τ).loc main_arg0)
abbrev skip (c : Dev nD) : Mat 1000000 128 := m ((c : Thread nD τ).loc main_arg1)
abbrev Wg (c : Dev nD) : Mat 128 64 := m ((c : Thread nD τ).loc main_arg2)
abbrev Wx (c : Dev nD) : Mat 128 64 := m ((c : Thread nD τ).loc main_arg6)
abbrev bg2 (c : Dev nD) : Mat 1 64 := shapeCast S1x64 (m ((c : Thread nD τ).loc main_arg3)) shapeCasts_S64_S1x64
abbrev γg2 (c : Dev nD) : Mat 1 64 := shapeCast S1x64 (m ((c : Thread nD τ).loc main_arg4)) shapeCasts_S64_S1x64
abbrev βg2 (c : Dev nD) : Mat 1 64 := shapeCast S1x64 (m ((c : Thread nD τ).loc main_arg5)) shapeCasts_S64_S1x64
abbrev bx2 (c : Dev nD) : Mat 1 64 := shapeCast S1x64 (m ((c : Thread nD τ).loc main_arg7)) shapeCasts_S64_S1x64
abbrev γx2 (c : Dev nD) : Mat 1 64 := shapeCast S1x64 (m ((c : Thread nD τ).loc main_arg8)) shapeCasts_S64_S1x64
abbrev βx2 (c : Dev nD) : Mat 1 64 := shapeCast S1x64 (m ((c : Thread nD τ).loc main_arg9)) shapeCasts_S64_S1x64
abbrev wT (c : Dev nD) : Mat 1 64 := transpose S1x64 [1, 0] (m ((c : Thread nD τ).loc main_arg10)) transposes_S64x1_S1x64_1_0
abbrev b2 (c : Dev nD) : Mat 1 1 := shapeCast S1x1 (m ((c : Thread nD τ).loc main_arg11)) shapeCasts_S1_S1x1
abbrev γp (c : Dev nD) : Mat 1 1 := shapeCast S1x1 (m ((c : Thread nD τ).loc main_arg12)) shapeCasts_S1_S1x1
abbrev βp (c : Dev nD) : Mat 1 1 := shapeCast S1x1 (m ((c : Thread nD τ).loc main_arg13)) shapeCasts_S1_S1x1

/-! ## After the first region: the per-half sums -/

theorem sum_g (c : Dev nD) (h : Fin 2) (j : Fin 64) :
    W2 m ρ c (Proc.devRef .tc main_v10_0) (ix3 h 0 j)
      = halfSum (fun n => lin (gate m c) (Wg m c) (bg2 m c) n j) h := by
  have e := Region0.arr6_apply (V1 m ρ) c h j
  have a0 : V1 m ρ c (Pipeline.arrRef spec0 0) = gate m c := KWalk.V1_main_arg0 m ρ c
  have a2 : V1 m ρ c (Pipeline.arrRef spec0 2) = Wg m c := KWalk.V1_main_arg2 m ρ c
  have a3 : V1 m ρ c (Pipeline.arrRef spec0 3) = bg2 m c := KWalk.V1_main_v0 m ρ c
  rw [a0, a2, a3] at e
  exact (congrFun (KWalk.W2_main_v10_0 m ρ c) (ix3 h 0 j)).trans e

theorem sumsq_g (c : Dev nD) (h : Fin 2) (j : Fin 64) :
    W2 m ρ c (Proc.devRef .tc main_v10_1) (ix3 h 0 j)
      = halfSum (fun n => lin (gate m c) (Wg m c) (bg2 m c) n j * lin (gate m c) (Wg m c) (bg2 m c) n j) h := by
  have e := Region0.arr7_apply (V1 m ρ) c h j
  have a0 : V1 m ρ c (Pipeline.arrRef spec0 0) = gate m c := KWalk.V1_main_arg0 m ρ c
  have a2 : V1 m ρ c (Pipeline.arrRef spec0 2) = Wg m c := KWalk.V1_main_arg2 m ρ c
  have a3 : V1 m ρ c (Pipeline.arrRef spec0 3) = bg2 m c := KWalk.V1_main_v0 m ρ c
  rw [a0, a2, a3] at e
  exact (congrFun (KWalk.W2_main_v10_1 m ρ c) (ix3 h 0 j)).trans e

theorem sum_x (c : Dev nD) (h : Fin 2) (j : Fin 64) :
    W2 m ρ c (Proc.devRef .tc main_v10_2) (ix3 h 0 j)
      = halfSum (fun n => lin (skip m c) (Wx m c) (bx2 m c) n j) h := by
  have e := Region0.arr8_apply (V1 m ρ) c h j
  have a1 : V1 m ρ c (Pipeline.arrRef spec0 1) = skip m c := KWalk.V1_main_arg1 m ρ c
  have a4 : V1 m ρ c (Pipeline.arrRef spec0 4) = Wx m c := KWalk.V1_main_arg6 m ρ c
  have a5 : V1 m ρ c (Pipeline.arrRef spec0 5) = bx2 m c := KWalk.V1_main_v1 m ρ c
  rw [a1, a4, a5] at e
  exact (congrFun (KWalk.W2_main_v10_2 m ρ c) (ix3 h 0 j)).trans e

theorem sumsq_x (c : Dev nD) (h : Fin 2) (j : Fin 64) :
    W2 m ρ c (Proc.devRef .tc main_v10_3) (ix3 h 0 j)
      = halfSum (fun n => lin (skip m c) (Wx m c) (bx2 m c) n j * lin (skip m c) (Wx m c) (bx2 m c) n j) h := by
  have e := Region0.arr9_apply (V1 m ρ) c h j
  have a1 : V1 m ρ c (Pipeline.arrRef spec0 1) = skip m c := KWalk.V1_main_arg1 m ρ c
  have a4 : V1 m ρ c (Pipeline.arrRef spec0 4) = Wx m c := KWalk.V1_main_arg6 m ρ c
  have a5 : V1 m ρ c (Pipeline.arrRef spec0 5) = bx2 m c := KWalk.V1_main_v1 m ρ c
  rw [a1, a4, a5] at e
  exact (congrFun (KWalk.W2_main_v10_3 m ρ c) (ix3 h 0 j)).trans e

/-! ## The scale and shift rows the host forms are the specification's rows -/

theorem sg_eq (c : Dev nD) :
    V3 m ρ c main_v26 = scaleRow (lin (gate m c) (Wg m c) (bg2 m c)) (γg2 m c) := by
  funext q
  obtain ⟨u, j, rfl⟩ : ∃ (u : Fin 1) (j : Fin 64), q = ix2 u j := ⟨q 0, q 1, eq_ix2 q⟩
  obtain rfl : u = 0 := Subsingleton.elim _ _
  rw [KWalk2.V3_v26, scaleOf_apply]
  simp only [sum_g m ρ c _ j, sumsq_g m ρ c _ j]
  rw [KWalk.W2_main_v2, KWalk.V1_main_v2]
  rfl

theorem tg_eq (c : Dev nD) :
    V3 m ρ c main_v28 = shiftRow (lin (gate m c) (Wg m c) (bg2 m c)) (γg2 m c) (βg2 m c) := by
  funext q
  obtain ⟨u, j, rfl⟩ : ∃ (u : Fin 1) (j : Fin 64), q = ix2 u j := ⟨q 0, q 1, eq_ix2 q⟩
  obtain rfl : u = 0 := Subsingleton.elim _ _
  rw [KWalk2.V3_v28, shiftOf_apply]
  simp only [sum_g m ρ c _ j, sumsq_g m ρ c _ j]
  rw [KWalk.W2_main_v2, KWalk.V1_main_v2, KWalk.W2_main_v3, KWalk.V1_main_v3]
  rfl

theorem sx_eq (c : Dev nD) :
    V3 m ρ c main_v40 = scaleRow (lin (skip m c) (Wx m c) (bx2 m c)) (γx2 m c) := by
  funext q
  obtain ⟨u, j, rfl⟩ : ∃ (u : Fin 1) (j : Fin 64), q = ix2 u j := ⟨q 0, q 1, eq_ix2 q⟩
  obtain rfl : u = 0 := Subsingleton.elim _ _
  rw [KWalk2.V3_v40, scaleOf_apply]
  simp only [sum_x m ρ c _ j, sumsq_x m ρ c _ j]
  rw [KWalk.W2_main_v4, KWalk.V1_main_v4]
  rfl

theorem tx_eq (c : Dev nD) :
    V3 m ρ c main_v42 = shiftRow (lin (skip m c) (Wx m c) (bx2 m c)) (γx2 m c) (βx2 m c) := by
  funext q
  obtain ⟨u, j, rfl⟩ : ∃ (u : Fin 1) (j : Fin 64), q = ix2 u j := ⟨q 0, q 1, eq_ix2 q⟩
  obtain rfl : u = 0 := Subsingleton.elim _ _
  rw [KWalk2.V3_v42, shiftOf_apply]
  simp only [sum_x m ρ c _ j, sumsq_x m ρ c _ j]
  rw [KWalk.W2_main_v4, KWalk.V1_main_v4, KWalk.W2_main_v5, KWalk.V1_main_v5]
  rfl

/-! ## What the second region reads -/

theorem in1_0 (c : Dev nD) : V3 m ρ c (Pipeline.arrRef spec1 0) = gate m c := KWalk.V3_arg0 m ρ c
theorem in1_1 (c : Dev nD) : V3 m ρ c (Pipeline.arrRef spec1 1) = skip m c := KWalk.V3_arg1 m ρ c
theorem in1_2 (c : Dev nD) : V3 m ρ c (Pipeline.arrRef spec1 2) = Wg m c := KWalk.V3_arg2 m ρ c
theorem in1_3 (c : Dev nD) : V3 m ρ c (Pipeline.arrRef spec1 3) = bg2 m c :=
  (KWalk.V3_main_v0 m ρ c).trans ((KWalk.W2_main_v0 m ρ c).trans (KWalk.V1_main_v0 m ρ c))
theorem in1_4 (c : Dev nD) : V3 m ρ c (Pipeline.arrRef spec1 4) = Wx m c := KWalk.V3_arg6 m ρ c
theorem in1_5 (c : Dev nD) : V3 m ρ c (Pipeline.arrRef spec1 5) = bx2 m c :=
  (KWalk.V3_main_v1 m ρ c).trans ((KWalk.W2_main_v1 m ρ c).trans (KWalk.V1_main_v1 m ρ c))
theorem in1_6 (c : Dev nD) : V3 m ρ c (Pipeline.arrRef spec1 6) = scaleRow (lin (gate m c) (Wg m c) (bg2 m c)) (γg2 m c) :=
  sg_eq m ρ c
theorem in1_7 (c : Dev nD) :
    V3 m ρ c (Pipeline.arrRef spec1 7) = shiftRow (lin (gate m c) (Wg m c) (bg2 m c)) (γg2 m c) (βg2 m c) := tg_eq m ρ c
theorem in1_8 (c : Dev nD) : V3 m ρ c (Pipeline.arrRef spec1 8) = scaleRow (lin (skip m c) (Wx m c) (bx2 m c)) (γx2 m c) :=
  sx_eq m ρ c
theorem in1_9 (c : Dev nD) :
    V3 m ρ c (Pipeline.arrRef spec1 9) = shiftRow (lin (skip m c) (Wx m c) (bx2 m c)) (γx2 m c) (βx2 m c) := tx_eq m ρ c
theorem in1_10 (c : Dev nD) : V3 m ρ c (Pipeline.arrRef spec1 10) = wT m c :=
  (KWalk.V3_main_v9 m ρ c).trans ((KWalk.W2_main_v9 m ρ c).trans (KWalk.V1_main_v9 m ρ c))
theorem in1_11 (c : Dev nD) : V3 m ρ c (Pipeline.arrRef spec1 11) = b2 m c :=
  (KWalk.V3_main_v6 m ρ c).trans ((KWalk.W2_main_v6 m ρ c).trans (KWalk.V1_main_v6 m ρ c))

/-! ## After the second region: the pre-activation column and its per-half sums -/

/-- The second region's three outputs, for ANY entry contents whose twelve input arrays are known. -/
theorem region1_of (V : (c : Dev nD) → (b : Ref sig .tc) → Buf (Elt Ideal) ((c : Thread nD τ).loc b)) (c : Dev nD)
    (x0 x1 : Mat 1000000 128) (x2 : Mat 128 64) (x3 : Mat 1 64) (x4 : Mat 128 64) (x5 x6 x7 x8 x9 x10 : Mat 1 64) (x11 : Mat 1 1)
    (h0 : V c (Pipeline.arrRef spec1 0) = x0)
    (h1 : V c (Pipeline.arrRef spec1 1) = x1)
    (h2 : V c (Pipeline.arrRef spec1 2) = x2)
    (h3 : V c (Pipeline.arrRef spec1 3) = x3)
    (h4 : V c (Pipeline.arrRef spec1 4) = x4)
    (h5 : V c (Pipeline.arrRef spec1 5) = x5)
    (h6 : V c (Pipeline.arrRef spec1 6) = x6)
    (h7 : V c (Pipeline.arrRef spec1 7) = x7)
    (h8 : V c (Pipeline.arrRef spec1 8) = x8)
    (h9 : V c (Pipeline.arrRef spec1 9) = x9)
    (h10 : V c (Pipeline.arrRef spec1 10) = x10)
    (h11 : V c (Pipeline.arrRef spec1 11) = x11) :
    (∀ n : Fin 1000000, (dat1 (F := Ideal) V c).arrAt 14 cfg1.N (ix2 n 0) = gatePre x0 x1 x2 x3 x4 x5 x6 x7 x8 x9 x10 x11 n)
    ∧ (∀ h : Fin 2, (dat1 (F := Ideal) V c).arrAt 12 cfg1.N (ix3 h 0 0) = halfSum (gatePre x0 x1 x2 x3 x4 x5 x6 x7 x8 x9 x10 x11) h)
    ∧ (∀ h : Fin 2, (dat1 (F := Ideal) V c).arrAt 13 cfg1.N (ix3 h 0 0)
        = halfSum (fun n => gatePre x0 x1 x2 x3 x4 x5 x6 x7 x8 x9 x10 x11 n * gatePre x0 x1 x2 x3 x4 x5 x6 x7 x8 x9 x10 x11 n) h) := by
  subst h0 h1 h2 h3 h4 h5 h6 h7 h8 h9 h10 h11
  exact ⟨Region1.arr14_apply V c, Region1.arr12_apply V c, Region1.arr13_apply V c⟩

theorem pre_eq (c : Dev nD) (n : Fin 1000000) :
    (dat1 (F := Ideal) (V3 m ρ) c).arrAt 14 cfg1.N (ix2 n 0) = kerPre (gate m c) (skip m c) (Wg m c) (bg2 m c) (γg2 m c) (βg2 m c) (Wx m c) (bx2 m c) (γx2 m c) (βx2 m c) (wT m c) (b2 m c) n :=
  (region1_of (V3 m ρ) c _ _ _ _ _ _ _ _ _ _ _ _ (in1_0 m ρ c) (in1_1 m ρ c) (in1_2 m ρ c) (in1_3 m ρ c) (in1_4 m ρ c) (in1_5 m ρ c) (in1_6 m ρ c) (in1_7 m ρ c) (in1_8 m ρ c) (in1_9 m ρ c) (in1_10 m ρ c) (in1_11 m ρ c)).1 n

theorem sum_p (c : Dev nD) (h : Fin 2) :
    W4 m ρ c (Proc.devRef .tc main_v43_0) (ix3 h 0 0) = halfSum (kerPre (gate m c) (skip m c) (Wg m c) (bg2 m c) (γg2 m c) (βg2 m c) (Wx m c) (bx2 m c) (γx2 m c) (βx2 m c) (wT m c) (b2 m c)) h :=
  (congrFun (KWalk.W4_main_v43_0 m ρ c) (ix3 h 0 0)).trans
    ((region1_of (V3 m ρ) c _ _ _ _ _ _ _ _ _ _ _ _ (in1_0 m ρ c) (in1_1 m ρ c) (in1_2 m ρ c) (in1_3 m ρ c) (in1_4 m ρ c) (in1_5 m ρ c) (in1_6 m ρ c) (in1_7 m ρ c) (in1_8 m ρ c) (in1_9 m ρ c) (in1_10 m ρ c) (in1_11 m ρ c)).2.1 h)

theorem sumsq_p (c : Dev nD) (h : Fin 2) :
    W4 m ρ c (Proc.devRef .tc main_v43_1) (ix3 h 0 0)
      = halfSum (fun n => kerPre (gate m c) (skip m c) (Wg m c) (bg2 m c) (γg2 m c) (βg2 m c) (Wx m c) (bx2 m c) (γx2 m c) (βx2 m c) (wT m c) (b2 m c) n * kerPre (gate m c) (skip m c) (Wg m c) (bg2 m c) (γg2 m c) (βg2 m c) (Wx m c) (bx2 m c) (γx2 m c) (βx2 m c) (wT m c) (b2 m c) n) h :=
  (congrFun (KWalk.W4_main_v43_1 m ρ c) (ix3 h 0 0)).trans
    ((region1_of (V3 m ρ) c _ _ _ _ _ _ _ _ _ _ _ _ (in1_0 m ρ c) (in1_1 m ρ c) (in1_2 m ρ c) (in1_3 m ρ c) (in1_4 m ρ c) (in1_5 m ρ c) (in1_6 m ρ c) (in1_7 m ρ c) (in1_8 m ρ c) (in1_9 m ρ c) (in1_10 m ρ c) (in1_11 m ρ c)).2.2 h)

/-! ## The last scale and shift -/

theorem γp_at (c : Dev nD) : W4 m ρ c (Proc.devRef .tc main_v7) = γp m c :=
  (KWalk.W4_main_v7 m ρ c).trans ((KWalk.V3_main_v7 m ρ c).trans ((KWalk.W2_main_v7 m ρ c).trans (KWalk.V1_main_v7 m ρ c)))
theorem βp_at (c : Dev nD) : W4 m ρ c (Proc.devRef .tc main_v8) = βp m c :=
  (KWalk.W4_main_v8 m ρ c).trans ((KWalk.V3_main_v8 m ρ c).trans ((KWalk.W2_main_v8 m ρ c).trans (KWalk.V1_main_v8 m ρ c)))

theorem sp_eq (c : Dev nD) :
    V5 m ρ c main_v57 (ix2 0 0)
      = scaleK (totalK (kerPre (gate m c) (skip m c) (Wg m c) (bg2 m c) (γg2 m c) (βg2 m c) (Wx m c) (bx2 m c) (γx2 m c) (βx2 m c) (wT m c) (b2 m c))) (totalK fun n => kerPre (gate m c) (skip m c) (Wg m c) (bg2 m c) (γg2 m c) (βg2 m c) (Wx m c) (bx2 m c) (γx2 m c) (βx2 m c) (wT m c) (b2 m c) n * kerPre (gate m c) (skip m c) (Wg m c) (bg2 m c) (γg2 m c) (βg2 m c) (Wx m c) (bx2 m c) (γx2 m c) (βx2 m c) (wT m c) (b2 m c) n) (γp m c (ix2 0 0)) := by
  rw [KWalk2.V5_v57, scaleOf1_apply]
  simp only [sum_p m ρ c _, sumsq_p m ρ c _]
  rw [γp_at]
  rfl

theorem tp_eq (c : Dev nD) :
    V5 m ρ c main_v59 (ix2 0 0)
      = shiftK (totalK (kerPre (gate m c) (skip m c) (Wg m c) (bg2 m c) (γg2 m c) (βg2 m c) (Wx m c) (bx2 m c) (γx2 m c) (βx2 m c) (wT m c) (b2 m c))) (totalK fun n => kerPre (gate m c) (skip m c) (Wg m c) (bg2 m c) (γg2 m c) (βg2 m c) (Wx m c) (bx2 m c) (γx2 m c) (βx2 m c) (wT m c) (b2 m c) n * kerPre (gate m c) (skip m c) (Wg m c) (bg2 m c) (γg2 m c) (βg2 m c) (Wx m c) (bx2 m c) (γx2 m c) (βx2 m c) (wT m c) (b2 m c) n) (γp m c (ix2 0 0))
          (βp m c (ix2 0 0)) := by
  rw [KWalk2.V5_v59, shiftOf1_apply]
  simp only [sum_p m ρ c _, sumsq_p m ρ c _]
  rw [γp_at, βp_at]
  rfl

/-! ## The result -/

theorem result_eq_rows (c : Dev nD) :
    W6 m ρ c (Proc.devRef .tc main_v60) = kerOut (gate m c) (skip m c) (Wg m c) (bg2 m c) (γg2 m c) (βg2 m c) (Wx m c) (bx2 m c) (γx2 m c) (βx2 m c) (wT m c) (b2 m c) (γp m c) (βp m c) := by
  have e := Region2.arr4 (V5 m ρ) c
  have a0 : V5 m ρ c (Pipeline.arrRef spec2 0) = skip m c := KWalk.V5_arg1 m ρ c
  have a1 : V5 m ρ c (Pipeline.arrRef spec2 1) = (dat1 (V3 m ρ) c).arrAt 14 cfg1.N :=
    (KWalk.V5_main_v43_2 m ρ c).trans (KWalk.W4_main_v43_2 m ρ c)
  rw [a0, a1] at e
  refine ((KWalk.W6_main_v60 m ρ c).trans e).trans ?_
  funext i
  have h2 : V5 m ρ c (Pipeline.arrRef spec2 2) (ix2 0 0) = _ := sp_eq m ρ c
  have h3 : V5 m ρ c (Pipeline.arrRef spec2 3) (ix2 0 0) = _ := tp_eq m ρ c
  unfold Region2.G kerOut
  rw [pre_eq m ρ c (i 0), h2, h3]

/-- The same, with the launch arrays and their re-laid forms written out. -/
theorem result_eq (c : Dev nD) :
    W6 m ρ c (Proc.devRef .tc main_v60)
      = Spec.kerOut (m ((c : Thread nD τ).loc main_arg0)) (m ((c : Thread nD τ).loc main_arg1)) (m ((c : Thread nD τ).loc main_arg2))
          (shapeCast S1x64 (m ((c : Thread nD τ).loc main_arg3)) shapeCasts_S64_S1x64)
          (shapeCast S1x64 (m ((c : Thread nD τ).loc main_arg4)) shapeCasts_S64_S1x64)
          (shapeCast S1x64 (m ((c : Thread nD τ).loc main_arg5)) shapeCasts_S64_S1x64)
          (m ((c : Thread nD τ).loc main_arg6))
          (shapeCast S1x64 (m ((c : Thread nD τ).loc main_arg7)) shapeCasts_S64_S1x64)
          (shapeCast S1x64 (m ((c : Thread nD τ).loc main_arg8)) shapeCasts_S64_S1x64)
          (shapeCast S1x64 (m ((c : Thread nD τ).loc main_arg9)) shapeCasts_S64_S1x64)
          (transpose S1x64 [1, 0] (m ((c : Thread nD τ).loc main_arg10)) transposes_S64x1_S1x64_1_0)
          (shapeCast S1x1 (m ((c : Thread nD τ).loc main_arg11)) shapeCasts_S1_S1x1)
          (shapeCast S1x1 (m ((c : Thread nD τ).loc main_arg12)) shapeCasts_S1_S1x1)
          (shapeCast S1x1 (m ((c : Thread nD τ).loc main_arg13)) shapeCasts_S1_S1x1) :=
  result_eq_rows m ρ c

end Cert.KernelIdeal.KValue

end
-- ==== Proof.PreReal.lean ====
/-
  From the precondition to real data.

  The precondition says, on every device, that fourteen tests "every |x| is below +∞" all hold: each test takes the
  absolute value of an argument array entry by entry, compares it with the word 0x7F800000 (which denotes +∞) and
  reduces the comparison bits by "and"; the fourteen results are joined by "and" and the outcome is 1.  An "and" that is 1
  had both operands 1; a reduction by "and" that is 1 met only 1s; and an extended real x with max(x, −x) < +∞ is neither
  −∞ nor +∞, so it is the coercion of a real number.  Hence every entry of every argument array is real.
-/
import proofs.«119614_j3375844294910_2_alg».proof.Defs
import proofs.«119614_j3375844294910_2_alg».proof.Proof.Gen.Pre_finite_inputs
import Idealize.ShloMosaic.Lib.ReduceAll
import Idealize.ShloMosaic.Lib.ValueIdx
import Idealize.ShloMosaic.PureOps.Ideal.Laws

noncomputable section

namespace Cert.PreReal

open Idealize.ShloMosaic Idealize.SL.Sem Idealize.ShloMosaic.ValueIdx

/-- The word 0x7F800000 (exponent all ones, fraction zero, sign plus) is +∞. -/
theorem inf_word : Ideal.ofBits .f32 0x7F800000#32 = ⊤ := by simp [Ideal.ofBits, Ideal.ieee]

/-- A comparison bit is 1 exactly when the comparison holds. -/
theorem ofBool_eq_one (b : Bool) : BitVec.ofBool b = 1#1 ↔ b = true := by cases b <;> decide

/-- An extended real whose absolute value max(x, −x) is below +∞ is a real number. -/
theorem real_of_abs_lt_top (x : EReal) (h : Ideal.cmp .olt (max x (-x)) ⊤ = 1#1) : ∃ r : ℝ, x = (r : EReal) := by
  unfold Ideal.cmp at h
  rw [ofBool_eq_one] at h
  have h' : max x (-x) < ⊤ := of_decide_eq_true h
  induction x using EReal.rec with
  | bot => exact absurd h' (by simp)
  | coe r => exact ⟨r, rfl⟩
  | top => exact absurd h' (by simp)

/-- The scalar shape has one index. -/
instance : Subsingleton (⟨0, ![]⟩ : Shape).Idx := ⟨fun a b => funext fun d => d.elim0⟩

/-- One test: if the reduction by "and" of the bits |x| < +∞ is 1 then every entry of x is real. -/
theorem all_finite_real {s : Shape} {axes : List (Fin s.rank)} (x : FVec Ideal s .f32)
    (hb : (⟨0, ![]⟩ : Shape).BroadcastsInDim s (![] : Fin 0 → Fin s.rank)) (init : IVec ⟨0, ![]⟩ 1)
    (hr : s.ReducesTo axes ⟨0, ![]⟩) (hu : 0 < (⟨0, ![]⟩ : Shape).numel)
    (e : Host.reduce IntOp.andi
        (cmpf .olt (Host.absf x) (broadcastInDim s ![] hb (constant ⟨0, ![]⟩ .f32 0x7F800000#32))) init hr hu ix0 = 1#1)
    (i : s.Idx) : ∃ r : ℝ, x i = (r : EReal) := by
  have h1 := Host.reduce_andi_all _ init hr hu ix0 e i
  refine real_of_abs_lt_top (x i) ?_
  rw [← inf_word]
  exact h1

/-- The precondition gives: on every device every entry of each of the fourteen argument arrays is real. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ (∀ i, ∃ r : ℝ, m ((c.tc : Thread Cert.KernelIdeal.nD Cert.KernelIdeal.τ).loc Cert.KernelIdeal.main_arg12) i = (r : EReal))
      ∧ (∀ i, ∃ r : ℝ, m ((c.tc : Thread Cert.KernelIdeal.nD Cert.KernelIdeal.τ).loc Cert.KernelIdeal.main_arg13) i = (r : EReal)) := by
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Idealize.ShloMosaic.andi] at e
  simp only [IntOp.andi_eq_one] at e
  obtain ⟨⟨⟨⟨⟨⟨⟨⟨⟨⟨⟨⟨⟨h0, h1⟩, h2⟩, h3⟩, h4⟩, h5⟩, h6⟩, h7⟩, h8⟩, h9⟩, h10⟩, h11⟩, h12⟩, h13⟩ := e
  exact ⟨all_finite_real _ _ _ _ _ h0, all_finite_real _ _ _ _ _ h1, all_finite_real _ _ _ _ _ h2,
    all_finite_real _ _ _ _ _ h3, all_finite_real _ _ _ _ _ h4, all_finite_real _ _ _ _ _ h5,
    all_finite_real _ _ _ _ _ h6, all_finite_real _ _ _ _ _ h7, all_finite_real _ _ _ _ _ h8,
    all_finite_real _ _ _ _ _ h9, all_finite_real _ _ _ _ _ h10, all_finite_real _ _ _ _ _ h11,
    all_finite_real _ _ _ _ _ h12, all_finite_real _ _ _ _ _ h13⟩

end Cert.PreReal

end
-- ==== Proof.LibBatchNorm.lean ====
/-
  General facts for a per-column normalisation stated over the extended reals.

  * The coercion of the reals into the extended reals commutes with finite sums.
  * For finitely many reals y i with n = the number of them and m = (∑ y) / n, the mean of the squared
    deviations (∑ (y i − m)²) / n equals the mean of the squares minus the squared mean, (∑ y i²) / n − m².
    Division is spelled as multiplication by 1 / n, the form a division by a nonzero real takes on the
    extended reals.
  * The mean of the squared deviations is nonnegative.
  * The reciprocal square root of a positive real is a real.
-/
import Idealize.ShloMosaic.PureOps.Ideal

namespace Cert.LibBatchNorm

open Idealize.ShloMosaic
open scoped BigOperators

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The mean of the squared deviations from the mean is the mean of the squares minus the squared mean:
    with m = (∑ y) · (1/n) and n the number of terms, (∑ (y i − m)²) · (1/n) = (∑ y i²) · (1/n) − m². -/
theorem mean_sq_dev {ι : Type*} [Fintype ι] (y : ι → ℝ) (n : ℝ) (hn : n ≠ 0)
    (hcard : (Fintype.card ι : ℝ) = n) :
    (∑ i, (y i - (∑ j, y j) * (1 / n)) * (y i - (∑ j, y j) * (1 / n))) * (1 / n)
      = (∑ i, y i * y i) * (1 / n) - ((∑ j, y j) * (1 / n)) * ((∑ j, y j) * (1 / n)) := by
  generalize hm : (∑ j, y j) * (1 / n) = m
  have h1 : ∑ i, (y i - m) * (y i - m) = (∑ i, y i * y i) - 2 * m * (∑ i, y i) + n * (m * m) := by
    have h : ∀ i, (y i - m) * (y i - m) = y i * y i - 2 * m * y i + m * m := fun i => by ring
    simp only [h, Finset.sum_add_distrib, Finset.sum_sub_distrib, ← Finset.mul_sum, Finset.sum_const,
      Finset.card_univ, nsmul_eq_mul, hcard]
    ring
  rw [h1, ← hm]
  field_simp
  ring

/-- The mean of the squared deviations is nonnegative when the divisor is positive. -/
theorem mean_sq_dev_nonneg {ι : Type*} [Fintype ι] (y : ι → ℝ) (m n : ℝ) (hn : 0 < n) :
    0 ≤ (∑ i, (y i - m) * (y i - m)) * (1 / n) :=
  mul_nonneg (Finset.sum_nonneg fun i _ => mul_self_nonneg _) (by positivity)

/-- The reciprocal square root of a positive real is the real 1 / √r. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

end Cert.LibBatchNorm
-- ==== Proof.NormForms.lean ====
/-
  Two spellings of a per-column normalisation agree on real data.

  One spelling takes the column's sum and sum of squares first and sends an entry h to h · s + (β − m · s), with
  m = S₁ / N, v = max(S₂ / N − m², 0), s = γ · rsqrt(v + ε).  The other takes the mean first, then the mean of the squared
  deviations v' = (Σ (h − m)²) / N, and sends h to (h − m) · (γ · rsqrt(v' + ε)) + β.  On real data S₂ / N − m² = v' ≥ 0,
  so the clamp is the identity, v = v', and the two results differ by the ring identity h·s + (β − m·s) = (h − m)·s + β.
  Every quantity on the way is a real number, so the extended reals' corner cases never arise.
-/
import proofs.«119614_j3375844294910_2_alg».proof.Proof.Spec
import proofs.«119614_j3375844294910_2_alg».proof.Proof.LibBatchNorm
import Idealize.ShloMosaic.PureOps.Ideal.Laws
import Idealize.ShloMosaic.Lib.IdealHost

noncomputable section

namespace Cert.NormForms

open Cert.Spec Cert.LibBatchNorm
open Idealize.ShloMosaic Idealize.ShloMosaic.ValueIdx
open scoped BigOperators

/-! ## The four float words -/

/-- The word 0x00000000 is zero. -/
theorem zeroW_eq : zeroW = 0 := Ideal.ofBits_zero_f32

/-- The word 0x3F800000 is one. -/
theorem oneW_eq : oneW = 1 := Ideal.ofBits_one_f32

/-- The word 0x49742400 (exponent 146, fraction 7611392) is 2¹⁹ · (1 + 7611392 / 2²³) = 10⁶. -/
theorem countW_eq : countW = ((1000000 : ℝ) : EReal) := by
  unfold countW
  simp [Ideal.ofBits, Ideal.ieee, -EReal.coe_mul]; norm_num

/-- The word 0x3727C5AC (exponent 110, fraction 2606508) is the positive real (2²³ + 2606508) · 2⁻⁴⁰. -/
theorem epsW_pos : ∃ e : ℝ, 0 < e ∧ epsW = (e : EReal) := by
  unfold epsW
  simp [Ideal.ofBits, Ideal.ieee, -EReal.coe_mul]

/-! ## Real data -/

/-- An extended real is real when it is the coercion of a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_add {x y : EReal} (hx : IsReal x) (hy : IsReal y) : IsReal (x + y) := by
  obtain ⟨a, rfl⟩ := hx; obtain ⟨b, rfl⟩ := hy; exact ⟨a + b, (EReal.coe_add a b).symm⟩
theorem isReal_mul {x y : EReal} (hx : IsReal x) (hy : IsReal y) : IsReal (x * y) := by
  obtain ⟨a, rfl⟩ := hx; obtain ⟨b, rfl⟩ := hy; exact ⟨a * b, (EReal.coe_mul a b).symm⟩
theorem isReal_max {x y : EReal} (hx : IsReal x) (hy : IsReal y) : IsReal (max x y) := by
  rcases max_choice x y with h | h <;> rw [h] <;> assumption
theorem isReal_sum {ι : Type*} (s : Finset ι) (f : ι → EReal) (hf : ∀ i, IsReal (f i)) : IsReal (∑ i ∈ s, f i) := by
  choose g hg using hf
  refine ⟨∑ i ∈ s, g i, ?_⟩
  rw [coe_sum]
  exact Finset.sum_congr rfl fun i _ => hg i

/-! ## The moments of a real column -/

/-- The column sum as the first program forms it is the coercion of the real sum over all the rows. -/
theorem totalK_coe (y : Fin 1000000 → ℝ) : totalK (fun n => (y n : EReal)) = ((∑ n, y n : ℝ) : EReal) := by
  unfold totalK
  rw [sum_halves, zeroW_eq, zero_add, coe_sum]

/-- The same for the sum of squares. -/
theorem totalK_sq_coe (y : Fin 1000000 → ℝ) :
    totalK (fun n => (y n : EReal) * (y n : EReal)) = ((∑ n, y n * y n : ℝ) : EReal) := by
  have h : (fun n => (y n : EReal) * (y n : EReal)) = fun n => ((y n * y n : ℝ) : EReal) :=
    funext fun n => (EReal.coe_mul _ _).symm
  rw [h, totalK_coe]

/-- Division of a real by the row count is multiplication by the real 1 / 10⁶. -/
theorem div_count_coe (S : ℝ) : Ideal.div (S : EReal) countW = ((S * (1 / 1000000) : ℝ) : EReal) := by
  rw [countW_eq, Ideal.div_coe (by norm_num), ← EReal.coe_mul]

theorem meanK_coe (S : ℝ) : meanK (S : EReal) = ((S * (1 / 1000000) : ℝ) : EReal) := by
  unfold meanK; exact div_count_coe S

/-- When the mean of squares minus the squared mean is nonnegative the clamp at zero is the identity. -/
theorem varK_coe (S1 S2 : ℝ)
    (hnn : 0 ≤ S2 * (1 / 1000000) - (S1 * (1 / 1000000)) * (S1 * (1 / 1000000))) :
    varK (S1 : EReal) (S2 : EReal)
      = ((S2 * (1 / 1000000) - (S1 * (1 / 1000000)) * (S1 * (1 / 1000000)) : ℝ) : EReal) := by
  unfold varK
  rw [meanK_coe, div_count_coe, ← EReal.coe_mul, ← EReal.coe_sub, zeroW_eq, ← EReal.coe_zero]
  exact max_eq_left (EReal.coe_le_coe_iff.mpr hnn)

/-- The mean of a real column. -/
def colMean (y : Fin 1000000 → ℝ) : ℝ := (∑ k, y k) * (1 / 1000000)
/-- The mean of the squared deviations of a real column from its mean. -/
def colVar (y : Fin 1000000 → ℝ) : ℝ := (∑ k, (y k - colMean y) * (y k - colMean y)) * (1 / 1000000)

/-- The second spelling's mean of a real column. -/
theorem meanR_coe (y : Fin 1000000 → ℝ) : meanR (fun n => (y n : EReal)) = (colMean y : EReal) := by
  unfold colMean
  unfold meanR
  rw [zeroW_eq, zero_add, ← coe_sum, div_count_coe]

/-- The sum of the squared deviations of a real column from a real number is real. -/
theorem sum_sq_dev_coe (y : Fin 1000000 → ℝ) (m : ℝ) :
    (∑ n, ((y n : EReal) - (m : EReal)) * ((y n : EReal) - (m : EReal))) = ((∑ n, (y n - m) * (y n - m) : ℝ) : EReal) := by
  rw [coe_sum]
  exact Finset.sum_congr rfl fun n _ => by rw [← EReal.coe_sub, ← EReal.coe_mul]

/-- The second spelling's variance of a real column: the mean of the squared deviations. -/
theorem varR_coe (y : Fin 1000000 → ℝ) : varR (fun n => (y n : EReal)) = (colVar y : EReal) := by
  unfold varR colVar
  rw [meanR_coe, zeroW_eq, zero_add]
  rw [sum_sq_dev_coe, div_count_coe]

/-- The number of rows, as a real. -/
theorem card_rows : (Fintype.card (Fin 1000000) : ℝ) = 1000000 := by
  rw [Fintype.card_fin]; norm_num

/-- The mean of the squared deviations is nonnegative. -/
theorem colVar_nonneg (y : Fin 1000000 → ℝ) : 0 ≤ colVar y :=
  mean_sq_dev_nonneg y (colMean y) 1000000 (by norm_num)

/-- The mean of the squared deviations is the mean of the squares minus the squared mean. -/
theorem colVar_eq (y : Fin 1000000 → ℝ) :
    colVar y = (∑ k, y k * y k) * (1 / 1000000) - ((∑ k, y k) * (1 / 1000000)) * ((∑ k, y k) * (1 / 1000000)) :=
  mean_sq_dev y 1000000 (by norm_num) card_rows

/-- The first spelling's clamped variance of a real column is the mean of the squared deviations. -/
theorem varK_col (y : Fin 1000000 → ℝ) :
    varK ((∑ k, y k : ℝ) : EReal) ((∑ k, y k * y k : ℝ) : EReal) = (colVar y : EReal) := by
  have h := colVar_eq y
  rw [varK_coe _ _ (h ▸ colVar_nonneg y), ← h]

/-- The scale both spellings use, on a real column with a real γ. -/
theorem scaleK_col (y : Fin 1000000 → ℝ) (g e : ℝ) (he : 0 < e) (hE : epsW = (e : EReal)) :
    scaleK ((∑ k, y k : ℝ) : EReal) ((∑ k, y k * y k : ℝ) : EReal) (g : EReal)
      = ((g * (Real.sqrt (colVar y + e))⁻¹ : ℝ) : EReal) := by
  unfold scaleK
  rw [varK_col, hE, ← EReal.coe_add, rsqrt_coe_pos (add_pos_of_nonneg_of_pos (colVar_nonneg y) he), ← EReal.coe_mul]

/-- The first spelling's shift, on a real column with real γ and β. -/
theorem shiftK_col (y : Fin 1000000 → ℝ) (g b e : ℝ) (he : 0 < e) (hE : epsW = (e : EReal)) :
    shiftK ((∑ k, y k : ℝ) : EReal) ((∑ k, y k * y k : ℝ) : EReal) (g : EReal) (b : EReal)
      = ((b - colMean y * (g * (Real.sqrt (colVar y + e))⁻¹) : ℝ) : EReal) := by
  unfold shiftK
  rw [scaleK_col y g e he hE, meanK_coe, ← EReal.coe_mul, ← EReal.coe_sub]
  rfl

/-- The second spelling's result, on a real column with real γ and β. -/
theorem normR_col (y : Fin 1000000 → ℝ) (g b e : ℝ) (he : 0 < e) (hE : epsW = (e : EReal)) (n : Fin 1000000) :
    normR (fun n => (y n : EReal)) (g : EReal) (b : EReal) n
      = (((y n - colMean y) * (g * (Real.sqrt (colVar y + e))⁻¹) + b : ℝ) : EReal) := by
  unfold normR
  rw [meanR_coe, varR_coe, hE, ← EReal.coe_add, rsqrt_coe_pos (add_pos_of_nonneg_of_pos (colVar_nonneg y) he),
    ← EReal.coe_sub, ← EReal.coe_mul, ← EReal.coe_mul, ← EReal.coe_add]

/-- The two spellings of the normalisation agree on a real column with real γ and β:
    h · s + (β − m · s) = (h − m) · s + β. -/
theorem norm_two_spellings (h : Fin 1000000 → EReal) (hh : ∀ n, ∃ r : ℝ, h n = (r : EReal)) (γ β : EReal)
    (hγ : ∃ r : ℝ, γ = r) (hβ : ∃ r : ℝ, β = r) (n : Fin 1000000) :
    h n * scaleK (totalK h) (totalK fun n => h n * h n) γ + shiftK (totalK h) (totalK fun n => h n * h n) γ β
      = normR h γ β n := by
  obtain ⟨e, he, hE⟩ := epsW_pos
  choose y hy using hh
  obtain ⟨g, rfl⟩ := hγ
  obtain ⟨b, rfl⟩ := hβ
  rw [show h = (fun n => (y n : EReal)) from funext hy]
  rw [totalK_coe, totalK_sq_coe, scaleK_col y g e he hE, shiftK_col y g b e he hE, normR_col y g b e he hE n,
    ← EReal.coe_mul, ← EReal.coe_add]
  exact congrArg (fun r : ℝ => (r : EReal)) (by ring)

/-- The common value is real. -/
theorem normR_isReal (h : Fin 1000000 → EReal) (hh : ∀ n, ∃ r : ℝ, h n = (r : EReal)) (γ β : EReal)
    (hγ : ∃ r : ℝ, γ = r) (hβ : ∃ r : ℝ, β = r) (n : Fin 1000000) : ∃ r : ℝ, normR h γ β n = (r : EReal) := by
  obtain ⟨e, he, hE⟩ := epsW_pos
  choose y hy using hh
  obtain ⟨g, rfl⟩ := hγ
  obtain ⟨b, rfl⟩ := hβ
  rw [show h = (fun n => (y n : EReal)) from funext hy]
  exact ⟨_, normR_col y g b e he hE n⟩

/-! ## The layers on real data -/

/-- A dense layer with a vector bias is real on real data: a finite sum of products of reals plus a real. -/
theorem linV_isReal (x : Mat 1000000 128) (W : Mat 128 64) (b : Vc 64) (hx : ∀ i, ∃ r : ℝ, x i = (r : EReal))
    (hW : ∀ i, ∃ r : ℝ, W i = (r : EReal)) (hb : ∀ i, ∃ r : ℝ, b i = (r : EReal)) (n : Fin 1000000) (j : Fin 64) :
    ∃ r : ℝ, linV x W b n j = (r : EReal) :=
  isReal_add (isReal_sum _ _ fun k => isReal_mul (hx _) (hW _)) (hb _)

/-- A dense layer with a row bias is real on real data. -/
theorem lin_isReal (x : Mat 1000000 128) (W : Mat 128 64) (b : Mat 1 64) (hx : ∀ i, ∃ r : ℝ, x i = (r : EReal))
    (hW : ∀ i, ∃ r : ℝ, W i = (r : EReal)) (hb : ∀ i, ∃ r : ℝ, b i = (r : EReal)) (n : Fin 1000000) (j : Fin 64) :
    ∃ r : ℝ, lin x W b n j = (r : EReal) :=
  isReal_add (isReal_sum _ _ fun k => isReal_mul (hx _) (hW _)) (hb _)

/-- The two dense layers agree when the row bias holds the vector bias. -/
theorem lin_eq_linV (x : Mat 1000000 128) (W : Mat 128 64) (b2 : Mat 1 64) (b : Vc 64)
    (eb : ∀ j : Fin 64, b2 (ix2 0 j) = b (ix1 j)) : lin x W b2 = linV x W b := by
  funext n j
  unfold lin linV
  rw [eb]

/-- One channel of one dense layer: scaling and shifting by the rows computed from the layer's own moments is the
    two-pass normalisation of that channel. -/
theorem chan_norm (x : Mat 1000000 128) (W : Mat 128 64) (b2 γ2 β2 : Mat 1 64) (b γ β : Vc 64)
    (hx : ∀ i, ∃ r : ℝ, x i = (r : EReal)) (hW : ∀ i, ∃ r : ℝ, W i = (r : EReal))
    (hb : ∀ i, ∃ r : ℝ, b i = (r : EReal)) (hγ : ∀ i, ∃ r : ℝ, γ i = (r : EReal)) (hβ : ∀ i, ∃ r : ℝ, β i = (r : EReal))
    (eb : ∀ j : Fin 64, b2 (ix2 0 j) = b (ix1 j)) (eγ : ∀ j : Fin 64, γ2 (ix2 0 j) = γ (ix1 j))
    (eβ : ∀ j : Fin 64, β2 (ix2 0 j) = β (ix1 j)) (n : Fin 1000000) (j : Fin 64) :
    lin x W b2 n j * scaleRow (lin x W b2) γ2 (ix2 0 j) + shiftRow (lin x W b2) γ2 β2 (ix2 0 j)
      = normR (fun n' => linV x W b n' j) (γ (ix1 j)) (β (ix1 j)) n := by
  rw [lin_eq_linV x W b2 b eb]
  show linV x W b n j * scaleK (totalK fun n' => linV x W b n' j)
        (totalK fun n' => linV x W b n' j * linV x W b n' j) (γ2 (ix2 0 j))
      + shiftK (totalK fun n' => linV x W b n' j) (totalK fun n' => linV x W b n' j * linV x W b n' j)
        (γ2 (ix2 0 j)) (β2 (ix2 0 j)) = _
  rw [eγ, eβ]
  exact norm_two_spellings (fun n' => linV x W b n' j) (fun n' => linV_isReal x W b hx hW hb n' j) _ _ (hγ _) (hβ _) n

/-! ## The two result functions -/

section Main

variable (gate skip : Mat 1000000 128) (Wg Wx : Mat 128 64) (bg γg βg bx γx βx : Vc 64) (Wpsi : Mat 64 1)
  (bpsi γpsi βpsi : Vc 1) (bg2 γg2 βg2 bx2 γx2 βx2 w : Mat 1 64) (b2 γp βp : Mat 1 1)

/-- The second program's gate pre-activation is real on real data. -/
theorem gatePreR_isReal
    (hgate : ∀ i, ∃ r : ℝ, gate i = (r : EReal)) (hskip : ∀ i, ∃ r : ℝ, skip i = (r : EReal))
    (hWg : ∀ i, ∃ r : ℝ, Wg i = (r : EReal)) (hbg : ∀ i, ∃ r : ℝ, bg i = (r : EReal))
    (hγg : ∀ i, ∃ r : ℝ, γg i = (r : EReal)) (hβg : ∀ i, ∃ r : ℝ, βg i = (r : EReal))
    (hWx : ∀ i, ∃ r : ℝ, Wx i = (r : EReal)) (hbx : ∀ i, ∃ r : ℝ, bx i = (r : EReal))
    (hγx : ∀ i, ∃ r : ℝ, γx i = (r : EReal)) (hβx : ∀ i, ∃ r : ℝ, βx i = (r : EReal))
    (hWpsi : ∀ i, ∃ r : ℝ, Wpsi i = (r : EReal)) (hbpsi : ∀ i, ∃ r : ℝ, bpsi i = (r : EReal)) (n : Fin 1000000) :
    ∃ r : ℝ, gatePreR gate skip Wg bg γg βg Wx bx γx βx Wpsi bpsi n = (r : EReal) := by
  unfold gatePreR
  refine isReal_add (isReal_sum _ _ fun j => isReal_mul (isReal_max (isReal_add ?_ ?_) ?_) (hWpsi _)) (hbpsi _)
  · exact normR_isReal _ (fun n' => linV_isReal gate Wg bg hgate hWg hbg n' j) _ _ (hγg _) (hβg _) n
  · exact normR_isReal _ (fun n' => linV_isReal skip Wx bx hskip hWx hbx n' j) _ _ (hγx _) (hβx _) n
  · rw [zeroW_eq]; exact isReal_zero

/-- The first program's gate pre-activation is the second's, row by row. -/
theorem kerPre_eq_gatePreR
    (hgate : ∀ i, ∃ r : ℝ, gate i = (r : EReal)) (hskip : ∀ i, ∃ r : ℝ, skip i = (r : EReal))
    (hWg : ∀ i, ∃ r : ℝ, Wg i = (r : EReal)) (hbg : ∀ i, ∃ r : ℝ, bg i = (r : EReal))
    (hγg : ∀ i, ∃ r : ℝ, γg i = (r : EReal)) (hβg : ∀ i, ∃ r : ℝ, βg i = (r : EReal))
    (hWx : ∀ i, ∃ r : ℝ, Wx i = (r : EReal)) (hbx : ∀ i, ∃ r : ℝ, bx i = (r : EReal))
    (hγx : ∀ i, ∃ r : ℝ, γx i = (r : EReal)) (hβx : ∀ i, ∃ r : ℝ, βx i = (r : EReal))
    (ebg : ∀ j : Fin 64, bg2 (ix2 0 j) = bg (ix1 j)) (eγg : ∀ j : Fin 64, γg2 (ix2 0 j) = γg (ix1 j))
    (eβg : ∀ j : Fin 64, βg2 (ix2 0 j) = βg (ix1 j)) (ebx : ∀ j : Fin 64, bx2 (ix2 0 j) = bx (ix1 j))
    (eγx : ∀ j : Fin 64, γx2 (ix2 0 j) = γx (ix1 j)) (eβx : ∀ j : Fin 64, βx2 (ix2 0 j) = βx (ix1 j))
    (ew : ∀ j : Fin 64, w (ix2 0 j) = Wpsi (ix2 j 0)) (eb : b2 (ix2 0 0) = bpsi (ix1 0)) (n : Fin 1000000) :
    kerPre gate skip Wg bg2 γg2 βg2 Wx bx2 γx2 βx2 w b2 n = gatePreR gate skip Wg bg γg βg Wx bx γx βx Wpsi bpsi n := by
  unfold kerPre gatePre gatePreR
  refine congrArg₂ (· + ·) (Finset.sum_congr rfl fun j _ => ?_) eb
  rw [chan_norm gate Wg bg2 γg2 βg2 bg γg βg hgate hWg hbg hγg hβg ebg eγg eβg n j,
    chan_norm skip Wx bx2 γx2 βx2 bx γx βx hskip hWx hbx hγx hβx ebx eγx eβx n j, ew j, zeroW_eq]

/-- On real data, with every per-channel row holding the matching vector, the two programs' result functions are equal. -/
theorem kerOut_eq_refOut
    (hgate : ∀ i, ∃ r : ℝ, gate i = (r : EReal)) (hskip : ∀ i, ∃ r : ℝ, skip i = (r : EReal))
    (hWg : ∀ i, ∃ r : ℝ, Wg i = (r : EReal)) (hbg : ∀ i, ∃ r : ℝ, bg i = (r : EReal))
    (hγg : ∀ i, ∃ r : ℝ, γg i = (r : EReal)) (hβg : ∀ i, ∃ r : ℝ, βg i = (r : EReal))
    (hWx : ∀ i, ∃ r : ℝ, Wx i = (r : EReal)) (hbx : ∀ i, ∃ r : ℝ, bx i = (r : EReal))
    (hγx : ∀ i, ∃ r : ℝ, γx i = (r : EReal)) (hβx : ∀ i, ∃ r : ℝ, βx i = (r : EReal))
    (hWpsi : ∀ i, ∃ r : ℝ, Wpsi i = (r : EReal)) (hbpsi : ∀ i, ∃ r : ℝ, bpsi i = (r : EReal))
    (hγpsi : ∀ i, ∃ r : ℝ, γpsi i = (r : EReal)) (hβpsi : ∀ i, ∃ r : ℝ, βpsi i = (r : EReal))
    (ebg : ∀ j : Fin 64, bg2 (ix2 0 j) = bg (ix1 j)) (eγg : ∀ j : Fin 64, γg2 (ix2 0 j) = γg (ix1 j))
    (eβg : ∀ j : Fin 64, βg2 (ix2 0 j) = βg (ix1 j)) (ebx : ∀ j : Fin 64, bx2 (ix2 0 j) = bx (ix1 j))
    (eγx : ∀ j : Fin 64, γx2 (ix2 0 j) = γx (ix1 j)) (eβx : ∀ j : Fin 64, βx2 (ix2 0 j) = βx (ix1 j))
    (ew : ∀ j : Fin 64, w (ix2 0 j) = Wpsi (ix2 j 0)) (eb : b2 (ix2 0 0) = bpsi (ix1 0))
    (eγp : γp (ix2 0 0) = γpsi (ix1 0)) (eβp : βp (ix2 0 0) = βpsi (ix1 0)) :
    kerOut gate skip Wg bg2 γg2 βg2 Wx bx2 γx2 βx2 w b2 γp βp
      = refOut gate skip Wg bg γg βg Wx bx γx βx Wpsi bpsi γpsi βpsi := by
  funext i
  have hpre : kerPre gate skip Wg bg2 γg2 βg2 Wx bx2 γx2 βx2 w b2
      = gatePreR gate skip Wg bg γg βg Wx bx γx βx Wpsi bpsi :=
    funext fun n => kerPre_eq_gatePreR gate skip Wg Wx bg γg βg bx γx βx Wpsi bpsi bg2 γg2 βg2 bx2 γx2 βx2 w b2
      hgate hskip hWg hbg hγg hβg hWx hbx hγx hβx ebg eγg eβg ebx eγx eβx ew eb n
  unfold kerOut refOut
  rw [hpre, eγp, eβp, oneW_eq,
    norm_two_spellings (gatePreR gate skip Wg bg γg βg Wx bx γx βx Wpsi bpsi)
      (fun n => gatePreR_isReal gate skip Wg Wx bg γg βg bx γx βx Wpsi bpsi
        hgate hskip hWg hbg hγg hβg hWx hbx hγx hβx hWpsi hbpsi n) _ _ (hγpsi _) (hβpsi _) (i 0)]
  rfl

end Main

end Cert.NormForms

end
-- ==== Proof.RefStages.lean ====
/-
  The reference's stages read at an index.

  Each dense layer h[n,j] = (Σₖ x[n,k] · W[k,j]) + b[j] is normalised column by column in two passes:
  mean[j] = (0 + Σₙ h[n,j]) / N, variance[j] = (0 + Σₙ (h[n,j] − mean[j])²) / N, and the entry becomes
  (h[n,j] − mean[j]) · (γ[j] · rsqrt(variance[j] + ε)) + β[j].  The two normalised layers are added and rectified,
  contracted with the projection column and shifted by its bias; that single column is normalised in the same
  two passes, sent through 1 / (1 + exp(−·)), and multiplies every entry of the matching row of the second input.
  The lemmas below read one stage after another at an index given by its literal coordinates, in program order,
  each resting on the earlier ones; a sum over the rows is carried along as a sum and never expanded.
-/
import proofs.«119614_j3375844294910_2_alg».proof.Proof.Gen.ReferenceIdeal.Read
import proofs.«119614_j3375844294910_2_alg».proof.Proof.Spec
import Idealize.ShloMosaic.Lib.ValueIdx
import Idealize.ShloMosaic.PureOps.Ideal

noncomputable section

namespace Cert.RefStages

open Cert.ReferenceIdeal Cert.ReferenceIdeal.Gen Idealize.ShloMosaic Idealize.ShloMosaic.ValueIdx Cert.Spec
open scoped BigOperators

/-- Entry (n, j) of the first dense layer. -/
theorem v3_at (x0 : Mat 1000000 128) (x2 : Mat 128 64) (x3 : Vc 64) (n : Fin 1000000) (j : Fin 64) :
    Read.val_main_v3 (F := Ideal) x0 x2 x3 (ix2 n j) = linV x0 x2 x3 n j := by
  rw [Read.val_main_v3_apply, Read.val_main_v0_apply, Read.val_main_v2_apply, Read.val_main_v1_apply]
  have e1 : ∀ k, Read.lidx_main_v0 (ix2 n j) k = ix2 n k := fun k => funext fun a => by
    match a with | ⟨0, _⟩ => rfl | ⟨1, _⟩ => rfl
  have e2 : ∀ k, Read.ridx_main_v0 (ix2 n j) k = ix2 k j := fun k => funext fun a => by
    match a with | ⟨0, _⟩ => rfl | ⟨1, _⟩ => rfl
  have e3 : Read.idx_main_v1 (Read.idx_main_v2 (ix2 n j)) = ix1 j := funext fun a => by
    match a with | ⟨0, _⟩ => rfl
  simp only [e1, e2, e3, Ideal.addf_def]
  rfl

/-- The column sum of the first dense layer. -/
theorem v4_at (x0 : Mat 1000000 128) (x2 : Mat 128 64) (x3 : Vc 64) (j : Fin 64) :
    Read.val_main_v4 (F := Ideal) x0 x2 x3 (ix1 j) = zeroW + ∑ n : Fin 1000000, linV x0 x2 x3 n j := by
  rw [Read.val_main_v4_apply, Read.val_main_cst_apply]
  have e1 : ∀ k, Read.idx_main_v4 (ix1 j) k = ix2 k j := fun k => funext fun a => by
    match a with | ⟨0, _⟩ => rfl | ⟨1, _⟩ => rfl
  simp only [e1, v3_at, Ideal.ofBits_def]
  rfl

/-- The column mean of the first dense layer. -/
theorem v6_at (x0 : Mat 1000000 128) (x2 : Mat 128 64) (x3 : Vc 64) (j : Fin 64) :
    Read.val_main_v6 (F := Ideal) x0 x2 x3 (ix1 j) = meanR (fun n' => linV x0 x2 x3 n' j) := by
  rw [Read.val_main_v6_apply, v4_at, Read.val_main_v5_apply, Read.val_main_cst_0_apply]
  simp only [Ideal.hostDivf_def, Ideal.ofBits_def]
  rfl

/-- An entry of the first dense layer less its column mean (the copy used by the variance). -/
theorem v9_at (x0 : Mat 1000000 128) (x2 : Mat 128 64) (x3 : Vc 64) (n : Fin 1000000) (j : Fin 64) :
    Read.val_main_v9 (F := Ideal) x0 x2 x3 (ix2 n j)
      = linV x0 x2 x3 n j - meanR (fun n' => linV x0 x2 x3 n' j) := by
  rw [Read.val_main_v9_apply, v3_at, Read.val_main_v8_apply, Read.val_main_v7_apply]
  have e1 : Read.idx_main_v7 (Read.idx_main_v8 (ix2 n j)) = ix1 j := funext fun a => by
    match a with | ⟨0, _⟩ => rfl
  rw [e1, v6_at]
  rfl

/-- The column's sum of squared deviations, for the first dense layer. -/
theorem v11_at (x0 : Mat 1000000 128) (x2 : Mat 128 64) (x3 : Vc 64) (j : Fin 64) :
    Read.val_main_v11 (F := Ideal) x0 x2 x3 (ix1 j)
      = zeroW + ∑ n : Fin 1000000, (linV x0 x2 x3 n j - meanR (fun n' => linV x0 x2 x3 n' j))
          * (linV x0 x2 x3 n j - meanR (fun n' => linV x0 x2 x3 n' j)) := by
  rw [Read.val_main_v11_apply, Read.val_main_cst_1_apply]
  have e1 : ∀ k, Read.idx_main_v11 (ix1 j) k = ix2 k j := fun k => funext fun a => by
    match a with | ⟨0, _⟩ => rfl | ⟨1, _⟩ => rfl
  simp only [e1, Read.val_main_v10_apply, v9_at, Ideal.ofBits_def, Ideal.mulf_def]
  rfl

/-- The column variance of the first dense layer. -/
theorem v13_at (x0 : Mat 1000000 128) (x2 : Mat 128 64) (x3 : Vc 64) (j : Fin 64) :
    Read.val_main_v13 (F := Ideal) x0 x2 x3 (ix1 j) = varR (fun n' => linV x0 x2 x3 n' j) := by
  rw [Read.val_main_v13_apply, v11_at, Read.val_main_v12_apply, Read.val_main_cst_2_apply]
  simp only [Ideal.hostDivf_def, Ideal.ofBits_def]
  rfl

/-- An entry of the first dense layer less its column mean (the copy that is scaled). -/
theorem v16_at (x0 : Mat 1000000 128) (x2 : Mat 128 64) (x3 : Vc 64) (n : Fin 1000000) (j : Fin 64) :
    Read.val_main_v16 (F := Ideal) x0 x2 x3 (ix2 n j)
      = linV x0 x2 x3 n j - meanR (fun n' => linV x0 x2 x3 n' j) := by
  rw [Read.val_main_v16_apply, v3_at, Read.val_main_v15_apply, Read.val_main_v14_apply]
  have e1 : Read.idx_main_v14 (Read.idx_main_v15 (ix2 n j)) = ix1 j := funext fun a => by
    match a with | ⟨0, _⟩ => rfl
  rw [e1, v6_at]
  rfl

/-- The per-channel scale of the first dense layer. -/
theorem v20_at (x0 : Mat 1000000 128) (x2 : Mat 128 64) (x3 : Vc 64) (x4 : Vc 64) (j : Fin 64) :
    Read.val_main_v20 (F := Ideal) x0 x2 x3 x4 (ix1 j)
      = x4 (ix1 j) * Ideal.rsqrt (varR (fun n' => linV x0 x2 x3 n' j) + epsW) := by
  rw [Read.val_main_v20_apply, Read.val_main_v19_apply, Read.val_main_v18_apply, v13_at,
    Read.val_main_v17_apply, Read.val_main_cst_3_apply]
  simp only [Ideal.hostUnary_rsqrt_def, Ideal.ofBits_def, Ideal.addf_def, Ideal.mulf_def]
  rfl

/-- An entry of the first dense layer after the normalisation. -/
theorem v26_at (x0 : Mat 1000000 128) (x2 : Mat 128 64) (x3 : Vc 64) (x4 : Vc 64) (x5 : Vc 64) (n : Fin 1000000) (j : Fin 64) :
    Read.val_main_v26 (F := Ideal) x0 x2 x3 x4 x5 (ix2 n j)
      = normR (fun n' => linV x0 x2 x3 n' j) (x4 (ix1 j)) (x5 (ix1 j)) n := by
  rw [Read.val_main_v26_apply, Read.val_main_v23_apply, v16_at, Read.val_main_v22_apply, Read.val_main_v21_apply,
    Read.val_main_v25_apply, Read.val_main_v24_apply]
  have e1 : Read.idx_main_v21 (Read.idx_main_v22 (ix2 n j)) = ix1 j := funext fun a => by
    match a with | ⟨0, _⟩ => rfl
  have e2 : Read.idx_main_v24 (Read.idx_main_v25 (ix2 n j)) = ix1 j := funext fun a => by
    match a with | ⟨0, _⟩ => rfl
  rw [e1, e2, v20_at]
  rfl

/-- Entry (n, j) of the second dense layer. -/
theorem v30_at (x1 : Mat 1000000 128) (x6 : Mat 128 64) (x7 : Vc 64) (n : Fin 1000000) (j : Fin 64) :
    Read.val_main_v30 (F := Ideal) x1 x6 x7 (ix2 n j) = linV x1 x6 x7 n j := by
  rw [Read.val_main_v30_apply, Read.val_main_v27_apply, Read.val_main_v29_apply, Read.val_main_v28_apply]
  have e1 : ∀ k, Read.lidx_main_v27 (ix2 n j) k = ix2 n k := fun k => funext fun a => by
    match a with | ⟨0, _⟩ => rfl | ⟨1, _⟩ => rfl
  have e2 : ∀ k, Read.ridx_main_v27 (ix2 n j) k = ix2 k j := fun k => funext fun a => by
    match a with | ⟨0, _⟩ => rfl | ⟨1, _⟩ => rfl
  have e3 : Read.idx_main_v28 (Read.idx_main_v29 (ix2 n j)) = ix1 j := funext fun a => by
    match a with | ⟨0, _⟩ => rfl
  simp only [e1, e2, e3, Ideal.addf_def]
  rfl

/-- The column sum of the second dense layer. -/
theorem v31_at (x1 : Mat 1000000 128) (x6 : Mat 128 64) (x7 : Vc 64) (j : Fin 64) :
    Read.val_main_v31 (F := Ideal) x1 x6 x7 (ix1 j) = zeroW + ∑ n : Fin 1000000, linV x1 x6 x7 n j := by
  rw [Read.val_main_v31_apply, Read.val_main_cst_4_apply]
  have e1 : ∀ k, Read.idx_main_v31 (ix1 j) k = ix2 k j := fun k => funext fun a => by
    match a with | ⟨0, _⟩ => rfl | ⟨1, _⟩ => rfl
  simp only [e1, v30_at, Ideal.ofBits_def]
  rfl

/-- The column mean of the second dense layer. -/
theorem v33_at (x1 : Mat 1000000 128) (x6 : Mat 128 64) (x7 : Vc 64) (j : Fin 64) :
    Read.val_main_v33 (F := Ideal) x1 x6 x7 (ix1 j) = meanR (fun n' => linV x1 x6 x7 n' j) := by
  rw [Read.val_main_v33_apply, v31_at, Read.val_main_v32_apply, Read.val_main_cst_5_apply]
  simp only [Ideal.hostDivf_def, Ideal.ofBits_def]
  rfl

/-- An entry of the second dense layer less its column mean (the copy used by the variance). -/
theorem v36_at (x1 : Mat 1000000 128) (x6 : Mat 128 64) (x7 : Vc 64) (n : Fin 1000000) (j : Fin 64) :
    Read.val_main_v36 (F := Ideal) x1 x6 x7 (ix2 n j)
      = linV x1 x6 x7 n j - meanR (fun n' => linV x1 x6 x7 n' j) := by
  rw [Read.val_main_v36_apply, v30_at, Read.val_main_v35_apply, Read.val_main_v34_apply]
  have e1 : Read.idx_main_v34 (Read.idx_main_v35 (ix2 n j)) = ix1 j := funext fun a => by
    match a with | ⟨0, _⟩ => rfl
  rw [e1, v33_at]
  rfl

/-- The column's sum of squared deviations, for the second dense layer. -/
theorem v38_at (x1 : Mat 1000000 128) (x6 : Mat 128 64) (x7 : Vc 64) (j : Fin 64) :
    Read.val_main_v38 (F := Ideal) x1 x6 x7 (ix1 j)
      = zeroW + ∑ n : Fin 1000000, (linV x1 x6 x7 n j - meanR (fun n' => linV x1 x6 x7 n' j))
          * (linV x1 x6 x7 n j - meanR (fun n' => linV x1 x6 x7 n' j)) := by
  rw [Read.val_main_v38_apply, Read.val_main_cst_6_apply]
  have e1 : ∀ k, Read.idx_main_v38 (ix1 j) k = ix2 k j := fun k => funext fun a => by
    match a with | ⟨0, _⟩ => rfl | ⟨1, _⟩ => rfl
  simp only [e1, Read.val_main_v37_apply, v36_at, Ideal.ofBits_def, Ideal.mulf_def]
  rfl

/-- The column variance of the second dense layer. -/
theorem v40_at (x1 : Mat 1000000 128) (x6 : Mat 128 64) (x7 : Vc 64) (j : Fin 64) :
    Read.val_main_v40 (F := Ideal) x1 x6 x7 (ix1 j) = varR (fun n' => linV x1 x6 x7 n' j) := by
  rw [Read.val_main_v40_apply, v38_at, Read.val_main_v39_apply, Read.val_main_cst_7_apply]
  simp only [Ideal.hostDivf_def, Ideal.ofBits_def]
  rfl

/-- An entry of the second dense layer less its column mean (the copy that is scaled). -/
theorem v43_at (x1 : Mat 1000000 128) (x6 : Mat 128 64) (x7 : Vc 64) (n : Fin 1000000) (j : Fin 64) :
    Read.val_main_v43 (F := Ideal) x1 x6 x7 (ix2 n j)
      = linV x1 x6 x7 n j - meanR (fun n' => linV x1 x6 x7 n' j) := by
  rw [Read.val_main_v43_apply, v30_at, Read.val_main_v42_apply, Read.val_main_v41_apply]
  have e1 : Read.idx_main_v41 (Read.idx_main_v42 (ix2 n j)) = ix1 j := funext fun a => by
    match a with | ⟨0, _⟩ => rfl
  rw [e1, v33_at]
  rfl

/-- The per-channel scale of the second dense layer. -/
theorem v47_at (x1 : Mat 1000000 128) (x6 : Mat 128 64) (x7 : Vc 64) (x8 : Vc 64) (j : Fin 64) :
    Read.val_main_v47 (F := Ideal) x1 x6 x7 x8 (ix1 j)
      = x8 (ix1 j) * Ideal.rsqrt (varR (fun n' => linV x1 x6 x7 n' j) + epsW) := by
  rw [Read.val_main_v47_apply, Read.val_main_v46_apply, Read.val_main_v45_apply, v40_at,
    Read.val_main_v44_apply, Read.val_main_cst_8_apply]
  simp only [Ideal.hostUnary_rsqrt_def, Ideal.ofBits_def, Ideal.addf_def, Ideal.mulf_def]
  rfl

/-- An entry of the second dense layer after the normalisation. -/
theorem v53_at (x1 : Mat 1000000 128) (x6 : Mat 128 64) (x7 : Vc 64) (x8 : Vc 64) (x9 : Vc 64) (n : Fin 1000000) (j : Fin 64) :
    Read.val_main_v53 (F := Ideal) x1 x6 x7 x8 x9 (ix2 n j)
      = normR (fun n' => linV x1 x6 x7 n' j) (x8 (ix1 j)) (x9 (ix1 j)) n := by
  rw [Read.val_main_v53_apply, Read.val_main_v50_apply, v43_at, Read.val_main_v49_apply, Read.val_main_v48_apply,
    Read.val_main_v52_apply, Read.val_main_v51_apply]
  have e1 : Read.idx_main_v48 (Read.idx_main_v49 (ix2 n j)) = ix1 j := funext fun a => by
    match a with | ⟨0, _⟩ => rfl
  have e2 : Read.idx_main_v51 (Read.idx_main_v52 (ix2 n j)) = ix1 j := funext fun a => by
    match a with | ⟨0, _⟩ => rfl
  rw [e1, e2, v47_at]
  rfl

/-- Entry (n, j) of the rectified sum of the two normalised layers. -/
theorem v55_at (x0 x1 : Mat 1000000 128) (x2 : Mat 128 64) (x3 x4 x5 : Vc 64) (x6 : Mat 128 64) (x7 x8 x9 : Vc 64) (n : Fin 1000000) (j : Fin 64) :
    Read.val_main_v55 (F := Ideal) x0 x1 x2 x3 x4 x5 x6 x7 x8 x9 (ix2 n j)
      = max (normR (fun n' => linV x0 x2 x3 n' j) (x4 (ix1 j)) (x5 (ix1 j)) n
          + normR (fun n' => linV x1 x6 x7 n' j) (x8 (ix1 j)) (x9 (ix1 j)) n) zeroW := by
  rw [Read.val_main_v55_apply, Read.val_main_v54_apply, v26_at, v53_at, Read.val_main_call0_v0_apply,
    Read.val_main_call0_cst_apply]
  simp only [Ideal.maximumf_def, Ideal.addf_def, Ideal.ofBits_def]
  rfl

/-- The gate's pre-activation at row n. -/
theorem v59_at (x0 x1 : Mat 1000000 128) (x2 : Mat 128 64) (x3 x4 x5 : Vc 64) (x6 : Mat 128 64) (x7 x8 x9 : Vc 64) (x10 : Mat 64 1) (x11 : Vc 1) (n : Fin 1000000) :
    Read.val_main_v59 (F := Ideal) x0 x1 x2 x3 x4 x5 x6 x7 x8 x9 x10 x11 (ix2 n (0 : Fin 1))
      = gatePreR x0 x1 x2 x3 x4 x5 x6 x7 x8 x9 x10 x11 n := by
  rw [Read.val_main_v59_apply, Read.val_main_v56_apply, Read.val_main_v58_apply, Read.val_main_v57_apply]
  have e1 : ∀ k, Read.lidx_main_v56 (ix2 n (0 : Fin 1)) k = ix2 n k := fun k => funext fun a => by
    match a with | ⟨0, _⟩ => rfl | ⟨1, _⟩ => rfl
  have e2 : ∀ k, Read.ridx_main_v56 (ix2 n (0 : Fin 1)) k = ix2 k (0 : Fin 1) := fun k => funext fun a => by
    match a with | ⟨0, _⟩ => rfl | ⟨1, _⟩ => rfl
  have e3 : Read.idx_main_v57 (Read.idx_main_v58 (ix2 n (0 : Fin 1))) = ix1 (0 : Fin 1) := funext fun a => by
    match a with | ⟨0, _⟩ => rfl
  simp only [e1, e2, e3, v55_at, Ideal.addf_def]
  rfl

/-- The column sum of the gate's pre-activation. -/
theorem v60_at (x0 x1 : Mat 1000000 128) (x2 : Mat 128 64) (x3 x4 x5 : Vc 64) (x6 : Mat 128 64) (x7 x8 x9 : Vc 64) (x10 : Mat 64 1) (x11 : Vc 1) :
    Read.val_main_v60 (F := Ideal) x0 x1 x2 x3 x4 x5 x6 x7 x8 x9 x10 x11 (ix1 (0 : Fin 1)) = zeroW + ∑ n : Fin 1000000, gatePreR x0 x1 x2 x3 x4 x5 x6 x7 x8 x9 x10 x11 n := by
  rw [Read.val_main_v60_apply, Read.val_main_cst_9_apply]
  have e1 : ∀ k, Read.idx_main_v60 (ix1 (0 : Fin 1)) k = ix2 k (0 : Fin 1) := fun k => funext fun a => by
    match a with | ⟨0, _⟩ => rfl | ⟨1, _⟩ => rfl
  simp only [e1, v59_at, Ideal.ofBits_def]
  rfl

/-- The column mean of the gate's pre-activation. -/
theorem v62_at (x0 x1 : Mat 1000000 128) (x2 : Mat 128 64) (x3 x4 x5 : Vc 64) (x6 : Mat 128 64) (x7 x8 x9 : Vc 64) (x10 : Mat 64 1) (x11 : Vc 1) :
    Read.val_main_v62 (F := Ideal) x0 x1 x2 x3 x4 x5 x6 x7 x8 x9 x10 x11 (ix1 (0 : Fin 1)) = meanR (gatePreR x0 x1 x2 x3 x4 x5 x6 x7 x8 x9 x10 x11) := by
  rw [Read.val_main_v62_apply, v60_at, Read.val_main_v61_apply, Read.val_main_cst_10_apply]
  simp only [Ideal.hostDivf_def, Ideal.ofBits_def]
  rfl

/-- An entry of the gate's pre-activation less its column mean (the copy used by the variance). -/
theorem v65_at (x0 x1 : Mat 1000000 128) (x2 : Mat 128 64) (x3 x4 x5 : Vc 64) (x6 : Mat 128 64) (x7 x8 x9 : Vc 64) (x10 : Mat 64 1) (x11 : Vc 1) (n : Fin 1000000) :
    Read.val_main_v65 (F := Ideal) x0 x1 x2 x3 x4 x5 x6 x7 x8 x9 x10 x11 (ix2 n (0 : Fin 1))
      = gatePreR x0 x1 x2 x3 x4 x5 x6 x7 x8 x9 x10 x11 n - meanR (gatePreR x0 x1 x2 x3 x4 x5 x6 x7 x8 x9 x10 x11) := by
  rw [Read.val_main_v65_apply, v59_at, Read.val_main_v64_apply, Read.val_main_v63_apply]
  have e1 : Read.idx_main_v63 (Read.idx_main_v64 (ix2 n (0 : Fin 1))) = ix1 (0 : Fin 1) := funext fun a => by
    match a with | ⟨0, _⟩ => rfl
  rw [e1, v62_at]
  rfl

/-- The column's sum of squared deviations, for the gate's pre-activation. -/
theorem v67_at (x0 x1 : Mat 1000000 128) (x2 : Mat 128 64) (x3 x4 x5 : Vc 64) (x6 : Mat 128 64) (x7 x8 x9 : Vc 64) (x10 : Mat 64 1) (x11 : Vc 1) :
    Read.val_main_v67 (F := Ideal) x0 x1 x2 x3 x4 x5 x6 x7 x8 x9 x10 x11 (ix1 (0 : Fin 1))
      = zeroW + ∑ n : Fin 1000000, (gatePreR x0 x1 x2 x3 x4 x5 x6 x7 x8 x9 x10 x11 n - meanR (gatePreR x0 x1 x2 x3 x4 x5 x6 x7 x8 x9 x10 x11))
          * (gatePreR x0 x1 x2 x3 x4 x5 x6 x7 x8 x9 x10 x11 n - meanR (gatePreR x0 x1 x2 x3 x4 x5 x6 x7 x8 x9 x10 x11)) := by
  rw [Read.val_main_v67_apply, Read.val_main_cst_11_apply]
  have e1 : ∀ k, Read.idx_main_v67 (ix1 (0 : Fin 1)) k = ix2 k (0 : Fin 1) := fun k => funext fun a => by
    match a with | ⟨0, _⟩ => rfl | ⟨1, _⟩ => rfl
  simp only [e1, Read.val_main_v66_apply, v65_at, Ideal.ofBits_def, Ideal.mulf_def]
  rfl

/-- The column variance of the gate's pre-activation. -/
theorem v69_at (x0 x1 : Mat 1000000 128) (x2 : Mat 128 64) (x3 x4 x5 : Vc 64) (x6 : Mat 128 64) (x7 x8 x9 : Vc 64) (x10 : Mat 64 1) (x11 : Vc 1) :
    Read.val_main_v69 (F := Ideal) x0 x1 x2 x3 x4 x5 x6 x7 x8 x9 x10 x11 (ix1 (0 : Fin 1)) = varR (gatePreR x0 x1 x2 x3 x4 x5 x6 x7 x8 x9 x10 x11) := by
  rw [Read.val_main_v69_apply, v67_at, Read.val_main_v68_apply, Read.val_main_cst_12_apply]
  simp only [Ideal.hostDivf_def, Ideal.ofBits_def]
  rfl

/-- An entry of the gate's pre-activation less its column mean (the copy that is scaled). -/
theorem v72_at (x0 x1 : Mat 1000000 128) (x2 : Mat 128 64) (x3 x4 x5 : Vc 64) (x6 : Mat 128 64) (x7 x8 x9 : Vc 64) (x10 : Mat 64 1) (x11 : Vc 1) (n : Fin 1000000) :
    Read.val_main_v72 (F := Ideal) x0 x1 x2 x3 x4 x5 x6 x7 x8 x9 x10 x11 (ix2 n (0 : Fin 1))
      = gatePreR x0 x1 x2 x3 x4 x5 x6 x7 x8 x9 x10 x11 n - meanR (gatePreR x0 x1 x2 x3 x4 x5 x6 x7 x8 x9 x10 x11) := by
  rw [Read.val_main_v72_apply, v59_at, Read.val_main_v71_apply, Read.val_main_v70_apply]
  have e1 : Read.idx_main_v70 (Read.idx_main_v71 (ix2 n (0 : Fin 1))) = ix1 (0 : Fin 1) := funext fun a => by
    match a with | ⟨0, _⟩ => rfl
  rw [e1, v62_at]
  rfl

/-- The per-channel scale of the gate's pre-activation. -/
theorem v76_at (x0 x1 : Mat 1000000 128) (x2 : Mat 128 64) (x3 x4 x5 : Vc 64) (x6 : Mat 128 64) (x7 x8 x9 : Vc 64) (x10 : Mat 64 1) (x11 : Vc 1) (x12 : Vc 1) :
    Read.val_main_v76 (F := Ideal) x0 x1 x2 x3 x4 x5 x6 x7 x8 x9 x10 x11 x12 (ix1 (0 : Fin 1))
      = x12 (ix1 (0 : Fin 1)) * Ideal.rsqrt (varR (gatePreR x0 x1 x2 x3 x4 x5 x6 x7 x8 x9 x10 x11) + epsW) := by
  rw [Read.val_main_v76_apply, Read.val_main_v75_apply, Read.val_main_v74_apply, v69_at,
    Read.val_main_v73_apply, Read.val_main_cst_13_apply]
  simp only [Ideal.hostUnary_rsqrt_def, Ideal.ofBits_def, Ideal.addf_def, Ideal.mulf_def]
  rfl

/-- An entry of the gate's pre-activation after the normalisation. -/
theorem v82_at (x0 x1 : Mat 1000000 128) (x2 : Mat 128 64) (x3 x4 x5 : Vc 64) (x6 : Mat 128 64) (x7 x8 x9 : Vc 64) (x10 : Mat 64 1) (x11 : Vc 1) (x12 : Vc 1) (x13 : Vc 1) (n : Fin 1000000) :
    Read.val_main_v82 (F := Ideal) x0 x1 x2 x3 x4 x5 x6 x7 x8 x9 x10 x11 x12 x13 (ix2 n (0 : Fin 1))
      = normR (gatePreR x0 x1 x2 x3 x4 x5 x6 x7 x8 x9 x10 x11) (x12 (ix1 (0 : Fin 1))) (x13 (ix1 (0 : Fin 1))) n := by
  rw [Read.val_main_v82_apply, Read.val_main_v79_apply, v72_at, Read.val_main_v78_apply, Read.val_main_v77_apply,
    Read.val_main_v81_apply, Read.val_main_v80_apply]
  have e1 : Read.idx_main_v77 (Read.idx_main_v78 (ix2 n (0 : Fin 1))) = ix1 (0 : Fin 1) := funext fun a => by
    match a with | ⟨0, _⟩ => rfl
  have e2 : Read.idx_main_v80 (Read.idx_main_v81 (ix2 n (0 : Fin 1))) = ix1 (0 : Fin 1) := funext fun a => by
    match a with | ⟨0, _⟩ => rfl
  rw [e1, e2, v76_at]
  rfl

/-- The reference program's result, entry by entry. -/
theorem ref_eq (x0 x1 : Mat 1000000 128) (x2 : Mat 128 64) (x3 x4 x5 : Vc 64) (x6 : Mat 128 64) (x7 x8 x9 : Vc 64) (x10 : Mat 64 1) (x11 x12 x13 : Vc 1) :
    Read.val_main_v90 (F := Ideal) x0 x1 x2 x3 x4 x5 x6 x7 x8 x9 x10 x11 x12 x13
      = refOut x0 x1 x2 x3 x4 x5 x6 x7 x8 x9 x10 x11 x12 x13 := by
  funext i
  obtain ⟨n, c, rfl⟩ : ∃ (n : Fin 1000000) (c : Fin 128), i = ix2 n c := ⟨i 0, i 1, eq_ix2 i⟩
  rw [Read.val_main_v90_apply, Read.val_main_v89_apply]
  have e1 : Read.idx_main_v89 (ix2 n c) = ix2 n (0 : Fin 1) := funext fun a => by
    match a with | ⟨0, _⟩ => rfl | ⟨1, _⟩ => rfl
  rw [e1, Read.val_main_v88_apply, Read.val_main_v87_apply, Read.val_main_cst_15_apply, Read.val_main_v86_apply,
    Read.val_main_v85_apply, Read.val_main_cst_14_apply, Read.val_main_v84_apply, Read.val_main_v83_apply, v82_at]
  simp only [Ideal.hostDivf_def, Ideal.hostUnary_exp_def, Ideal.hostNegf_def, Ideal.negf_def, Ideal.addf_def,
    Ideal.mulf_def, Ideal.ofBits_def]
  rfl

end Cert.RefStages

end
-- ==== Proof.lean ====
/-
  Both programs compute  skip · σ(BN(ψ))  where  ψ = relu(BN(gate·Wg + bg) + BN(skip·Wx + bx))·Wψ + bψ,  σ is the
  logistic function and BN is the batch normalisation of a column over the million rows, scaled by γ and shifted by β.
  The first program forms each BN from the per-half sums and sums of squares of the column: the variance is the mean
  of squares less the squared mean, clamped at 0, and mean, variance, γ and β are folded into one scale and one shift
  per channel.  The second program forms the mean first and the variance from the deviations.  On the extended reals
  the two spellings agree as soon as every input entry is a real number, which is what the precondition says; so from
  memories that agree on the fourteen arguments both programs end with one and the same result array, written here
  once as a function of the first program's arguments.  Each program also runs to the end leaving its arguments as
  they were.
-/
import proofs.«119614_j3375844294910_2_alg».proof.Defs
import proofs.«119614_j3375844294910_2_alg».proof.Proof.Gen.Kernel
import proofs.«119614_j3375844294910_2_alg».proof.Proof.Gen.Kernel.Skeleton
import proofs.«119614_j3375844294910_2_alg».proof.Proof.Gen.Kernel.Launch
import proofs.«119614_j3375844294910_2_alg».proof.Proof.Gen.Kernel.Points
import proofs.«119614_j3375844294910_2_alg».proof.Proof.Gen.Kernel.Frame
import proofs.«119614_j3375844294910_2_alg».proof.Proof.Gen.KernelIdeal
import proofs.«119614_j3375844294910_2_alg».proof.Proof.Gen.KernelIdeal.Skeleton
import proofs.«119614_j3375844294910_2_alg».proof.Proof.Gen.KernelIdeal.Launch
import proofs.«119614_j3375844294910_2_alg».proof.Proof.Gen.KernelIdeal.Points
import proofs.«119614_j3375844294910_2_alg».proof.Proof.Gen.KernelIdeal.Frame
import proofs.«119614_j3375844294910_2_alg».proof.Proof.Gen.ReferenceIdeal
import proofs.«119614_j3375844294910_2_alg».proof.Proof.Gen.ReferenceIdeal.Run
import proofs.«119614_j3375844294910_2_alg».proof.Proof.Gen.ReferenceIdeal.Read
import proofs.«119614_j3375844294910_2_alg».proof.Proof.Gen.Pre_finite_inputs
import proofs.«119614_j3375844294910_2_alg».proof.Proof.Spec
import proofs.«119614_j3375844294910_2_alg».proof.Proof.KRun
import proofs.«119614_j3375844294910_2_alg».proof.Proof.KValue
import proofs.«119614_j3375844294910_2_alg».proof.Proof.KStages
import proofs.«119614_j3375844294910_2_alg».proof.Proof.PreReal
import proofs.«119614_j3375844294910_2_alg».proof.Proof.NormForms
import proofs.«119614_j3375844294910_2_alg».proof.Proof.RefStages
import Idealize.ShloMosaic.Adequacy
import Idealize.ShloMosaic.Init

noncomputable section

namespace Cert.Proof.Claims

open Idealize.ShloMosaic Idealize.SL.Sem

/-- The first program as printed runs to the end with its arguments unchanged. -/
theorem frame_k : Cert.frame_Kernel := fun m ρ _ => Cert.Kernel.Gen.frame m ρ

/-- The first program on the extended reals runs to the end with its arguments unchanged. -/
theorem frame_ki : Cert.frame_KernelIdeal := fun m ρ _ => Cert.KernelIdeal.Gen.frame m ρ

/-- The second program on the extended reals runs to the end with its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- No operation of the first program was rewritten for the extended reals: nothing to preserve. -/
theorem preserves : Cert.preserves_Kernel_KernelIdeal := trivial

/-- On real inputs the first program's result array is the second program's function of the same arguments: the
    per-channel rows and cells hold the vectors' entries, and the two spellings of the normalisation agree. -/
theorem kernel_value (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Gen.W6 m ρ c (Proc.devRef .tc Cert.KernelIdeal.main_v60)
      = Cert.Spec.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)) := by
  obtain ⟨h0, h1, h2, h3, h4, h5, h6, h7, h8, h9, h10, h11, h12, h13⟩ := Cert.PreReal.args_real m hpre c
  exact (Cert.KernelIdeal.KValue.result_eq m ρ c).trans
    (Cert.NormForms.kerOut_eq_refOut _ _ _ _ _ _ _ _ _ _ _ _ _ _ _ _ _ _ _ _ _ _ _ _
      h0 h1 h2 h3 h4 h5 h6 h7 h8 h9 h10 h11 h12 h13
      (fun j => Cert.KernelIdeal.KStages.row_of_vec (m ((c.tc : Thread Cert.KernelIdeal.nD Cert.KernelIdeal.τ).loc Cert.KernelIdeal.main_arg3)) j)
      (fun j => Cert.KernelIdeal.KStages.row_of_vec (m ((c.tc : Thread Cert.KernelIdeal.nD Cert.KernelIdeal.τ).loc Cert.KernelIdeal.main_arg4)) j)
      (fun j => Cert.KernelIdeal.KStages.row_of_vec (m ((c.tc : Thread Cert.KernelIdeal.nD Cert.KernelIdeal.τ).loc Cert.KernelIdeal.main_arg5)) j)
      (fun j => Cert.KernelIdeal.KStages.row_of_vec (m ((c.tc : Thread Cert.KernelIdeal.nD Cert.KernelIdeal.τ).loc Cert.KernelIdeal.main_arg7)) j)
      (fun j => Cert.KernelIdeal.KStages.row_of_vec (m ((c.tc : Thread Cert.KernelIdeal.nD Cert.KernelIdeal.τ).loc Cert.KernelIdeal.main_arg8)) j)
      (fun j => Cert.KernelIdeal.KStages.row_of_vec (m ((c.tc : Thread Cert.KernelIdeal.nD Cert.KernelIdeal.τ).loc Cert.KernelIdeal.main_arg9)) j)
      (fun j => Cert.KernelIdeal.KStages.row_of_col (m ((c.tc : Thread Cert.KernelIdeal.nD Cert.KernelIdeal.τ).loc Cert.KernelIdeal.main_arg10)) j)
      (Cert.KernelIdeal.KStages.cell_of_vec (m ((c.tc : Thread Cert.KernelIdeal.nD Cert.KernelIdeal.τ).loc Cert.KernelIdeal.main_arg11)))
      (Cert.KernelIdeal.KStages.cell_of_vec (m ((c.tc : Thread Cert.KernelIdeal.nD Cert.KernelIdeal.τ).loc Cert.KernelIdeal.main_arg12)))
      (Cert.KernelIdeal.KStages.cell_of_vec (m ((c.tc : Thread Cert.KernelIdeal.nD Cert.KernelIdeal.τ).loc Cert.KernelIdeal.main_arg13))))

/-- From a memory agreeing with the first program's on the fourteen arguments, the second program's result array is
    its result function of the first program's arguments. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Value.res_main_v90 m' c
      = Cert.Spec.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)) := by
  obtain ⟨a0, a1, a2, a3, a4, a5, a6, a7, a8, a9, a10, a11, a12, a13⟩ := hagree
  rw [Cert.ReferenceIdeal.Read.val_main_v90_eq, Cert.RefStages.ref_eq, a0, a1, a2, a3, a4, a5, a6, a7, a8, a9, a10, a11,
    a12, a13]

/-- On the extended reals, from memories agreeing on the arguments, both programs run to the end with equal result
    arrays and unchanged arguments. -/
theorem algebraic : Cert.algebraic_KernelIdeal_ReferenceIdeal := by
  intro m ρ m' ρ' hpre hagree
  refine ⟨fun c => Cert.Spec.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono (fun r h c => ⟨(h c).1.trans (kernel_value m ρ hpre c), (h c).2⟩)
      (Cert.KernelIdeal.KRun.run_result m ρ)
  · exact (θ_run Cert.ReferenceIdeal.defs _ _).mono
      (fun r h c => ⟨(h c).1.trans (reference_value m m' c (hagree c)), (h c).2⟩)
      (Cert.ReferenceIdeal.Value.run (F := Ideal) m' ρ')

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
